-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x1024x64 .f32) (main_arg1 : FVec F S64x128 .f32) (main_arg2 : FVec F S64 .f32) (main_arg3 : FVec F S64x64 .f32) (main_arg4 : FVec F S64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S2x4x64 : Shape := ⟨3, ![2, 4, 64]⟩
abbrev S4x512x64 : Shape := ⟨3, ![4, 512, 64]⟩
abbrev S1x4x64 : Shape := ⟨3, ![1, 4, 64]⟩
abbrev S1x512x1 : Shape := ⟨3, ![1, 512, 1]⟩
abbrev S4x64 : Shape := ⟨2, ![4, 64]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S4x1024x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1x64, .f32⟩
  | .hbm, ⟨7, _⟩ => ⟨S2x4x64, .f32⟩
  | .hbm, ⟨8, _⟩ => ⟨S_, .f32⟩
  | .hbm, ⟨9, _⟩ => ⟨S4x64, .f32⟩
  | .local _ .vmem, ⟨0, _⟩ => ⟨S4x512x64, .f32⟩
  | .local _ .vmem, ⟨1, _⟩ => ⟨S4x512x64, .f32⟩
  | .local _ .vmem, ⟨2, _⟩ => ⟨S64x128, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x4x64, .f32⟩
  | .local _ .vmem, ⟨7, _⟩ => ⟨S1x4x64, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S4x512x64_S4x512x64_0_0_0 : ∀ a, (![0, 0, 0] : Fin 3 → Nat) a + S4x512x64.size a ≤ S4x512x64.size a
  h_S4x512x64 : 0 < S4x512x64.numel
  iota_S1x512x1_d1_w32 : S1x512x1.Iotas .tc 32 [1]
  reduces_S4x512x64_S4x64 : S4x512x64.Reduces [1] S4x64
  broadcasts_S1x512x1_S4x512x64 : S1x512x1.Broadcasts S4x512x64
  inb_S64x128_S64x128_0_0 : ∀ a, (![0, 0] : Fin 2 → Nat) a + S64x128.size a ≤ S64x128.size a
  h_S64x128 : 0 < S64x128.numel
  slices_S64x128_o0_0_S64x64 : S64x128.Slices ![0, 0] S64x64
  slices_S64x128_o0_64_S64x64 : S64x128.Slices ![0, 64] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4x64 : S1x64.Broadcasts S4x64
  inb_S64x64_S64x64_0_0 : ∀ a, (![0, 0] : Fin 2 → Nat) a + S64x64.size a ≤ S64x64.size a
  h_S64x64 : 0 < S64x64.numel
  shapeCasts_S4x64_S1x4x64 : S4x64.ShapeCasts S1x4x64
  inb_S1x4x64_S1x4x64_0_0_0 : ∀ a, (![0, 0, 0] : Fin 3 → Nat) a + S1x4x64.size a ≤ S1x4x64.size a
  h_S1x4x64 : 0 < S1x4x64.numel
  reducesTo_S2x4x64_S4x64_d0 : S2x4x64.ReducesTo [0] S4x64
  h_S_ : 0 < S_.numel
  dot_S4x64_S64x64_S4x64_1_1_0_0_n_n_wf : DotDims.WF S4x64 S64x64 S4x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S4x1024x64.size a
  hwx0_0 : ∀ i : grid0.Coords, EltTy.bits .f32 = 32 ∨ (Rect.block (s := S4x1024x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x64.size a ≤ S2x4x64.size a
  hwx0_5 : ∀ i : grid0.Coords, EltTy.bits .f32 = 32 ∨ (Rect.block (s := S2x4x64) S1x4x64.size (cc0_transform_5 i) (hinb0_5 i)).WholeWords (EltTy.packing .f32)

variable [Facts₀]

def dot_S4x64_S64x64_S4x64_1_1_0_0_n_n : DotDims S4x64 S64x64 S4x64 where
  lhsContracting := [1]
  rhsContracting := [1]
  lhsNonContracting := [0]
  rhsNonContracting := [0]
  lhsBatch := []
  rhsBatch := []
  wf := dot_S4x64_S64x64_S4x64_1_1_0_0_n_n_wf

abbrev win0_0 : Pipeline.Window sig grid0 :=
  Pipeline.Window.ofSpec (Memref.whole main_arg0) S4x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S4x523776x64 : Shape := ⟨3, ![4, 523776, 64]⟩
abbrev S1x1x64 : Shape := ⟨3, ![1, 1, 64]⟩
abbrev S4x64 : Shape := ⟨2, ![4, 64]⟩
abbrev S1x64 : Shape := ⟨2, ![1, 64]⟩

abbrev nBuf : Space → Nat
  | .hbm => 155
  | .vmem => 0
  | .smem => 0
  | _ => 0

abbrev hbmTy0_0 (i : Nat) : BufTy := match i % 128 with
  | 0 => ⟨S4x1024x64, .f32⟩
  | 1 => ⟨S64x128, .f32⟩
  | 2 => ⟨S64, .f32⟩
  | 3 => ⟨S64x64, .f32⟩
  | 4 => ⟨S64, .f32⟩
  | 5 => ⟨S_, .f32⟩
  | 6 => ⟨S1024x1024, .f32⟩
  | 7 => ⟨S1024x1024, .i32⟩
  | 8 => ⟨S_, .i32⟩
  | 9 => ⟨S1024x1024, .i32⟩
  | 10 => ⟨S1024x1024, .i32⟩
  | 11 => ⟨S1024x1024, .i32⟩
  | 12 => ⟨S1024x1024, .i1⟩
  | 13 => ⟨S_, .f32⟩
  | 14 => ⟨S1024x1024, .f32⟩
  | 15 => ⟨S1024x1024, .f32⟩
  | 16 => ⟨S_, .f32⟩
  | 17 => ⟨S1024x1024, .f32⟩
  | 18 => ⟨S1024x1024, .i1⟩
  | 19 => ⟨S1048576, .i1⟩
  | 20 => ⟨S1048576, .i32⟩
  | 21 => ⟨S_, .i32⟩
  | 22 => ⟨S_, .i32⟩
  | 23 => ⟨S1048576, .i32⟩
  | 24 => ⟨S_, .i32⟩
  | 25 => ⟨S523776, .i32⟩
  | 26 => ⟨S_, .i32⟩
  | 27 => ⟨S_, .i32⟩
  | 28 => ⟨S1048576, .i32⟩
  | 29 => ⟨S1048576, .i32⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S1048576x1, .i32⟩
  | 38 => ⟨S_, .i32⟩
  | 39 => ⟨S1048576, .i32⟩
  | 40 => ⟨S523776, .i32⟩
  | 41 => ⟨S_, .i32⟩
  | 42 => ⟨S_, .i32⟩
  | 43 => ⟨S523776, .i32⟩
  | 44 => ⟨S_, .i32⟩
  | 45 => ⟨S523776, .i32⟩
  | 46 => ⟨S523776, .i32⟩
  | 47 => ⟨S523776, .i32⟩
  | 48 => ⟨S_, .i32⟩
  | 49 => ⟨S523776, .i32⟩
  | 50 => ⟨S523776, .i1⟩
  | 51 => ⟨S523776, .i32⟩
  | 52 => ⟨S523776, .i32⟩
  | 53 => ⟨S_, .i32⟩
  | 54 => ⟨S523776, .i32⟩
  | 55 => ⟨S523776, .i1⟩
  | 56 => ⟨S523776, .i1⟩
  | 57 => ⟨S_, .i32⟩
  | 58 => ⟨S523776, .i32⟩
  | 59 => ⟨S523776, .i32⟩
  | 60 => ⟨S523776, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S523776, .i32⟩
  | 68 => ⟨S523776, .i32⟩
  | 69 => ⟨S_, .i32⟩
  | 70 => ⟨S523776, .i32⟩
  | 71 => ⟨S523776, .i1⟩
  | 72 => ⟨S_, .i32⟩
  | 73 => ⟨S523776, .i32⟩
  | 74 => ⟨S523776, .i1⟩
  | 75 => ⟨S_, .i32⟩
  | 76 => ⟨S_, .i1⟩
  | 77 => ⟨S523776, .i1⟩
  | 78 => ⟨S523776, .i1⟩
  | 79 => ⟨S523776, .i1⟩
  | 80 => ⟨S523776, .i32⟩
  | 81 => ⟨S523776, .i32⟩
  | 82 => ⟨S523776, .i32⟩
  | 83 => ⟨S_, .i32⟩
  | 84 => ⟨S523776, .i32⟩
  | 85 => ⟨S523776, .i32⟩
  | 86 => ⟨S523776, .i32⟩
  | 87 => ⟨S_, .i32⟩
  | 88 => ⟨S523776, .i32⟩
  | 89 => ⟨S523776, .i1⟩
  | 90 => ⟨S523776, .i32⟩
  | 91 => ⟨S523776, .i32⟩
  | 92 => ⟨S_, .i32⟩
  | 93 => ⟨S523776, .i32⟩
  | 94 => ⟨S523776, .i1⟩
  | 95 => ⟨S523776, .i1⟩
  | 96 => ⟨S_, .i32⟩
  | 97 => ⟨S523776, .i32⟩
  | 98 => ⟨S523776, .i32⟩
  | 99 => ⟨S523776, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S523776, .i32⟩
  | 107 => ⟨S523776, .i32⟩
  | 108 => ⟨S_, .i32⟩
  | 109 => ⟨S523776, .i32⟩
  | 110 => ⟨S523776, .i1⟩
  | 111 => ⟨S_, .i32⟩
  | 112 => ⟨S523776, .i32⟩
  | 113 => ⟨S523776, .i1⟩
  | 114 => ⟨S_, .i32⟩
  | 115 => ⟨S_, .i1⟩
  | 116 => ⟨S523776, .i1⟩
  | 117 => ⟨S523776, .i1⟩
  | 118 => ⟨S523776, .i1⟩
  | 119 => ⟨S523776, .i32⟩
  | 120 => ⟨S523776, .i32⟩
  | 121 => ⟨S523776, .i32⟩
  | 122 => ⟨S64x64, .f32⟩
  | 123 => ⟨S64x64, .f32⟩
  | 124 => ⟨S_, .i32⟩
  | 125 => ⟨S523776, .i32⟩
  | 126 => ⟨S523776, .i1⟩
  | 127 => ⟨S_, .i32⟩
  | _ => ⟨S4x1024x64, .f32⟩

abbrev hbmTy0_1 (i : Nat) : BufTy := match i % 128 with
  | 0 => ⟨S523776, .i32⟩
  | 1 => ⟨S523776, .i32⟩
  | 2 => ⟨S523776, .i32⟩
  | 3 => ⟨S523776x1, .i32⟩
  | 4 => ⟨S4x523776x64, .f32⟩
  | 5 => ⟨S4x523776x64, .f32⟩
  | 6 => ⟨S_, .i32⟩
  | 7 => ⟨S523776, .i32⟩
  | 8 => ⟨S523776, .i1⟩
  | 9 => ⟨S_, .i32⟩
  | 10 => ⟨S523776, .i32⟩
  | 11 => ⟨S523776, .i32⟩
  | 12 => ⟨S523776, .i32⟩
  | 13 => ⟨S523776x1, .i32⟩
  | 14 => ⟨S4x523776x64, .f32⟩
  | 15 => ⟨S4x523776x64, .f32⟩
  | 16 => ⟨S4x523776x64, .f32⟩
  | 17 => ⟨S1x1x64, .f32⟩
  | 18 => ⟨S4x523776x64, .f32⟩
  | 19 => ⟨S4x523776x64, .f32⟩
  | 20 => ⟨S_, .f32⟩
  | 21 => ⟨S4x64, .f32⟩
  | 22 => ⟨S64x64, .f32⟩
  | 23 => ⟨S4x64, .f32⟩
  | 24 => ⟨S1x64, .f32⟩
  | 25 => ⟨S4x64, .f32⟩
  | 26 => ⟨S4x64, .f32⟩
  | _ => ⟨S4x1024x64, .f32⟩

abbrev hbmTy (i : Nat) : BufTy := match i / 128 with
  | 0 => hbmTy0_0 i
  | 1 => hbmTy0_1 i
  | _ => ⟨S4x1024x64, .f32⟩

abbrev bufTy : (tb : Table) → Fin (tcTables nBuf tb) → BufTy
  | .hbm, ⟨i, _⟩ => hbmTy i
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_call3_call0_c : Ref sig .tc := ⟨.hbm, 41, rfl⟩
abbrev main_call3_call0_v0 : Ref sig .tc := ⟨.hbm, 42, rfl⟩
abbrev main_v15 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v16 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v17 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v18 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_c_9 : Ref sig .tc := ⟨.hbm, 124, rfl⟩
abbrev main_v22 : Ref sig .tc := ⟨.hbm, 125, rfl⟩
abbrev main_v23 : Ref sig .tc := ⟨.hbm, 126, rfl⟩
abbrev main_c_10 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_c_11 : Ref sig .tc := ⟨.hbm, 134, rfl⟩
abbrev main_v30 : Ref sig .tc := ⟨.hbm, 135, rfl⟩
abbrev main_v31 : Ref sig .tc := ⟨.hbm, 136, rfl⟩
abbrev main_c_12 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_cst_13 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  slices_S64x128_S64x64_0_0 : S64x128.Slices ![0, 0] S64x64
  slices_S64x128_S64x64_0_64 : S64x128.Slices ![0, 64] S64x64
  bcast_S523776_S523776x1_0 : S523776.BroadcastsInDim S523776x1 (![0] : Fin 1 → Fin S523776x1.rank)
  bcast_S64_S1x1x64_2 : S64.BroadcastsInDim S1x1x64 (![2] : Fin 1 → Fin S1x1x64.rank)
  bcast_S1x1x64_S4x523776x64_0_1_2 : S1x1x64.BroadcastsInDim S4x523776x64 (![0, 1, 2] : Fin 3 → Fin S4x523776x64.rank)
  reducesTo_S4x523776x64_S4x64_d1 : S4x523776x64.ReducesTo [1] S4x64
  transposes_S64x64_S64x64_1_0 : S64x64.Transposes [1, 0] S64x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  scatter_S523776_S1048576x1_S1048576_n_0_0_1_wf : ScatterDims.WF S523776 S1048576x1 S1048576 [] [0] [0] 1
  gather_S4x1024x64_S523776x1_S4x523776x64_02_1_n_n_1_1_4164_wf : GatherDims.WF S4x1024x64 S523776x1 S4x523776x64 [0, 2] [1] [] [1] [] 1 ![4, 1, 64]
  dot_S4x523776x64_S64x64_S4x523776x64_2_1_01_0_n_n_wf : DotDims.WF S4x523776x64 S64x64 S4x523776x64 [2] [1] [0, 1] [0] [] []
  dot_S4x64_S64x64_S4x64_1_0_0_1_n_n_wf : DotDims.WF S4x64 S64x64 S4x64 [1] [0] [0] [1] [] []

variable [Facts₀]

def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S4x1024x64_S523776x1_S4x523776x64_02_1_n_n_1_1_4164 : GatherDims S4x1024x64 S523776x1 S4x523776x64 where
  offsetDims := [0, 2]
  collapsedSliceDims := [1]
  operandBatchingDims := []
  startIndicesBatchingDims := []
  startIndexMap := [1]
  indexVectorDim := 1
  sliceSizes := ![4, 1, 64]
  wf := gather_S4x1024x64_S523776x1_S4x523776x64_02_1_n_n_1_1_4164_wf
def dot_S4x523776x64_S64x64_S4x523776x64_2_1_01_0_n_n : DotDims S4x523776x64 S64x64 S4x523776x64 where
  lhsContracting := [2]
  rhsContracting := [1]
  lhsNonContracting := [0, 1]
  rhsNonContracting := [0]
  lhsBatch := []
  rhsBatch := []
  wf := dot_S4x523776x64_S64x64_S4x523776x64_2_1_01_0_n_n_wf
def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf

class Facts : Prop extends Facts₀ where

variable [Facts]
-- ==== Proof.LibMatmulSumT.lean ====
/-
  A matrix product with the right operand transposed, read at an index, at the ideal values.

  For dimension numbers that contract the left operand's axis 1 with the right operand's axis 1, with no batch axis — an
  [M, K] by [N, K] product into [M, N], the product of the left matrix with the transpose of the right — the operand
  indices at result index `j` and contraction index `q` are (j 0, q) and (j 1, q).  So a `tpu.matmul` into a zero
  accumulator is, at every result index, the sum over `k : Fin K` of `l (j 0, k) * r (j 1, k)` on the extended reals.
-/
import Idealize.ShloMosaic.PureOps.Ideal.Laws
import Idealize.ShloMosaic.Lib.ValueIdx

noncomputable section

namespace Cert.LibMatmulSumT

open Idealize.ShloMosaic Idealize.ShloMosaic.ValueIdx

variable {M K N : Nat} (d : DotDims ⟨2, ![M, K]⟩ ⟨2, ![N, K]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- A `tpu.matmul` of such a product into the zero splat, at an index: the sum of products over the shared axis. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 (j 0) k) * r (ix2 (j 1) k) :=
  (Ideal.matmul_constant_zero_apply d prec l r j).trans (sum_contr d hlc hrc hln hrn hlb hrb l r j)

end Cert.LibMatmulSumT

end
-- ==== Proof.Spec.lean ====
import Idealize.ShloMosaic.PureOps.Ideal
import Idealize.ShloMosaic.Lib.ValueIdx

/-!
# The relation network's pooled output, two ways

For objects `t_k` (rows of `obj[b]`), the pairwise relation of `i < j` is `A t_i + B t_j + bg` with `A`, `B` the
two halves of the first weight matrix; the network sums the relations over all pairs and applies a second linear
map.  `Rout` is that sum taken pair by pair, over any listing `p ↦ (ii p, jj p)` of pairs.  `Kout` is the same
quantity with the sum over pairs exchanged with the linear map: object `k` is the first member of `1023 - k` pairs
and the second member of `k` pairs, so the pair sum is `A (∑ (1023 - k) t_k) + B (∑ k t_k) + 523776 bg`; the
objects are split into two halves of 512, each half contributes one partial result, and the biases are counted in
the first half only.
-/

noncomputable section

namespace Cert.RelNet

open Idealize.ShloMosaic Idealize.ShloMosaic.ValueIdx

abbrev Obj := FVec Ideal (⟨3, ![4, 1024, 64]⟩ : Shape) .f32
abbrev Wg := FVec Ideal (⟨2, ![64, 128]⟩ : Shape) .f32
abbrev Vec64 := FVec Ideal (⟨1, ![64]⟩ : Shape) .f32
abbrev Wf := FVec Ideal (⟨2, ![64, 64]⟩ : Shape) .f32
abbrev Res := FVec Ideal (⟨2, ![4, 64]⟩ : Shape) .f32

/-- Column `d` of the first half of the first weight matrix. -/
def lo (d : Fin 64) : Fin 128 := ⟨d.val, by omega⟩
/-- Column `d` of its second half. -/
def hi (d : Fin 64) : Fin 128 := ⟨64 + d.val, by omega⟩

/-- Object number `512 c + r`: row `r` of half `c`. -/
def gpos (c : Fin 2) (r : Fin 512) : Fin 1024 := ⟨512 * c.val + r.val, by omega⟩

/-! ## The kernel's arrangement -/

/-- The plain sum of half `c`'s objects. -/
def vsum (obj : Obj) (c : Fin 2) (b : Fin 4) (d : Fin 64) : EReal :=
  ∑ r : Fin 512, obj (ix3 b (gpos c r) d)

/-- The sum of half `c`'s objects weighted by their numbers `k`. -/
def wsum (obj : Obj) (c : Fin 2) (b : Fin 4) (d : Fin 64) : EReal :=
  ∑ r : Fin 512, obj (ix3 b (gpos c r) d) * (((gpos c r).val : ℝ) : EReal)

/-- The sum of half `c`'s objects weighted by `1023 - k`, as `1023 · vsum - wsum`. -/
def lead (obj : Obj) (c : Fin 2) (b : Fin 4) (d : Fin 64) : EReal :=
  ((1023 : ℝ) : EReal) * vsum obj c b d - wsum obj c b d

/-- Half `c`'s share of the pooled relations. -/
def sK (obj : Obj) (wg : Wg) (bg : Vec64) (c : Fin 2) (b : Fin 4) (e : Fin 64) : EReal :=
  ((∑ d : Fin 64, lead obj c b d * wg (ix2 e (lo d))) + (∑ d : Fin 64, wsum obj c b d * wg (ix2 e (hi d))))
    + (if c = 0 then ((523776 : ℝ) : EReal) * bg (ix1 e) else 0)

/-- Half `c`'s partial result. -/
def partK (obj : Obj) (wg : Wg) (bg : Vec64) (wf : Wf) (bf : Vec64) (c : Fin 2) (b : Fin 4) (e' : Fin 64) : EReal :=
  (∑ e : Fin 64, sK obj wg bg c b e * wf (ix2 e' e)) + (if c = 0 then bf (ix1 e') else 0)

/-- The kernel's result: the two partial results added. -/
def Kout (obj : Obj) (wg : Wg) (bg : Vec64) (wf : Wf) (bf : Vec64) : Res :=
  fun j => ∑ c : Fin 2, partK obj wg bg wf bf c (j 0) (j 1)

/-! ## The reference's arrangement -/

/-- The relations summed pair by pair over a listing `p ↦ (ii p, jj p)`. -/
def sR (ii jj : Fin 523776 → Fin 1024) (obj : Obj) (wg : Wg) (bg : Vec64) (b : Fin 4) (e : Fin 64) : EReal :=
  ∑ p : Fin 523776,
    (((∑ d : Fin 64, obj (ix3 b (ii p) d) * wg (ix2 e (lo d))) + (∑ d : Fin 64, obj (ix3 b (jj p) d) * wg (ix2 e (hi d))))
      + bg (ix1 e))

/-- The reference's result over that listing. -/
def Rout (ii jj : Fin 523776 → Fin 1024) (obj : Obj) (wg : Wg) (bg : Vec64) (wf : Wf) (bf : Vec64) : Res :=
  fun j => (∑ e : Fin 64, sR ii jj obj wg bg (j 0) e * wf (ix2 (j 1) e)) + bf (ix1 (j 1))

/-- The row a signed 32-bit index selects in an axis of length 1024: the index clamped into `[0, 1023]`. -/
def rowOf (v : IVec (⟨1, ![523776]⟩ : Shape) 32) (p : Fin 523776) : Fin 1024 :=
  ⟨min (v (ix1 p)).toInt.toNat 1023, by omega⟩

end Cert.RelNet

end
-- ==== Proof.KernelOps.lean ====
import proofs.«121243_j57621281243635_2_alg».proof.Proof.Gen.KernelIdeal
import proofs.«121243_j57621281243635_2_alg».proof.Proof.LibMatmulSumT
import proofs.«121243_j57621281243635_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The kernel's operations, one at a time, read at an index on the extended reals

Each lemma reads one non-pointwise operation of the kernel's body at an explicit index: a sum over the 512 objects of
a block, the object numbers `512 c + r` as reals, a product with a transposed weight matrix as a sum over the shared
axis, the two halves of the first weight matrix, the rows broadcast over the batch, and the two literals `1023` and
`523776`.
-/

noncomputable section

namespace Cert.KernelIdeal.KOps

open Idealize.ShloMosaic Idealize.ShloMosaic.ValueIdx
open Cert.KernelIdeal Cert.KernelIdeal.Facts₀

variable [Facts]

/-- The literal `0x447FC000` is the real number 1023. -/
theorem lit1023 : Ideal.ofBits .f32 0x447FC000#32 = ((1023 : ℝ) : EReal) := by
  simp [Ideal.ofBits, Ideal.ieee, -EReal.coe_mul]; norm_num

/-- The literal `0x48FFC000` is the real number 523776. -/
theorem lit523776 : Ideal.ofBits .f32 0x48FFC000#32 = ((523776 : ℝ) : EReal) := by
  simp [Ideal.ofBits, Ideal.ieee, -EReal.coe_mul]; norm_num

/-- A sum over the objects of a block: at `(b, d)` the sum over the 512 rows `r` of the entry `(b, r, d)`. -/
theorem rowsum_apply (v : FVec Ideal S4x512x64 .f32) (h : S4x512x64.Reduces [1] S4x64) (hφ : FKind.Formats .f32)
    (hacc : (0x00000000#32 : BitVec 32) = 0x00000000#32) (b : Fin 4) (d : Fin 64) :
    multiReduction .add [1] S4x64 v 0x00000000#32 h hφ hacc (ix2 b d) = ∑ r : Fin 512, v (ix3 b r d) := by
  refine (Ideal.multiReduction_add_single v 0x00000000#32 h hφ hacc (ix2 b d)).trans ?_
  refine Finset.sum_congr rfl fun r _ => congrArg v ?_
  funext a
  apply Fin.ext
  match a with
  | ⟨0, _⟩ => rfl
  | ⟨1, _⟩ => rfl
  | ⟨2, _⟩ => rfl

/-- The number of row `r` of half `c`, as the kernel computes it in 32-bit integers and converts it: `512 c + r`. -/
theorem weight_apply (g : BitVec 32) (c : Fin 2) (hg : g = BitVec.ofNat 32 c.val) (u : Fin 1) (r : Fin 512) (z : Fin 1) :
    (sitofp .f32 (addi (iota .tc S1x512x1 32 [1] iota_S1x512x1_d1_w32) (broadcast S1x512x1 (Scalar.muli g 512#32)))
        : FVec Ideal S1x512x1 .f32) (ix3 u r z) = (((512 * c.val + r.val : ℕ) : ℝ) : EReal) := by
  subst hg
  show (((IntOp.addi (iota .tc S1x512x1 32 [1] iota_S1x512x1_d1_w32 (ix3 u r z)) (Scalar.muli (BitVec.ofNat 32 c.val) 512#32)).toInt : ℝ) : EReal) = _
  rw [iota_single_apply]
  show ((((BitVec.ofNat 32 r.val + BitVec.ofNat 32 c.val * 512#32 : BitVec 32).toInt : ℤ) : ℝ) : EReal) = _
  have h : (BitVec.ofNat 32 r.val + BitVec.ofNat 32 c.val * 512#32 : BitVec 32).toInt = ((512 * c.val + r.val : ℕ) : ℤ) := by
    have hr := r.isLt
    have hc := c.isLt
    rw [BitVec.toInt_eq_toNat_cond, BitVec.toNat_add, BitVec.toNat_mul, BitVec.toNat_ofNat, BitVec.toNat_ofNat, BitVec.toNat_ofNat]
    omega
  rw [h, Int.cast_natCast]

/-- The row numbers, one per object of the block, spread over the batch and the features. -/
theorem wbroadcast_apply (w : FVec Ideal S1x512x1 .f32) (b : Fin 4) (r : Fin 512) (d : Fin 64) :
    broadcastTo S4x512x64 w broadcasts_S1x512x1_S4x512x64 (ix3 b r d) = w (ix3 (0 : Fin 1) r (0 : Fin 1)) := by
  refine broadcastTo_apply w _ (ix3 b r d) (ix3 (0 : Fin 1) r (0 : Fin 1)) fun ax => ?_
  match ax with
  | ⟨0, _⟩ => rfl
  | ⟨1, _⟩ => rfl
  | ⟨2, _⟩ => rfl

/-- A product with a transposed 64 × 64 matrix into the zero splat: at `(b, e)` the sum over the shared axis. -/
theorem mm_apply (l : FVec Ideal S4x64 .f32) (r : FVec Ideal S64x64 .f32) (b : Fin 4) (e : Fin 64) :
    matmul dot_S4x64_S64x64_S4x64_1_1_0_0_n_n none l r (constant S4x64 .f32 0x00000000#32) (ix2 b e)
      = ∑ k : Fin 64, l (ix2 b k) * r (ix2 e k) :=
  Cert.LibMatmulSumT.matmul_zero_apply (M := 4) (K := 64) (N := 64) dot_S4x64_S64x64_S4x64_1_1_0_0_n_n rfl rfl rfl rfl rfl rfl
    none l r (ix2 b e)

/-- The first half of the first weight matrix: column `d` of the slice is column `d` of the matrix. -/
theorem lo_apply (x : FVec Ideal S64x128 .f32) (e d : Fin 64) :
    extractStridedSlice S64x64 ![0, 0] x slices_S64x128_o0_0_S64x64 (ix2 e d) = x (ix2 e (Cert.RelNet.lo d)) :=
  slice2_axis1_apply 0 x slices_S64x128_o0_0_S64x64 e d (Cert.RelNet.lo d) (Nat.zero_add _).symm

/-- Its second half: column `d` of the slice is column `64 + d` of the matrix. -/
theorem hi_apply (x : FVec Ideal S64x128 .f32) (e d : Fin 64) :
    extractStridedSlice S64x64 ![0, 64] x slices_S64x128_o0_64_S64x64 (ix2 e d) = x (ix2 e (Cert.RelNet.hi d)) :=
  slice2_axis1_apply 64 x slices_S64x128_o0_64_S64x64 e d (Cert.RelNet.hi d) rfl

/-- One row spread over the four rows of the batch. -/
theorem rows_apply (v : FVec Ideal S1x64 .f32) (b : Fin 4) (e : Fin 64) :
    broadcastTo S4x64 v broadcasts_S1x64_S4x64 (ix2 b e) = v (ix2 (0 : Fin 1) e) :=
  broadcastTo_1b_ab_apply v broadcasts_S1x64_S4x64 b e

/-- The result with a unit axis put in front. -/
theorem addunit_apply (v : FVec Ideal S4x64 .f32) (u : Fin 1) (b : Fin 4) (e : Fin 64) :
    shapeCast S1x4x64 v shapeCasts_S4x64_S1x4x64 (ix3 u b e) = v (ix2 b e) :=
  shapeCast_ab_1ab_apply v shapeCasts_S4x64_S1x4x64 u b e

/-- The choice on "this is the first half": the comparison of the half's number with zero, as a condition. -/
theorem sel_apply {α : Type} (c : Fin 2) (a b : α) :
    Scalar.select (Scalar.cmpi .eq (BitVec.ofNat 32 c.val) 0#32) a b = if c = 0 then a else b := by
  have h : Scalar.cmpi .eq (BitVec.ofNat 32 c.val) 0#32 = if c = 0 then 1#1 else 0#1 := by
    fin_cases c <;> decide
  rw [h]
  split
  · exact select_one a b
  · exact select_zero a b

end Cert.KernelIdeal.KOps

end
-- ==== Proof.KernelPay.lean ====
import proofs.«121243_j57621281243635_2_alg».proof.Proof.Gen.KernelIdeal.Skeleton
import proofs.«121243_j57621281243635_2_alg».proof.Proof.KernelOps

/-!
# The kernel's stored value at an index

At half `c` of the objects the body reads a block `x0` of 512 objects per batch row, the first weight matrix, its bias
as a row, the second weight matrix and its bias as a row, and stores, at `(b, e')`, half `c`'s partial result: the
plain and the number-weighted sums of the block's objects, `1023` times the first minus the second through the first
half of the weight matrix, the second through its second half, the bias `523776` times in the first half only, then
the second linear map with its bias in the first half only.
-/

noncomputable section

namespace Cert.KernelIdeal.KOps

open Idealize.ShloMosaic Idealize.ShloMosaic.ValueIdx
open Cert.KernelIdeal Cert.KernelIdeal.Facts₀ Cert.RelNet

variable [Facts]

set_option maxHeartbeats 400000 in
/-- The stored value, read at `(u, b, e')`, is half `c`'s partial result at `(b, e')` — for any block `x0` that holds
    half `c`'s objects, any `x1`, `x3` that hold the two weight matrices and any rows `x2`, `x4` that hold the two biases. -/
theorem pay_apply (i : grid0.Coords) (c : Fin 2) (hc : (i 0).val = c.val)
    (x0 : Vec Ideal S4x512x64 .f32) (x1 : Vec Ideal S64x128 .f32) (x2 : Vec Ideal S1x64 .f32)
    (x3 : Vec Ideal S64x64 .f32) (x4 : Vec Ideal S1x64 .f32) (obj : Obj) (wg : Wg) (bg : Vec64) (wf : Wf) (bf : Vec64)
    (h0 : ∀ (b : Fin 4) (r : Fin 512) (d : Fin 64), x0 (ix3 b r d) = obj (ix3 b (gpos c r) d))
    (h1 : ∀ (e : Fin 64) (k : Fin 128), x1 (ix2 e k) = wg (ix2 e k))
    (h2 : ∀ e : Fin 64, x2 (ix2 (0 : Fin 1) e) = bg (ix1 e))
    (h3 : ∀ e' e : Fin 64, x3 (ix2 e' e) = wf (ix2 e' e))
    (h4 : ∀ e : Fin 64, x4 (ix2 (0 : Fin 1) e) = bf (ix1 e))
    (u : Fin 1) (b : Fin 4) (e' : Fin 64) :
    Gen.k0_pay1 (F := Ideal) i x0 x1 x2 x3 x4 (ix3 u b e') = partK obj wg bg wf bf c b e' := by
  have hg : BitVec.ofNat 32 (i 0).val = BitVec.ofNat 32 c.val := congrArg _ hc
  unfold Gen.k0_pay1
  simp only [hg, addunit_apply, addf_apply, mm_apply, rows_apply, sel_apply, ite_apply, shapeCast_self, lo_apply, hi_apply,
    subf_apply, mulf_apply, broadcast_apply, rowsum_apply _ Gen.reduces_S4x512x64_S4x64, wbroadcast_apply,
    weight_apply (BitVec.ofNat 32 c.val) c rfl, Ideal.ofBits_def, lit1023, lit523776, Ideal.ofBits_zero_f32, h0, h1, h2, h3, h4]
  rfl

end Cert.KernelIdeal.KOps

end
-- ==== Proof.KernelBlocks.lean ====
import proofs.«121243_j57621281243635_2_alg».proof.Proof.KernelIdealFrameP
import proofs.«121243_j57621281243635_2_alg».proof.Proof.KernelPay
import Idealize.ShloMosaic.Lib.Pipeline.Value
import Idealize.ShloMosaic.Lib.Tactic

/-!
# The array of partial results the kernel leaves

Grid point `t` reads objects `512 t … 512 t + 511` of every batch row (its block of the first argument), the two
weight matrices whole, and the two biases as rows, and writes back block `t` of the `[2, 4, 64]` result: half `t`'s
partial result.  The two blocks tile the result, so after the run the result array is, at `(c, b, e')`, half `c`'s
partial result at `(b, e')`.
-/

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.GenP Cert.RelNet

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the two grid points: the objects' block moves along axis 1 with the point, the result's
    block along axis 0, every other block is block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ (grid0.coords t 0).val = t.val ∧ t.val < 2 :=
  (by decide +kernel : ∀ t : Fin grid0.N, _)

/-- The half of the objects grid point `t` works on. -/
def half (t : Fin cfg0.N) : Fin 2 := ⟨t.val, (idx_facts t).2.2.2.2.2.2.2.2.2.2.2.2.2.2.2⟩

/-- The result array after the run: at `(c, b, e')` half `c`'s partial result of the arguments. -/
def parts (c : Dev nD) : S2x4x64.Idx → EReal := fun i =>
  partK (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The objects' block at point `t`: rows `512 t + r` of the first argument. -/
theorem iblk0_apply (c : Dev nD) (t : Fin cfg0.N) (b : Fin 4) (r : Fin 512) (d : Fin 64) :
    (iblk m c 0 t : Vec Ideal S4x512x64 .f32) (ix3 b r d)
      = (m ((c : Thread nD τ).loc main_arg0) : S4x1024x64.Idx → EReal) (ix3 b (gpos (half t) r) d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 4 + 1 * b.val = b.val; rw [e0]; omega
  | ⟨1, _⟩ => show win0_0.index t (1 : Fin 3) * 512 + 1 * r.val = 512 * t.val + r.val; rw [e1]; omega
  | ⟨2, _⟩ => show win0_0.index t (2 : Fin 3) * 64 + 1 * d.val = d.val; rw [e2]; omega

/-- The first weight matrix's block is the matrix. -/
theorem iblk1_apply (c : Dev nD) (t : Fin cfg0.N) (e : Fin 64) (k : Fin 128) :
    (iblk m c 1 t : Vec Ideal S64x128 .f32) (ix2 e k) = (m ((c : Thread nD τ).loc main_arg1) : S64x128.Idx → EReal) (ix2 e k) := by
  obtain ⟨-, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 64 + 1 * e.val = e.val; rw [e0]; omega
  | ⟨1, _⟩ => show win0_1.index t (1 : Fin 2) * 128 + 1 * k.val = k.val; rw [e1]; omega

/-- The second weight matrix's block is the matrix. -/
theorem iblk3_apply (c : Dev nD) (t : Fin cfg0.N) (e' e : Fin 64) :
    (iblk m c 3 t : Vec Ideal S64x64 .f32) (ix2 e' e) = (m ((c : Thread nD τ).loc main_arg3) : S64x64.Idx → EReal) (ix2 e' e) := by
  obtain ⟨-, -, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 64 + 1 * e'.val = e'.val; rw [e0]; omega
  | ⟨1, _⟩ => show win0_3.index t (1 : Fin 2) * 64 + 1 * e.val = e.val; rw [e1]; omega

/-- The first bias reaches the kernel as a row: the host reshapes it before the call. -/
theorem V_main_v0 (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- The second bias likewise. -/
theorem V_main_v1 (c : Dev nD) :
    (V m c main_v1 : S1x64.Idx → EReal) = shapeCast S1x64 (m ((c : Thread nD τ).loc main_arg4)) shapeCasts_S64_S1x64 := by
  show StableHlo.after hostOps0 (fun b => m (c, b)) (Proc.devRef .tc main_v1) = _
  after_results
  rfl

/-- The first bias's block, read at `(0, e)`, is the bias at `e`. -/
theorem iblk2_apply (c : Dev nD) (t : Fin cfg0.N) (e : Fin 64) :
    (iblk m c 2 t : Vec Ideal S1x64 .f32) (ix2 (0 : Fin 1) e) = (m ((c : Thread nD τ).loc main_arg2) : S64.Idx → EReal) (ix1 e) := by
  obtain ⟨-, -, -, -, -, e0, e1, -⟩ := idx_facts t
  unfold iblk
  rw [View.read_apply]
  show V m c main_v0 _ = _
  rw [V_main_v0]
  refine (congrArg _ (funext fun a => Fin.ext ?_)).trans (shapeCast_a_1a_apply _ shapeCasts_S64_S1x64 (0 : Fin 1) e)
  match a with
  | ⟨0, _⟩ => show win0_2.index t (0 : Fin 2) * 1 + 1 * 0 = 0; rw [e0]
  | ⟨1, _⟩ => show win0_2.index t (1 : Fin 2) * 64 + 1 * e.val = e.val; rw [e1]; omega

/-- The second bias's block, read at `(0, e)`, is the bias at `e`. -/
theorem iblk4_apply (c : Dev nD) (t : Fin cfg0.N) (e : Fin 64) :
    (iblk m c 4 t : Vec Ideal S1x64 .f32) (ix2 (0 : Fin 1) e) = (m ((c : Thread nD τ).loc main_arg4) : S64.Idx → EReal) (ix1 e) := by
  obtain ⟨-, -, -, -, -, -, -, -, -, e0, e1, -⟩ := idx_facts t
  unfold iblk
  rw [View.read_apply]
  show V m c main_v1 _ = _
  rw [V_main_v1]
  refine (congrArg _ (funext fun a => Fin.ext ?_)).trans (shapeCast_a_1a_apply _ shapeCasts_S64_S1x64 (0 : Fin 1) e)
  match a with
  | ⟨0, _⟩ => show win0_4.index t (0 : Fin 2) * 1 + 1 * 0 = 0; rw [e0]
  | ⟨1, _⟩ => show win0_4.index t (1 : Fin 2) * 64 + 1 * e.val = e.val; rw [e1]; omega

/-- Where block `t` of the result sits in the result: its element `(u, b, e')` is the result's `(t, b, e')`. -/
theorem emb5 (t : Fin cfg0.N) (u : Fin 1) (b : Fin 4) (e' : Fin 64) :
    ((cfg0.win 5).blk t).view.emb (ix3 u b e') = (ix3 (half t) b e' : S2x4x64.Idx) := by
  obtain ⟨-, -, -, -, -, -, -, -, -, -, -, e0, e1, e2, -⟩ := idx_facts t
  funext a
  apply Fin.ext
  have hu : u.val = 0 := by omega
  match a with
  | ⟨0, _⟩ => show win0_5.index t (0 : Fin 3) * 1 + 1 * u.val = t.val; rw [e0, hu]; omega
  | ⟨1, _⟩ => show win0_5.index t (1 : Fin 3) * 4 + 1 * b.val = b.val; rw [e1]; omega
  | ⟨2, _⟩ => show win0_5.index t (2 : Fin 3) * 64 + 1 * e'.val = e'.val; rw [e2]; omega

/-- What point `t` writes back is block `t` of the array of partial results. -/
theorem flushed_eq (c : Dev nD) (t : Fin cfg0.N) :
    (dats m 0 c).flushed 5 t = ((cfg0.win 5).blk t).view.read (Elt Ideal) (parts m c) := by
  show (cfg0.win 5).cut (grid0.coords t) ((dats m 0 c).after 5 t) = _
  rw [after0_5]
  unfold out0_5
  rw [View.canon_unit_zero hz3]
  simp only [View.ld_unit_zero (S := S4x512x64) hz3, View.ld_unit_zero (S := S64x128) hz2,
    View.ld_unit_zero (S := S1x64) hz2, View.ld_unit_zero (S := S64x64) hz2]
  funext j
  obtain ⟨u, b, e', rfl⟩ : ∃ (u : Fin 1) (b : Fin 4) (e' : Fin 64), j = ix3 u b e' := ⟨j 0, j 1, j 2, eq_ix3 j⟩
  rw [View.read_apply, emb5]
  exact KOps.pay_apply (grid0.coords t) (half t) (idx_facts t).2.2.2.2.2.2.2.2.2.2.2.2.2.2.1
    (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    (iblk0_apply m c t) (iblk1_apply m c t) (iblk2_apply m c t) (iblk3_apply m c t) (iblk4_apply m c t) u b e'

/-- An index of the result is in point `t`'s block iff each coordinate is in the block's range on its axis. -/
theorem mem_blk5 (t : Fin cfg0.N) (i : S2x4x64.Idx) :
    i ∈ ((cfg0.win 5).blk t).view.set
      ↔ ∀ a : Fin 3, win0_5.index t a * S1x4x64.size a ≤ (i a).val ∧ (i a).val < win0_5.index t a * S1x4x64.size a + S1x4x64.size a := by
  show i ∈ ((View.whole main_v2).slice (win0_5.rect t)).set ↔ _
  rw [View.set_slice_whole, Rect.mem_set_unit]
  exact Iff.rfl

/-- The two blocks tile the result: index `(c, b, e')` is in the block of point `c`. -/
theorem cover5 (i : S2x4x64.Idx) :
    ∃ t : Fin cfg0.N, (cfg0.win 5).flush t = true ∧ i ∈ ((cfg0.win 5).blk t).view.set := by
  have hi0 : (i 0).val < 2 := (i 0).isLt
  have hi1 : (i 1).val < 4 := (i 1).isLt
  have hi2 : (i 2).val < 64 := (i 2).isLt
  have hN : cfg0.N = 2 := N_0
  obtain ⟨t, ht⟩ : ∃ t : Fin cfg0.N, t.val = (i 0).val := ⟨⟨(i 0).val, by rw [hN]; exact hi0⟩, rfl⟩
  obtain ⟨-, -, -, -, -, -, -, -, -, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 4 ≤ (i 1).val ∧ (i 1).val < win0_5.index t (1 : Fin 3) * 4 + 4; rw [e1]; omega
  | ⟨2, _⟩ => show win0_5.index t (2 : Fin 3) * 64 ≤ (i 2).val ∧ (i 2).val < win0_5.index t (2 : Fin 3) * 64 + 64; rw [e2]; omega

/-- The result array after the run is the array of partial results. -/
theorem final5 (c : Dev nD) : (dats m 0 c).arrAt 5 cfg0.N = parts m c :=
  (dats m 0 c).arrAt_eq_of_cover 5 (parts m c) (fun t _ => flushed_eq m c t) cover5

end Cert.KernelIdeal.KValue

end
-- ==== Proof.KernelValue.lean ====
import proofs.«121243_j57621281243635_2_alg».proof.Proof.KernelBlocks
import Idealize.ShloMosaic.PureOps.Ideal.Laws

/-!
# The kernel's result

After the call the host adds the two partial results (a sum over axis 0 of the `[2, 4, 64]` array, from zero), so the
result at `(b, e')` is the sum over the two halves `c` of half `c`'s partial result: the specification's `Kout` of the
five arguments.  The run below is the frame's run with that result named and the arguments unchanged.
-/

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.GenP Cert.RelNet

variable (m : (ℓ : Loc nD τ sig) → Buf (Elt Ideal) ℓ) (ρ : Dev nD → PrngReg)

/-- What the host lines after the call leave in the result buffer: the two partial results added. -/
theorem tail_eq (c : Dev nD) :
    Pipeline.afterTail₀ cfgs (dats m) 0 (V0 m) [hostOps1] c main_v3
      = Kout (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = parts m c :=
    (Pipeline.withArrays_arr spec0 launch0.win.arr_inj c _ _ 5).trans (final5 m c)
  rw [hw]
  funext j
  obtain ⟨b, e', rfl⟩ : ∃ (b : Fin 4) (e' : Fin 64), j = ix2 b e' := ⟨j 0, j 1, eq_ix2 j⟩
  show Ideal.hostReduceAdd reducesTo_S2x4x64_S4x64_d0 (parts m c) (Ideal.ofBits .f32 0x00000000#32) (ix2 b e') = _
  rw [Ideal.hostReduceAdd_single reducesTo_S2x4x64_S4x64_d0 (by decide : S2x4x64.Reduces [0] S4x64), Ideal.ofBits_zero_f32,
    zero_add]
  rfl

/-- The run, read: every weakly fair execution terminates with the result buffer at `Kout` of the five arguments and
    the arguments unchanged. -/
theorem run : θ_run (defs (F := Ideal)) (onTc (τ := τ) (main (F := Ideal))) ⟨m, fun _ => 0, ρ⟩ (fun r => ∀ c : Dev nD,
      r.2.mem ((c.tc : Thread nD τ).loc main_v3)
        = Kout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KValue

end
-- ==== Proof.RefRunOps.lean ====
import proofs.«121243_j57621281243635_2_alg».proof.ReferenceIdeal
import Idealize.ShloMosaic.Lib.StableHlo.Run

/-!
# The reference's operations, in order

The reference is a straight line of host operations once every call is replaced by its callee's body over
the call's own buffers.  This module is that line as a list, 150 operations long, and the fact that every
operation touches buffers of the device only.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The reference's 150 operations, in order, every call unfolded at its place. -/
abbrev ops : List (HloOp τ sig (Elt F)) :=
  [ nullary main_cst (constant S_ .f32 0x3F800000#32),
    unary main_cst main_v0 (broadcastInDim S1024x1024 ![] bcast_S_S1024x1024 : (⟨S_, .f32⟩ : BufTy).Contents (Elt F) → (⟨S1024x1024, .f32⟩ : BufTy).Contents (Elt F)),
    TRef.nullary main_call0.v0 (iotaInDim S1024x1024 32 0),
    TRef.nullary main_call0.c (constantI S_ 32 0#32),
    TRef.unary main_call0.c main_call0.v1 (broadcastInDim S1024x1024 ![] bcast_S_S1024x1024),
    TRef.binary main_call0.v0 main_call0.v1 main_call0.v2 addi,
    TRef.nullary main_call0.v3 (iotaInDim S1024x1024 32 1),
    TRef.binary main_call0.v2 main_call0.v3 main_call0.v4 (cmpi .sge),
    TRef.nullary main_call0.cst (constant S_ .f32 0x00000000#32),
    TRef.unary main_call0.cst main_call0.v5 (broadcastInDim S1024x1024 ![] bcast_S_S1024x1024),
    TRef.ternary main_call0.v4 main_call0.v5 (.of main_v0 : TRef sig ⟨S1024x1024, .f32⟩) main_call0.v6 select,
    nullary main_cst_0 (constant S_ .f32 0x00000000#32),
    unary main_cst_0 main_v2 (broadcastInDim S1024x1024 ![] bcast_S_S1024x1024 : (⟨S_, .f32⟩ : BufTy).Contents (Elt F) → (⟨S1024x1024, .f32⟩ : BufTy).Contents (Elt F)),
    binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    TRef.reshape (.of main_v3 : TRef sig ⟨S1024x1024, .i1⟩) main_call1.v0 rfl shapeCasts_S1024x1024_S1048576,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1048576] ![1] ![1048575] ![0] x v reduceWindows_S1048576_S1048576_w1048576s1p1048575_0 h_S_),
    nullary main_c (constantI S_ 32 0#32),
    unary main_c main_v5 (broadcastInDim S523776 ![] bcast_S_S523776 : (⟨S_, .i32⟩ : BufTy).Contents (Elt F) → (⟨S523776, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S1048576 ![] bcast_S_S1048576),
    TRef.binary main_call2.v1 (.of main_v4 : TRef sig ⟨S1048576, .i32⟩) main_call2.v2 maxsi,
    nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 523776#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)),
    TRef.nullary main_call3.call0.c (constantI S_ 32 0#32),
    TRef.unary main_call3.call0.c main_call3.call0.v0 (broadcastInDim S_ ![] bcast_S_S_),
    TRef.binary (.of main_v14 : TRef sig ⟨S523776, .i32⟩) main_call3.call0.v0 main_call3.call0.v1 (fun x v => Host.reduceWindow IntOp.addi ![523776] ![1] ![523775] ![0] x v reduceWindows_S523776_S523776_w523776s1p523775_0 h_S_),
    nullary main_c_5 (constantI S_ 32 1024#32),
    TRef.unary (.of main_c_5 : TRef sig ⟨S_, .i32⟩) main_call4.v0 (broadcastInDim S523776 ![] bcast_S_S523776),
    TRef.binary (.of main_v15 : TRef sig ⟨S523776, .i32⟩) main_call4.v0 main_call4.v1 Host.divsi,
    TRef.unary (.of main_v15 : TRef sig ⟨S523776, .i32⟩) main_call4.v2 signi,
    TRef.unary (.of main_c_5 : TRef sig ⟨S_, .i32⟩) main_call4.v3 signi,
    TRef.unary main_call4.v3 main_call4.v4 (broadcastInDim S523776 ![] bcast_S_S523776),
    TRef.binary main_call4.v2 main_call4.v4 main_call4.v5 (cmpi .ne),
    TRef.unary (.of main_c_5 : TRef sig ⟨S_, .i32⟩) main_call4.v6 (broadcastInDim S523776 ![] bcast_S_S523776),
    TRef.binary (.of main_v15 : TRef sig ⟨S523776, .i32⟩) main_call4.v6 main_call4.v7 Host.remsi,
    TRef.nullary main_call4.c (constantI S_ 32 0#32),
    TRef.unary main_call4.c main_call4.v8 (broadcastInDim S523776 ![] bcast_S_S523776),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S523776 ![] bcast_S_S523776),
    TRef.binary main_call4.v1 main_call4.v11 main_call4.v12 subi,
    TRef.ternary main_call4.v10 main_call4.v12 main_call4.v1 main_call4.call0.v0 select,
    nullary main_c_6 (constantI S_ 32 1024#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S523776 ![] bcast_S_S523776),
    TRef.binary (.of main_v16 : TRef sig ⟨S523776, .i32⟩) main_call5.v3 main_call5.v4 Host.remsi,
    TRef.nullary main_call5.c_1 (constantI S_ 32 0#32),
    TRef.unary main_call5.c_1 main_call5.v5 (broadcastInDim S523776 ![] bcast_S_S523776),
    TRef.binary main_call5.v4 main_call5.v5 main_call5.v6 (cmpi .ne),
    TRef.nullary main_call5.c_2 (constantI S_ 32 0#32),
    TRef.unary main_call5.c_2 main_call5.v7 (broadcastInDim S523776 ![] bcast_S_S523776),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S523776 ![] bcast_S_S523776),
    TRef.binary main_call5.v8 main_call5.v10 main_call5.v11 (cmpi .ne),
    TRef.binary main_call5.v11 main_call5.v6 main_call5.v12 andi,
    TRef.unary main_call5.call0.v0 main_call5.v13 (broadcastInDim S523776 ![] bcast_S_S523776),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S523776 ![] bcast_S_S523776),
    TRef.binary (.of main_v15 : TRef sig ⟨S523776, .i32⟩) main_call6.v0 main_call6.v1 Host.divsi,
    TRef.unary (.of main_v15 : TRef sig ⟨S523776, .i32⟩) main_call6.v2 signi,
    TRef.unary (.of main_c_7 : TRef sig ⟨S_, .i32⟩) main_call6.v3 signi,
    TRef.unary main_call6.v3 main_call6.v4 (broadcastInDim S523776 ![] bcast_S_S523776),
    TRef.binary main_call6.v2 main_call6.v4 main_call6.v5 (cmpi .ne),
    TRef.unary (.of main_c_7 : TRef sig ⟨S_, .i32⟩) main_call6.v6 (broadcastInDim S523776 ![] bcast_S_S523776),
    TRef.binary (.of main_v15 : TRef sig ⟨S523776, .i32⟩) main_call6.v6 main_call6.v7 Host.remsi,
    TRef.nullary main_call6.c (constantI S_ 32 0#32),
    TRef.unary main_call6.c main_call6.v8 (broadcastInDim S523776 ![] bcast_S_S523776),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S523776 ![] bcast_S_S523776),
    TRef.binary main_call6.v1 main_call6.v11 main_call6.v12 subi,
    TRef.ternary main_call6.v10 main_call6.v12 main_call6.v1 main_call6.call0.v0 select,
    nullary main_c_8 (constantI S_ 32 1024#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S523776 ![] bcast_S_S523776),
    TRef.binary (.of main_v18 : TRef sig ⟨S523776, .i32⟩) main_call7.v3 main_call7.v4 Host.remsi,
    TRef.nullary main_call7.c_1 (constantI S_ 32 0#32),
    TRef.unary main_call7.c_1 main_call7.v5 (broadcastInDim S523776 ![] bcast_S_S523776),
    TRef.binary main_call7.v4 main_call7.v5 main_call7.v6 (cmpi .ne),
    TRef.nullary main_call7.c_2 (constantI S_ 32 0#32),
    TRef.unary main_call7.c_2 main_call7.v7 (broadcastInDim S523776 ![] bcast_S_S523776),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S523776 ![] bcast_S_S523776),
    TRef.binary main_call7.v8 main_call7.v10 main_call7.v11 (cmpi .ne),
    TRef.binary main_call7.v11 main_call7.v6 main_call7.v12 andi,
    TRef.unary main_call7.call0.v0 main_call7.v13 (broadcastInDim S523776 ![] bcast_S_S523776),
    TRef.binary main_call7.v4 main_call7.v13 main_call7.v14 addi,
    TRef.ternary main_call7.v12 main_call7.v14 main_call7.v4 main_call7.v15 select,
    unary main_arg1 main_v20 ((extractStridedSlice S64x64 ![0, 0] · slices_S64x128_S64x64_0_0) : (⟨S64x128, .f32⟩ : BufTy).Contents (Elt F) → (⟨S64x64, .f32⟩ : BufTy).Contents (Elt F)),
    unary main_arg1 main_v21 ((extractStridedSlice S64x64 ![0, 64] · slices_S64x128_S64x64_0_64) : (⟨S64x128, .f32⟩ : BufTy).Contents (Elt F) → (⟨S64x64, .f32⟩ : BufTy).Contents (Elt F)),
    nullary main_c_9 (constantI S_ 32 0#32),
    unary main_c_9 main_v22 (broadcastInDim S523776 ![] bcast_S_S523776 : (⟨S_, .i32⟩ : BufTy).Contents (Elt F) → (⟨S523776, .i32⟩ : BufTy).Contents (Elt F)),
    binary main_v17 main_v22 main_v23 (cmpi .slt : (⟨S523776, .i32⟩ : BufTy).Contents (Elt F) → (⟨S523776, .i32⟩ : BufTy).Contents (Elt F) → (⟨S523776, .i1⟩ : BufTy).Contents (Elt F)),
    nullary main_c_10 (constantI S_ 32 1024#32),
    unary main_c_10 main_v24 (broadcastInDim S523776 ![] bcast_S_S523776 : (⟨S_, .i32⟩ : BufTy).Contents (Elt F) → (⟨S523776, .i32⟩ : BufTy).Contents (Elt F)),
    binary main_v17 main_v24 main_v25 (addi : (⟨S523776, .i32⟩ : BufTy).Contents (Elt F) → (⟨S523776, .i32⟩ : BufTy).Contents (Elt F) → (⟨S523776, .i32⟩ : BufTy).Contents (Elt F)),
    ternary main_v23 main_v25 main_v17 main_v26 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v26 main_v27 (broadcastInDim S523776x1 ![0] bcast_S523776_S523776x1_0 : (⟨S523776, .i32⟩ : BufTy).Contents (Elt F) → (⟨S523776x1, .i32⟩ : BufTy).Contents (Elt F)),
    binary main_arg0 main_v27 main_v28 ((fun x i => Host.gather gather_S4x1024x64_S523776x1_S4x523776x64_02_1_n_n_1_1_4164 x i) : (⟨S4x1024x64, .f32⟩ : BufTy).Contents (Elt F) → (⟨S523776x1, .i32⟩ : BufTy).Contents (Elt F) → (⟨S4x523776x64, .f32⟩ : BufTy).Contents (Elt F)),
    binary main_v28 main_v20 main_v29 ((fun l r => Host.dotGeneral dot_S4x523776x64_S64x64_S4x523776x64_2_1_01_0_n_n none l r) : (⟨S4x523776x64, .f32⟩ : BufTy).Contents (Elt F) → (⟨S64x64, .f32⟩ : BufTy).Contents (Elt F) → (⟨S4x523776x64, .f32⟩ : BufTy).Contents (Elt F)),
    nullary main_c_11 (constantI S_ 32 0#32),
    unary main_c_11 main_v30 (broadcastInDim S523776 ![] bcast_S_S523776 : (⟨S_, .i32⟩ : BufTy).Contents (Elt F) → (⟨S523776, .i32⟩ : BufTy).Contents (Elt F)),
    binary main_v19 main_v30 main_v31 (cmpi .slt : (⟨S523776, .i32⟩ : BufTy).Contents (Elt F) → (⟨S523776, .i32⟩ : BufTy).Contents (Elt F) → (⟨S523776, .i1⟩ : BufTy).Contents (Elt F)),
    nullary main_c_12 (constantI S_ 32 1024#32),
    unary main_c_12 main_v32 (broadcastInDim S523776 ![] bcast_S_S523776 : (⟨S_, .i32⟩ : BufTy).Contents (Elt F) → (⟨S523776, .i32⟩ : BufTy).Contents (Elt F)),
    binary main_v19 main_v32 main_v33 (addi : (⟨S523776, .i32⟩ : BufTy).Contents (Elt F) → (⟨S523776, .i32⟩ : BufTy).Contents (Elt F) → (⟨S523776, .i32⟩ : BufTy).Contents (Elt F)),
    ternary main_v31 main_v33 main_v19 main_v34 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v34 main_v35 (broadcastInDim S523776x1 ![0] bcast_S523776_S523776x1_0 : (⟨S523776, .i32⟩ : BufTy).Contents (Elt F) → (⟨S523776x1, .i32⟩ : BufTy).Contents (Elt F)),
    binary main_arg0 main_v35 main_v36 ((fun x i => Host.gather gather_S4x1024x64_S523776x1_S4x523776x64_02_1_n_n_1_1_4164 x i) : (⟨S4x1024x64, .f32⟩ : BufTy).Contents (Elt F) → (⟨S523776x1, .i32⟩ : BufTy).Contents (Elt F) → (⟨S4x523776x64, .f32⟩ : BufTy).Contents (Elt F)),
    binary main_v36 main_v21 main_v37 ((fun l r => Host.dotGeneral dot_S4x523776x64_S64x64_S4x523776x64_2_1_01_0_n_n none l r) : (⟨S4x523776x64, .f32⟩ : BufTy).Contents (Elt F) → (⟨S64x64, .f32⟩ : BufTy).Contents (Elt F) → (⟨S4x523776x64, .f32⟩ : BufTy).Contents (Elt F)),
    binary main_v29 main_v37 main_v38 (addf : (⟨S4x523776x64, .f32⟩ : BufTy).Contents (Elt F) → (⟨S4x523776x64, .f32⟩ : BufTy).Contents (Elt F) → (⟨S4x523776x64, .f32⟩ : BufTy).Contents (Elt F)),
    unary main_arg2 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S4x523776x64 ![0, 1, 2] bcast_S1x1x64_S4x523776x64_0_1_2 : (⟨S1x1x64, .f32⟩ : BufTy).Contents (Elt F) → (⟨S4x523776x64, .f32⟩ : BufTy).Contents (Elt F)),
    binary main_v38 main_v40 main_v41 (addf : (⟨S4x523776x64, .f32⟩ : BufTy).Contents (Elt F) → (⟨S4x523776x64, .f32⟩ : BufTy).Contents (Elt F) → (⟨S4x523776x64, .f32⟩ : BufTy).Contents (Elt F)),
    nullary main_cst_13 (constant S_ .f32 0x00000000#32),
    binary main_v41 main_cst_13 main_v42 ((fun x v => Host.reduceAdd x v reducesTo_S4x523776x64_S4x64_d1 h_S_) : (⟨S4x523776x64, .f32⟩ : BufTy).Contents (Elt F) → (⟨S_, .f32⟩ : BufTy).Contents (Elt F) → (⟨S4x64, .f32⟩ : BufTy).Contents (Elt F)),
    unary main_arg3 main_v43 ((transpose S64x64 [1, 0] · transposes_S64x64_S64x64_1_0) : (⟨S64x64, .f32⟩ : BufTy).Contents (Elt F) → (⟨S64x64, .f32⟩ : BufTy).Contents (Elt F)),
    binary main_v42 main_v43 main_v44 ((fun l r => Host.dotGeneral dot_S4x64_S64x64_S4x64_1_0_0_1_n_n none l r) : (⟨S4x64, .f32⟩ : BufTy).Contents (Elt F) → (⟨S64x64, .f32⟩ : BufTy).Contents (Elt F) → (⟨S4x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S4x64 ![0, 1] bcast_S1x64_S4x64_0_1 : (⟨S1x64, .f32⟩ : BufTy).Contents (Elt F) → (⟨S4x64, .f32⟩ : BufTy).Contents (Elt F)),
    binary main_v44 main_v46 main_v47 (addf : (⟨S4x64, .f32⟩ : BufTy).Contents (Elt F) → (⟨S4x64, .f32⟩ : BufTy).Contents (Elt F) → (⟨S4x64, .f32⟩ : BufTy).Contents (Elt F)) ]

/-- Every operation reads and writes buffers of the device. -/
theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    binary_bufs_sub .., unary_bufs_sub .., binary_bufs_sub .., unary_bufs_sub .., unary_bufs_sub .., binary_bufs_sub ..⟩

end Cert.ReferenceIdeal.RValue

end
-- ==== Proof.RefRunMain.lean ====
import proofs.«121243_j57621281243635_2_alg».proof.Proof.RefRunOps

/-!
# The reference runs as its line of operations

The reference's program is its operations one after another: unfolding each called function at its call turns the
program's text into the list of the operations module, so every weakly fair execution terminates and leaves each
buffer at the fold of the operations' results over the launch contents.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
/-- The program is that line: the called functions unfolded at their calls, the sequencing reassociated. -/
theorem main_eq (c : Dev nD) : main (F := F) c = seq ops := by
  simp only [main, main_part0, main_part1, fn_triu.body, fn_cumsum_0.body, fn_cumsum.body, fn_clip.body, fn_cumsum_2.body,
    fn_cumsum_1.body, fn_where.body, fn_floor_divide.body, fn_where_3.body, fn_remainder.body, seq, bind_assoc, pure_bind]

/-- No buffer of the device is scoped. -/
theorem scopedRefs_eq : (Finset.univ.filter fun b : Ref sig .tc => b.isScoped) = ∅ := by decide
/-- No semaphore of the device is scoped. -/
theorem scopedSems_eq : (Finset.univ.filter fun sm : SemLoc sig => sm.isScoped .tc) = ∅ := by decide

/-- Every weakly fair execution of the reference terminates, and every buffer ends at the fold of the operations
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RValue

end
-- ==== Proof.RefRunArgs.lean ====
import proofs.«121243_j57621281243635_2_alg».proof.Proof.RefRunOps
import proofs.«121243_j57621281243635_2_alg».proof.Proof.RefRunMain

/-!
# The reference leaves its arguments as it found them

Each operation of the reference's line writes one buffer of its own, never one of the five argument arrays, so
after the whole line every argument holds its launch contents.  With the run of the line this gives the
reference's frame: every weakly fair execution terminates without a fault and the argument arrays end unchanged.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- No operation writes argument 0: after the line it holds what it held before. -/
theorem arg0_eq (V : Valuation τ sig (Elt F)) :
    after ops V (main_arg0 : DevRef τ sig) = V (main_arg0 : DevRef τ sig) := by
  simp only [after_cons, after_nil]
  rfl

/-- No operation writes argument 1: after the line it holds what it held before. -/
theorem arg1_eq (V : Valuation τ sig (Elt F)) :
    after ops V (main_arg1 : DevRef τ sig) = V (main_arg1 : DevRef τ sig) := by
  simp only [after_cons, after_nil]
  rfl

/-- No operation writes argument 2: after the line it holds what it held before. -/
theorem arg2_eq (V : Valuation τ sig (Elt F)) :
    after ops V (main_arg2 : DevRef τ sig) = V (main_arg2 : DevRef τ sig) := by
  simp only [after_cons, after_nil]
  rfl

/-- No operation writes argument 3: after the line it holds what it held before. -/
theorem arg3_eq (V : Valuation τ sig (Elt F)) :
    after ops V (main_arg3 : DevRef τ sig) = V (main_arg3 : DevRef τ sig) := by
  simp only [after_cons, after_nil]
  rfl

/-- No operation writes argument 4: after the line it holds what it held before. -/
theorem arg4_eq (V : Valuation τ sig (Elt F)) :
    after ops V (main_arg4 : DevRef τ sig) = V (main_arg4 : DevRef τ sig) := by
  simp only [after_cons, after_nil]
  rfl

/-- Every weakly fair execution of the reference terminates, and its five argument arrays end unchanged. -/
theorem frame (m' : (ℓ : Loc nD τ sig) → Buf (Elt F) ℓ) (ρ' : Dev nD → PrngReg) :
    θ_run defs (onTc (τ := τ) (main (F := F))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono
    (fun _ h c => ⟨(h c main_arg0).trans (arg0_eq _), (h c main_arg1).trans (arg1_eq _), (h c main_arg2).trans (arg2_eq _),
      (h c main_arg3).trans (arg3_eq _), (h c main_arg4).trans (arg4_eq _)⟩)
    (run_main m' ρ')

end Cert.ReferenceIdeal.RValue

end
-- ==== Proof.RefRunParts.lean ====
import proofs.«121243_j57621281243635_2_alg».proof.Proof.RefRunOps

/-!
# The reference's operations in 9 consecutive windows

The same 150 operations as the operations module lists, cut where one stage of the computation ends and the
next begins; the whole list is the windows joined in order.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations 0 … 13 (counting from 0). -/
abbrev ops1 : List (HloOp τ sig (Elt F)) :=
  [ nullary main_cst (constant S_ .f32 0x3F800000#32),
    unary main_cst main_v0 (broadcastInDim S1024x1024 ![] bcast_S_S1024x1024 : (⟨S_, .f32⟩ : BufTy).Contents (Elt F) → (⟨S1024x1024, .f32⟩ : BufTy).Contents (Elt F)),
    TRef.nullary main_call0.v0 (iotaInDim S1024x1024 32 0),
    TRef.nullary main_call0.c (constantI S_ 32 0#32),
    TRef.unary main_call0.c main_call0.v1 (broadcastInDim S1024x1024 ![] bcast_S_S1024x1024),
    TRef.binary main_call0.v0 main_call0.v1 main_call0.v2 addi,
    TRef.nullary main_call0.v3 (iotaInDim S1024x1024 32 1),
    TRef.binary main_call0.v2 main_call0.v3 main_call0.v4 (cmpi .sge),
    TRef.nullary main_call0.cst (constant S_ .f32 0x00000000#32),
    TRef.unary main_call0.cst main_call0.v5 (broadcastInDim S1024x1024 ![] bcast_S_S1024x1024),
    TRef.ternary main_call0.v4 main_call0.v5 (.of main_v0 : TRef sig ⟨S1024x1024, .f32⟩) main_call0.v6 select,
    nullary main_cst_0 (constant S_ .f32 0x00000000#32),
    unary main_cst_0 main_v2 (broadcastInDim S1024x1024 ![] bcast_S_S1024x1024 : (⟨S_, .f32⟩ : BufTy).Contents (Elt F) → (⟨S1024x1024, .f32⟩ : BufTy).Contents (Elt F)),
    binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)) ]

/-- Operations 14 … 18 (counting from 0). -/
abbrev ops2 : List (HloOp τ sig (Elt F)) :=
  [ TRef.reshape (.of main_v3 : TRef sig ⟨S1024x1024, .i1⟩) main_call1.v0 rfl shapeCasts_S1024x1024_S1048576,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1048576] ![1] ![1048575] ![0] x v reduceWindows_S1048576_S1048576_w1048576s1p1048575_0 h_S_) ]

/-- Operations 19 … 35 (counting from 0). -/
abbrev ops3 : List (HloOp τ sig (Elt F)) :=
  [ nullary main_c (constantI S_ 32 0#32),
    unary main_c main_v5 (broadcastInDim S523776 ![] bcast_S_S523776 : (⟨S_, .i32⟩ : BufTy).Contents (Elt F) → (⟨S523776, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S1048576 ![] bcast_S_S1048576),
    TRef.binary main_call2.v1 (.of main_v4 : TRef sig ⟨S1048576, .i32⟩) main_call2.v2 maxsi,
    nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 523776#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) ]

/-- Operations 36 … 38 (counting from 0). -/
abbrev ops4 : List (HloOp τ sig (Elt F)) :=
  [ TRef.nullary main_call3.call0.c (constantI S_ 32 0#32),
    TRef.unary main_call3.call0.c main_call3.call0.v0 (broadcastInDim S_ ![] bcast_S_S_),
    TRef.binary (.of main_v14 : TRef sig ⟨S523776, .i32⟩) main_call3.call0.v0 main_call3.call0.v1 (fun x v => Host.reduceWindow IntOp.addi ![523776] ![1] ![523775] ![0] x v reduceWindows_S523776_S523776_w523776s1p523775_0 h_S_) ]

/-- Operations 39 … 55 (counting from 0). -/
abbrev ops5 : List (HloOp τ sig (Elt F)) :=
  [ nullary main_c_5 (constantI S_ 32 1024#32),
    TRef.unary (.of main_c_5 : TRef sig ⟨S_, .i32⟩) main_call4.v0 (broadcastInDim S523776 ![] bcast_S_S523776),
    TRef.binary (.of main_v15 : TRef sig ⟨S523776, .i32⟩) main_call4.v0 main_call4.v1 Host.divsi,
    TRef.unary (.of main_v15 : TRef sig ⟨S523776, .i32⟩) main_call4.v2 signi,
    TRef.unary (.of main_c_5 : TRef sig ⟨S_, .i32⟩) main_call4.v3 signi,
    TRef.unary main_call4.v3 main_call4.v4 (broadcastInDim S523776 ![] bcast_S_S523776),
    TRef.binary main_call4.v2 main_call4.v4 main_call4.v5 (cmpi .ne),
    TRef.unary (.of main_c_5 : TRef sig ⟨S_, .i32⟩) main_call4.v6 (broadcastInDim S523776 ![] bcast_S_S523776),
    TRef.binary (.of main_v15 : TRef sig ⟨S523776, .i32⟩) main_call4.v6 main_call4.v7 Host.remsi,
    TRef.nullary main_call4.c (constantI S_ 32 0#32),
    TRef.unary main_call4.c main_call4.v8 (broadcastInDim S523776 ![] bcast_S_S523776),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S523776 ![] bcast_S_S523776),
    TRef.binary main_call4.v1 main_call4.v11 main_call4.v12 subi,
    TRef.ternary main_call4.v10 main_call4.v12 main_call4.v1 main_call4.call0.v0 select ]

/-- Operations 56 … 77 (counting from 0). -/
abbrev ops6 : List (HloOp τ sig (Elt F)) :=
  [ nullary main_c_6 (constantI S_ 32 1024#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S523776 ![] bcast_S_S523776),
    TRef.binary (.of main_v16 : TRef sig ⟨S523776, .i32⟩) main_call5.v3 main_call5.v4 Host.remsi,
    TRef.nullary main_call5.c_1 (constantI S_ 32 0#32),
    TRef.unary main_call5.c_1 main_call5.v5 (broadcastInDim S523776 ![] bcast_S_S523776),
    TRef.binary main_call5.v4 main_call5.v5 main_call5.v6 (cmpi .ne),
    TRef.nullary main_call5.c_2 (constantI S_ 32 0#32),
    TRef.unary main_call5.c_2 main_call5.v7 (broadcastInDim S523776 ![] bcast_S_S523776),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S523776 ![] bcast_S_S523776),
    TRef.binary main_call5.v8 main_call5.v10 main_call5.v11 (cmpi .ne),
    TRef.binary main_call5.v11 main_call5.v6 main_call5.v12 andi,
    TRef.unary main_call5.call0.v0 main_call5.v13 (broadcastInDim S523776 ![] bcast_S_S523776),
    TRef.binary main_call5.v4 main_call5.v13 main_call5.v14 addi,
    TRef.ternary main_call5.v12 main_call5.v14 main_call5.v4 main_call5.v15 select ]

/-- Operations 78 … 94 (counting from 0). -/
abbrev ops7 : List (HloOp τ sig (Elt F)) :=
  [ nullary main_c_7 (constantI S_ 32 1#32),
    TRef.unary (.of main_c_7 : TRef sig ⟨S_, .i32⟩) main_call6.v0 (broadcastInDim S523776 ![] bcast_S_S523776),
    TRef.binary (.of main_v15 : TRef sig ⟨S523776, .i32⟩) main_call6.v0 main_call6.v1 Host.divsi,
    TRef.unary (.of main_v15 : TRef sig ⟨S523776, .i32⟩) main_call6.v2 signi,
    TRef.unary (.of main_c_7 : TRef sig ⟨S_, .i32⟩) main_call6.v3 signi,
    TRef.unary main_call6.v3 main_call6.v4 (broadcastInDim S523776 ![] bcast_S_S523776),
    TRef.binary main_call6.v2 main_call6.v4 main_call6.v5 (cmpi .ne),
    TRef.unary (.of main_c_7 : TRef sig ⟨S_, .i32⟩) main_call6.v6 (broadcastInDim S523776 ![] bcast_S_S523776),
    TRef.binary (.of main_v15 : TRef sig ⟨S523776, .i32⟩) main_call6.v6 main_call6.v7 Host.remsi,
    TRef.nullary main_call6.c (constantI S_ 32 0#32),
    TRef.unary main_call6.c main_call6.v8 (broadcastInDim S523776 ![] bcast_S_S523776),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S523776 ![] bcast_S_S523776),
    TRef.binary main_call6.v1 main_call6.v11 main_call6.v12 subi,
    TRef.ternary main_call6.v10 main_call6.v12 main_call6.v1 main_call6.call0.v0 select ]

/-- Operations 95 … 116 (counting from 0). -/
abbrev ops8 : List (HloOp τ sig (Elt F)) :=
  [ nullary main_c_8 (constantI S_ 32 1024#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S523776 ![] bcast_S_S523776),
    TRef.binary (.of main_v18 : TRef sig ⟨S523776, .i32⟩) main_call7.v3 main_call7.v4 Host.remsi,
    TRef.nullary main_call7.c_1 (constantI S_ 32 0#32),
    TRef.unary main_call7.c_1 main_call7.v5 (broadcastInDim S523776 ![] bcast_S_S523776),
    TRef.binary main_call7.v4 main_call7.v5 main_call7.v6 (cmpi .ne),
    TRef.nullary main_call7.c_2 (constantI S_ 32 0#32),
    TRef.unary main_call7.c_2 main_call7.v7 (broadcastInDim S523776 ![] bcast_S_S523776),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S523776 ![] bcast_S_S523776),
    TRef.binary main_call7.v8 main_call7.v10 main_call7.v11 (cmpi .ne),
    TRef.binary main_call7.v11 main_call7.v6 main_call7.v12 andi,
    TRef.unary main_call7.call0.v0 main_call7.v13 (broadcastInDim S523776 ![] bcast_S_S523776),
    TRef.binary main_call7.v4 main_call7.v13 main_call7.v14 addi,
    TRef.ternary main_call7.v12 main_call7.v14 main_call7.v4 main_call7.v15 select ]

/-- Operations 117 … 149 (counting from 0). -/
abbrev ops9 : List (HloOp τ sig (Elt F)) :=
  [ unary main_arg1 main_v20 ((extractStridedSlice S64x64 ![0, 0] · slices_S64x128_S64x64_0_0) : (⟨S64x128, .f32⟩ : BufTy).Contents (Elt F) → (⟨S64x64, .f32⟩ : BufTy).Contents (Elt F)),
    unary main_arg1 main_v21 ((extractStridedSlice S64x64 ![0, 64] · slices_S64x128_S64x64_0_64) : (⟨S64x128, .f32⟩ : BufTy).Contents (Elt F) → (⟨S64x64, .f32⟩ : BufTy).Contents (Elt F)),
    nullary main_c_9 (constantI S_ 32 0#32),
    unary main_c_9 main_v22 (broadcastInDim S523776 ![] bcast_S_S523776 : (⟨S_, .i32⟩ : BufTy).Contents (Elt F) → (⟨S523776, .i32⟩ : BufTy).Contents (Elt F)),
    binary main_v17 main_v22 main_v23 (cmpi .slt : (⟨S523776, .i32⟩ : BufTy).Contents (Elt F) → (⟨S523776, .i32⟩ : BufTy).Contents (Elt F) → (⟨S523776, .i1⟩ : BufTy).Contents (Elt F)),
    nullary main_c_10 (constantI S_ 32 1024#32),
    unary main_c_10 main_v24 (broadcastInDim S523776 ![] bcast_S_S523776 : (⟨S_, .i32⟩ : BufTy).Contents (Elt F) → (⟨S523776, .i32⟩ : BufTy).Contents (Elt F)),
    binary main_v17 main_v24 main_v25 (addi : (⟨S523776, .i32⟩ : BufTy).Contents (Elt F) → (⟨S523776, .i32⟩ : BufTy).Contents (Elt F) → (⟨S523776, .i32⟩ : BufTy).Contents (Elt F)),
    ternary main_v23 main_v25 main_v17 main_v26 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v26 main_v27 (broadcastInDim S523776x1 ![0] bcast_S523776_S523776x1_0 : (⟨S523776, .i32⟩ : BufTy).Contents (Elt F) → (⟨S523776x1, .i32⟩ : BufTy).Contents (Elt F)),
    binary main_arg0 main_v27 main_v28 ((fun x i => Host.gather gather_S4x1024x64_S523776x1_S4x523776x64_02_1_n_n_1_1_4164 x i) : (⟨S4x1024x64, .f32⟩ : BufTy).Contents (Elt F) → (⟨S523776x1, .i32⟩ : BufTy).Contents (Elt F) → (⟨S4x523776x64, .f32⟩ : BufTy).Contents (Elt F)),
    binary main_v28 main_v20 main_v29 ((fun l r => Host.dotGeneral dot_S4x523776x64_S64x64_S4x523776x64_2_1_01_0_n_n none l r) : (⟨S4x523776x64, .f32⟩ : BufTy).Contents (Elt F) → (⟨S64x64, .f32⟩ : BufTy).Contents (Elt F) → (⟨S4x523776x64, .f32⟩ : BufTy).Contents (Elt F)),
    nullary main_c_11 (constantI S_ 32 0#32),
    unary main_c_11 main_v30 (broadcastInDim S523776 ![] bcast_S_S523776 : (⟨S_, .i32⟩ : BufTy).Contents (Elt F) → (⟨S523776, .i32⟩ : BufTy).Contents (Elt F)),
    binary main_v19 main_v30 main_v31 (cmpi .slt : (⟨S523776, .i32⟩ : BufTy).Contents (Elt F) → (⟨S523776, .i32⟩ : BufTy).Contents (Elt F) → (⟨S523776, .i1⟩ : BufTy).Contents (Elt F)),
    nullary main_c_12 (constantI S_ 32 1024#32),
    unary main_c_12 main_v32 (broadcastInDim S523776 ![] bcast_S_S523776 : (⟨S_, .i32⟩ : BufTy).Contents (Elt F) → (⟨S523776, .i32⟩ : BufTy).Contents (Elt F)),
    binary main_v19 main_v32 main_v33 (addi : (⟨S523776, .i32⟩ : BufTy).Contents (Elt F) → (⟨S523776, .i32⟩ : BufTy).Contents (Elt F) → (⟨S523776, .i32⟩ : BufTy).Contents (Elt F)),
    ternary main_v31 main_v33 main_v19 main_v34 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    unary main_v34 main_v35 (broadcastInDim S523776x1 ![0] bcast_S523776_S523776x1_0 : (⟨S523776, .i32⟩ : BufTy).Contents (Elt F) → (⟨S523776x1, .i32⟩ : BufTy).Contents (Elt F)),
    binary main_arg0 main_v35 main_v36 ((fun x i => Host.gather gather_S4x1024x64_S523776x1_S4x523776x64_02_1_n_n_1_1_4164 x i) : (⟨S4x1024x64, .f32⟩ : BufTy).Contents (Elt F) → (⟨S523776x1, .i32⟩ : BufTy).Contents (Elt F) → (⟨S4x523776x64, .f32⟩ : BufTy).Contents (Elt F)),
    binary main_v36 main_v21 main_v37 ((fun l r => Host.dotGeneral dot_S4x523776x64_S64x64_S4x523776x64_2_1_01_0_n_n none l r) : (⟨S4x523776x64, .f32⟩ : BufTy).Contents (Elt F) → (⟨S64x64, .f32⟩ : BufTy).Contents (Elt F) → (⟨S4x523776x64, .f32⟩ : BufTy).Contents (Elt F)),
    binary main_v29 main_v37 main_v38 (addf : (⟨S4x523776x64, .f32⟩ : BufTy).Contents (Elt F) → (⟨S4x523776x64, .f32⟩ : BufTy).Contents (Elt F) → (⟨S4x523776x64, .f32⟩ : BufTy).Contents (Elt F)),
    unary main_arg2 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S4x523776x64 ![0, 1, 2] bcast_S1x1x64_S4x523776x64_0_1_2 : (⟨S1x1x64, .f32⟩ : BufTy).Contents (Elt F) → (⟨S4x523776x64, .f32⟩ : BufTy).Contents (Elt F)),
    binary main_v38 main_v40 main_v41 (addf : (⟨S4x523776x64, .f32⟩ : BufTy).Contents (Elt F) → (⟨S4x523776x64, .f32⟩ : BufTy).Contents (Elt F) → (⟨S4x523776x64, .f32⟩ : BufTy).Contents (Elt F)),
    nullary main_cst_13 (constant S_ .f32 0x00000000#32),
    binary main_v41 main_cst_13 main_v42 ((fun x v => Host.reduceAdd x v reducesTo_S4x523776x64_S4x64_d1 h_S_) : (⟨S4x523776x64, .f32⟩ : BufTy).Contents (Elt F) → (⟨S_, .f32⟩ : BufTy).Contents (Elt F) → (⟨S4x64, .f32⟩ : BufTy).Contents (Elt F)),
    unary main_arg3 main_v43 ((transpose S64x64 [1, 0] · transposes_S64x64_S64x64_1_0) : (⟨S64x64, .f32⟩ : BufTy).Contents (Elt F) → (⟨S64x64, .f32⟩ : BufTy).Contents (Elt F)),
    binary main_v42 main_v43 main_v44 ((fun l r => Host.dotGeneral dot_S4x64_S64x64_S4x64_1_0_0_1_n_n none l r) : (⟨S4x64, .f32⟩ : BufTy).Contents (Elt F) → (⟨S64x64, .f32⟩ : BufTy).Contents (Elt F) → (⟨S4x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S4x64 ![0, 1] bcast_S1x64_S4x64_0_1 : (⟨S1x64, .f32⟩ : BufTy).Contents (Elt F) → (⟨S4x64, .f32⟩ : BufTy).Contents (Elt F)),
    binary main_v44 main_v46 main_v47 (addf : (⟨S4x64, .f32⟩ : BufTy).Contents (Elt F) → (⟨S4x64, .f32⟩ : BufTy).Contents (Elt F) → (⟨S4x64, .f32⟩ : BufTy).Contents (Elt F)) ]

/-- The whole list is the windows joined in order. -/
theorem ops_eq : (ops : List (HloOp τ sig (Elt F))) = ops1 ++ (ops2 ++ (ops3 ++ (ops4 ++ (ops5 ++ (ops6 ++ (ops7 ++ (ops8 ++ (ops9)))))))) := rfl

end Cert.ReferenceIdeal.RValue

end
-- ==== Proof.RefRunVals.lean ====
import proofs.«121243_j57621281243635_2_alg».proof.Proof.RefRunParts

/-!
# The contents after each window of operations

Folding the whole list of operations is folding its nine windows in order; the contents after each window get a
name, and the five argument buffers, which no operation writes, are carried through the first eight windows unchanged.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Folding two lists joined is folding the first and then the second. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The contents after each window -/

/-- The buffers' contents after the first window, from contents V. -/
def val1 (V : Valuation τ sig (Elt F)) : Valuation τ sig (Elt F) := after ops1 V
/-- … after the first two windows. -/
def val2 (V : Valuation τ sig (Elt F)) : Valuation τ sig (Elt F) := after ops2 (val1 V)
/-- … after the first three. -/
def val3 (V : Valuation τ sig (Elt F)) : Valuation τ sig (Elt F) := after ops3 (val2 V)
/-- … after the first four. -/
def val4 (V : Valuation τ sig (Elt F)) : Valuation τ sig (Elt F) := after ops4 (val3 V)
/-- … after the first five. -/
def val5 (V : Valuation τ sig (Elt F)) : Valuation τ sig (Elt F) := after ops5 (val4 V)
/-- … after the first six. -/
def val6 (V : Valuation τ sig (Elt F)) : Valuation τ sig (Elt F) := after ops6 (val5 V)
/-- … after the first seven. -/
def val7 (V : Valuation τ sig (Elt F)) : Valuation τ sig (Elt F) := after ops7 (val6 V)
/-- … after the first eight. -/
def val8 (V : Valuation τ sig (Elt F)) : Valuation τ sig (Elt F) := after ops8 (val7 V)
/-- … after all nine. -/
def val9 (V : Valuation τ sig (Elt F)) : Valuation τ sig (Elt F) := after ops9 (val8 V)

/-- Folding the whole list is folding the nine windows in order. -/
theorem after_ops (V : Valuation τ sig (Elt F)) : after ops V = val9 V := by
  rw [ops_eq]
  simp only [after_app]
  rfl

/-! ## The argument buffers are never written -/

/-- Contents W agree with contents V on the five argument buffers. -/
def ArgsKept (W V : Valuation τ sig (Elt F)) : Prop :=
  W (Proc.devRef .tc main_arg0) = V (Proc.devRef .tc main_arg0)
    ∧ W (Proc.devRef .tc main_arg1) = V (Proc.devRef .tc main_arg1)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)

theorem ArgsKept.trans {A B C : Valuation τ sig (Elt F)} (h₁ : ArgsKept A B) (h₂ : ArgsKept B C) : ArgsKept A C :=
  ⟨h₁.1.trans h₂.1, h₁.2.1.trans h₂.2.1, h₁.2.2.1.trans h₂.2.2.1, h₁.2.2.2.1.trans h₂.2.2.2.1,
    h₁.2.2.2.2.trans h₂.2.2.2.2⟩

theorem kept1 (W : Valuation τ sig (Elt F)) : ArgsKept (after ops1 W) W := by
  unfold ArgsKept; simp only [ops1]; refine ⟨?_, ?_, ?_, ?_, ?_⟩ <;> after_results_simp
theorem kept2 (W : Valuation τ sig (Elt F)) : ArgsKept (after ops2 W) W := by
  unfold ArgsKept; simp only [ops2]; refine ⟨?_, ?_, ?_, ?_, ?_⟩ <;> after_results_simp
theorem kept3 (W : Valuation τ sig (Elt F)) : ArgsKept (after ops3 W) W := by
  unfold ArgsKept; simp only [ops3]; refine ⟨?_, ?_, ?_, ?_, ?_⟩ <;> after_results_simp
theorem kept4 (W : Valuation τ sig (Elt F)) : ArgsKept (after ops4 W) W := by
  unfold ArgsKept; simp only [ops4]; refine ⟨?_, ?_, ?_, ?_, ?_⟩ <;> after_results_simp
theorem kept5 (W : Valuation τ sig (Elt F)) : ArgsKept (after ops5 W) W := by
  unfold ArgsKept; simp only [ops5]; refine ⟨?_, ?_, ?_, ?_, ?_⟩ <;> after_results_simp
theorem kept6 (W : Valuation τ sig (Elt F)) : ArgsKept (after ops6 W) W := by
  unfold ArgsKept; simp only [ops6]; refine ⟨?_, ?_, ?_, ?_, ?_⟩ <;> after_results_simp
theorem kept7 (W : Valuation τ sig (Elt F)) : ArgsKept (after ops7 W) W := by
  unfold ArgsKept; simp only [ops7]; refine ⟨?_, ?_, ?_, ?_, ?_⟩ <;> after_results_simp
theorem kept8 (W : Valuation τ sig (Elt F)) : ArgsKept (after ops8 W) W := by
  unfold ArgsKept; simp only [ops8]; refine ⟨?_, ?_, ?_, ?_, ?_⟩ <;> after_results_simp

/-- The argument buffers after eight windows are as at the start. -/
theorem val8_args (V : Valuation τ sig (Elt F)) : ArgsKept (val8 V) V :=
  (kept8 (val7 V)).trans ((kept7 (val6 V)).trans ((kept6 (val5 V)).trans ((kept5 (val4 V)).trans
    ((kept4 (val3 V)).trans ((kept3 (val2 V)).trans ((kept2 (val1 V)).trans (kept1 V)))))))

end Cert.ReferenceIdeal.RValue

end
-- ==== Proof.RefStages.lean ====
import proofs.«121243_j57621281243635_2_alg».proof.ReferenceIdeal

/-!
# The reference's values, stage by stage

The reference's result as a pure function of its five argument arrays, written as the chain of its host
operations: the integer chain that lists the pairs `i < j` (an upper-triangular mask, its running count, the
histogram of the running count and that histogram's running sum — the flat positions of the mask's ones —, and
the two coordinates of each position by quotient and remainder), and the float chain that gathers the two rows of
every pair, multiplies them by the two halves of the first weight matrix, adds the bias, sums over the pairs
and applies the second linear map.  Nothing is proved here; the run shows the result buffer ends at `out`, and
the value lemmas read these definitions at an index.
-/

noncomputable section

namespace Cert.ReferenceIdeal.Stages

open Idealize.ShloMosaic Cert.ReferenceIdeal
open Cert.ReferenceIdeal.Facts₀

variable {F : FTy → Type} [FloatOps F] [Facts]

/-! ## The pairs: the integer chain -/

/-- The strict upper triangle of the all-ones matrix: zero where `row ≥ column`. -/
def tri : FVec F S1024x1024 .f32 :=
  select
    (cmpi .sge
      (addi (iotaInDim S1024x1024 32 0) (broadcastInDim S1024x1024 ![] bcast_S_S1024x1024 (constantI S_ 32 0#32)))
      (iotaInDim S1024x1024 32 1))
    (broadcastInDim S1024x1024 ![] bcast_S_S1024x1024 (constant (F := F) S_ .f32 0x00000000#32))
    (broadcastInDim S1024x1024 ![] bcast_S_S1024x1024 (constant (F := F) S_ .f32 0x3F800000#32))

/-- The mask: where the triangle is not zero. -/
def mask : IVec S1024x1024 1 :=
  cmpf .une (tri (F := F)) (broadcastInDim S1024x1024 ![] bcast_S_S1024x1024 (constant (F := F) S_ .f32 0x00000000#32))

/-- The mask flattened, as 32-bit words. -/
def maskFlat : IVec S1048576 32 :=
  extui 32 (fun i => shapeCast S1048576 (mask (F := F)) shapeCasts_S1024x1024_S1048576 i) natLt_1_32

/-- The running count of the mask's ones (inclusive). -/
def count : IVec S1048576 32 :=
  Host.reduceWindow IntOp.addi ![1048576] ![1] ![1048575] ![0] (maskFlat (F := F))
    (broadcastInDim S_ ![] bcast_S_S_ (constantI S_ 32 0#32)) reduceWindows_S1048576_S1048576_w1048576s1p1048575_0 h_S_

/-- The running count, clipped below at zero. -/
def countClip : IVec S1048576 32 :=
  maxsi (broadcastInDim S1048576 ![] bcast_S_S1048576 (id (constantI S_ 32 0#32))) (count (F := F))

/-- The scatter's index column: a negative count wrapped by the histogram's length. -/
def binIdx : IVec S1048576x1 32 :=
  broadcastInDim S1048576x1 ![0] bcast_S1048576_S1048576x1_0
    (select
      (cmpi .slt (countClip (F := F)) (broadcastInDim S1048576 ![] bcast_S_S1048576 (constantI S_ 32 0#32)))
      (addi (countClip (F := F)) (broadcastInDim S1048576 ![] bcast_S_S1048576 (constantI S_ 32 523776#32)))
      (countClip (F := F)))

/-- The histogram of the running count: how many flat positions have running count `v`. -/
def hist : IVec S523776 32 :=
  Host.scatter scatter_S523776_S1048576x1_S1048576_n_0_0_1 IntOp.addi
    (broadcastInDim S523776 ![] bcast_S_S523776 (constantI S_ 32 0#32))
    (binIdx (F := F))
    (broadcastInDim S1048576 ![] bcast_S_S1048576 (constantI S_ 32 1#32))

/-- The histogram's running sum: the flat position of the `p`-th one of the mask. -/
def flat : IVec S523776 32 :=
  Host.reduceWindow IntOp.addi ![523776] ![1] ![523775] ![0] (hist (F := F))
    (broadcastInDim S_ ![] bcast_S_S_ (constantI S_ 32 0#32)) reduceWindows_S523776_S523776_w523776s1p523775_0 h_S_

/-- jnp's floor division of a vector by a scalar: the truncated quotient, less one where the signs differ and the
    remainder is not zero. -/
def floorDiv (x : IVec S523776 32) (d : IVec S_ 32) : IVec S523776 32 :=
  select
    (andi
      (cmpi .ne (signi x) (broadcastInDim S523776 ![] bcast_S_S523776 (signi d)))
      (cmpi .ne (Host.remsi x (broadcastInDim S523776 ![] bcast_S_S523776 d))
        (broadcastInDim S523776 ![] bcast_S_S523776 (constantI S_ 32 0#32))))
    (subi (Host.divsi x (broadcastInDim S523776 ![] bcast_S_S523776 d))
      (broadcastInDim S523776 ![] bcast_S_S523776 (constantI S_ 32 1#32)))
    (Host.divsi x (broadcastInDim S523776 ![] bcast_S_S523776 d))

/-- The divisor jnp's remainder uses: one in place of zero. -/
def safeDiv (d : IVec S_ 32) : IVec S_ 32 :=
  select (cmpi .eq (id d) (constantI S_ 32 0#32)) (constantI S_ 32 1#32) (id d)

/-- jnp's remainder of a vector by a scalar: the truncated remainder, plus the divisor where it is not zero and
    its sign differs from the divisor's. -/
def pyRem (x : IVec S523776 32) (d : IVec S_ 32) : IVec S523776 32 :=
  select
    (andi
      (cmpi .ne
        (cmpi .slt (Host.remsi x (broadcastInDim S523776 ![] bcast_S_S523776 (safeDiv d)))
          (broadcastInDim S523776 ![] bcast_S_S523776 (constantI S_ 32 0#32)))
        (broadcastInDim S523776 ![] bcast_S_S523776 (cmpi .slt (safeDiv d) (constantI S_ 32 0#32))))
      (cmpi .ne (Host.remsi x (broadcastInDim S523776 ![] bcast_S_S523776 (safeDiv d)))
        (broadcastInDim S523776 ![] bcast_S_S523776 (constantI S_ 32 0#32))))
    (addi (Host.remsi x (broadcastInDim S523776 ![] bcast_S_S523776 (safeDiv d)))
      (broadcastInDim S523776 ![] bcast_S_S523776 (safeDiv d)))
    (Host.remsi x (broadcastInDim S523776 ![] bcast_S_S523776 (safeDiv d)))

/-- A negative index wrapped by the axis length 1024. -/
def wrap (x : IVec S523776 32) : IVec S523776 32 :=
  select (cmpi .slt x (broadcastInDim S523776 ![] bcast_S_S523776 (constantI S_ 32 0#32)))
    (addi x (broadcastInDim S523776 ![] bcast_S_S523776 (constantI S_ 32 1024#32))) x

/-- The first coordinate of the `p`-th pair: `(flat / 1024) mod 1024`. -/
def rowI : IVec S523776 32 :=
  wrap (pyRem (floorDiv (flat (F := F)) (constantI S_ 32 1024#32)) (constantI S_ 32 1024#32))

/-- The second coordinate of the `p`-th pair: `(flat / 1) mod 1024`. -/
def rowJ : IVec S523776 32 :=
  wrap (pyRem (floorDiv (flat (F := F)) (constantI S_ 32 1#32)) (constantI S_ 32 1024#32))

/-! ## The float chain -/

/-- One gathered operand times one half of the first weight matrix: `[4, pairs, 64]`. -/
def proj (obj : FVec F S4x1024x64 .f32) (rows : IVec S523776 32) (w : FVec F S64x64 .f32) : FVec F S4x523776x64 .f32 :=
  Host.dotGeneral dot_S4x523776x64_S64x64_S4x523776x64_2_1_01_0_n_n none
    (Host.gather gather_S4x1024x64_S523776x1_S4x523776x64_02_1_n_n_1_1_4164 obj
      (broadcastInDim S523776x1 ![0] bcast_S523776_S523776x1_0 rows)) w

/-- The relation vector of every pair: both projections and the bias. -/
def rel (obj : FVec F S4x1024x64 .f32) (wg : FVec F S64x128 .f32) (bg : FVec F S64 .f32) : FVec F S4x523776x64 .f32 :=
  addf
    (addf (proj obj (rowI (F := F)) (extractStridedSlice S64x64 ![0, 0] wg slices_S64x128_S64x64_0_0))
      (proj obj (rowJ (F := F)) (extractStridedSlice S64x64 ![0, 64] wg slices_S64x128_S64x64_0_64)))
    (broadcastInDim S4x523776x64 ![0, 1, 2] bcast_S1x1x64_S4x523776x64_0_1_2
      (broadcastInDim S1x1x64 ![2] bcast_S64_S1x1x64_2 bg))

/-- The relations summed over the pairs. -/
def pooled (obj : FVec F S4x1024x64 .f32) (wg : FVec F S64x128 .f32) (bg : FVec F S64 .f32) : FVec F S4x64 .f32 :=
  Host.reduceAdd (rel obj wg bg) (constant (F := F) S_ .f32 0x00000000#32) reducesTo_S4x523776x64_S4x64_d1 h_S_

/-- The reference's result: the pooled relations through the second linear map. -/
def out (obj : FVec F S4x1024x64 .f32) (wg : FVec F S64x128 .f32) (bg : FVec F S64 .f32) (wf : FVec F S64x64 .f32)
    (bf : FVec F S64 .f32) : FVec F S4x64 .f32 :=
  addf
    (Host.dotGeneral dot_S4x64_S64x64_S4x64_1_0_0_1_n_n none (pooled obj wg bg)
      (transpose S64x64 [1, 0] wf transposes_S64x64_S64x64_1_0))
    (broadcastInDim S4x64 ![0, 1] bcast_S1x64_S4x64_0_1 (broadcastInDim S1x64 ![1] bcast_S64_S1x64_1 bf))

end Cert.ReferenceIdeal.Stages

end
-- ==== Proof.RefRunOut.lean ====
import proofs.«121243_j57621281243635_2_alg».proof.Proof.RefRunVals
import proofs.«121243_j57621281243635_2_alg».proof.Proof.RefStages

/-!
# What the line of operations leaves in the result buffer

The operations are folded window by window.  Each window is read from ARBITRARY contents W: the buffer it computes
is a function of the buffers it reads, so its lemma mentions no other window.  The windows end where a running
count, the histogram or a running sum has just been computed, so that each of these enters the next window as the
contents of a buffer and is never opened.  Chaining the windows: the mask, its running count, the histogram of the
count, the flat positions, the two quotients and two remainders, and last the float chain over the two remainders
and the five arguments.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## The stages as functions of the buffers they read -/

/-- The running count of a mask's ones. -/
def countFrom (M : IVec S1024x1024 1) : IVec S1048576 32 :=
  Host.reduceWindow IntOp.addi ![1048576] ![1] ![1048575] ![0]
    (extui 32 (fun i => shapeCast S1048576 M shapeCasts_S1024x1024_S1048576 i) natLt_1_32)
    (broadcastInDim S_ ![] bcast_S_S_ (constantI S_ 32 0#32)) reduceWindows_S1048576_S1048576_w1048576s1p1048575_0 h_S_

/-- A running count clipped below at zero. -/
def clipFrom (C : IVec S1048576 32) : IVec S1048576 32 :=
  maxsi (broadcastInDim S1048576 ![] bcast_S_S1048576 (id (constantI S_ 32 0#32))) C

/-- The histogram of a running count. -/
def histFrom (C : IVec S1048576 32) : IVec S523776 32 :=
  Host.scatter scatter_S523776_S1048576x1_S1048576_n_0_0_1 IntOp.addi
    (broadcastInDim S523776 ![] bcast_S_S523776 (constantI S_ 32 0#32))
    (broadcastInDim S1048576x1 ![0] bcast_S1048576_S1048576x1_0
      (select
        (cmpi .slt (clipFrom C) (broadcastInDim S1048576 ![] bcast_S_S1048576 (constantI S_ 32 0#32)))
        (addi (clipFrom C) (broadcastInDim S1048576 ![] bcast_S_S1048576 (constantI S_ 32 523776#32)))
        (clipFrom C)))
    (broadcastInDim S1048576 ![] bcast_S_S1048576 (constantI S_ 32 1#32))

/-- The running sum of a histogram. -/
def flatFrom (H : IVec S523776 32) : IVec S523776 32 :=
  Host.reduceWindow IntOp.addi ![523776] ![1] ![523775] ![0] H
    (broadcastInDim S_ ![] bcast_S_S_ (constantI S_ 32 0#32)) reduceWindows_S523776_S523776_w523776s1p523775_0 h_S_

/-- The float chain over two remainder vectors and the five arguments. -/
def outFrom (r₁ r₂ : IVec S523776 32) (obj : FVec F S4x1024x64 .f32) (wg : FVec F S64x128 .f32) (bg : FVec F S64 .f32)
    (wf : FVec F S64x64 .f32) (bf : FVec F S64 .f32) : FVec F S4x64 .f32 :=
  addf
    (Host.dotGeneral dot_S4x64_S64x64_S4x64_1_0_0_1_n_n none
      (Host.reduceAdd
        (addf
          (addf
            (Stages.proj obj (Stages.wrap r₁) (extractStridedSlice S64x64 ![0, 0] wg slices_S64x128_S64x64_0_0))
            (Stages.proj obj (Stages.wrap r₂) (extractStridedSlice S64x64 ![0, 64] wg slices_S64x128_S64x64_0_64)))
          (broadcastInDim S4x523776x64 ![0, 1, 2] bcast_S1x1x64_S4x523776x64_0_1_2
            (broadcastInDim S1x1x64 ![2] bcast_S64_S1x1x64_2 bg)))
        (constant (F := F) S_ .f32 0x00000000#32) reducesTo_S4x523776x64_S4x64_d1 h_S_)
      (transpose S64x64 [1, 0] wf transposes_S64x64_S64x64_1_0))
    (broadcastInDim S4x64 ![0, 1] bcast_S1x64_S4x64_0_1 (broadcastInDim S1x64 ![1] bcast_S64_S1x64_1 bf))

theorem countFrom_mask : countFrom (Stages.mask (F := F)) = Stages.count (F := F) := by
  unfold countFrom Stages.count Stages.maskFlat
  rfl

theorem histFrom_count : histFrom (Stages.count (F := F)) = Stages.hist (F := F) := by
  unfold histFrom clipFrom Stages.hist Stages.binIdx Stages.countClip
  rfl

theorem flatFrom_hist : flatFrom (Stages.hist (F := F)) = Stages.flat (F := F) := by
  unfold flatFrom Stages.flat
  rfl

theorem outFrom_rows (obj : FVec F S4x1024x64 .f32) (wg : FVec F S64x128 .f32) (bg : FVec F S64 .f32)
    (wf : FVec F S64x64 .f32) (bf : FVec F S64 .f32) :
    outFrom (Stages.pyRem (Stages.floorDiv (Stages.flat (F := F)) (constantI S_ 32 1024#32)) (constantI S_ 32 1024#32))
        (Stages.pyRem (Stages.floorDiv (Stages.flat (F := F)) (constantI S_ 32 1#32)) (constantI S_ 32 1024#32))
        obj wg bg wf bf
      = Stages.out (F := F) obj wg bg wf bf := by
  unfold outFrom Stages.out Stages.pooled Stages.rel Stages.rowI Stages.rowJ
  rfl

/-! ## Each window, from arbitrary contents -/

section Windows

attribute [local irreducible] Host.reduceWindow Host.scatter Host.gather Host.reduceAdd

theorem w1_mask (W : Valuation τ sig (Elt F)) :
    after ops1 W (Proc.devRef .tc main_v3) = Stages.mask (F := F) := by
  simp only [ops1]
  after_results_simp <;> rfl

theorem w2_count (W : Valuation τ sig (Elt F)) :
    after ops2 W (Proc.devRef .tc main_v4) = countFrom (W (Proc.devRef .tc main_v3)) := by
  simp only [ops2]
  after_results_simp <;> rfl

theorem w3_hist (W : Valuation τ sig (Elt F)) :
    after ops3 W (Proc.devRef .tc main_v14) = histFrom (W (Proc.devRef .tc main_v4)) := by
  simp only [ops3]
  after_results_simp <;> rfl

theorem w4_flat (W : Valuation τ sig (Elt F)) :
    after ops4 W (Proc.devRef .tc main_v15) = flatFrom (W (Proc.devRef .tc main_v14)) := by
  simp only [ops4]
  after_results_simp <;> rfl

theorem w5_quot (W : Valuation τ sig (Elt F)) :
    after ops5 W (Proc.devRef .tc main_v16) = Stages.floorDiv (W (Proc.devRef .tc main_v15)) (constantI S_ 32 1024#32) := by
  simp only [ops5]
  after_results_simp <;> rfl

theorem w5_keep (W : Valuation τ sig (Elt F)) :
    after ops5 W (Proc.devRef .tc main_v15) = W (Proc.devRef .tc main_v15) := by
  simp only [ops5]
  after_results_simp

theorem w6_rem (W : Valuation τ sig (Elt F)) :
    after ops6 W (Proc.devRef .tc main_v17) = Stages.pyRem (W (Proc.devRef .tc main_v16)) (constantI S_ 32 1024#32) := by
  simp only [ops6]
  after_results_simp <;> rfl

theorem w6_keep (W : Valuation τ sig (Elt F)) :
    after ops6 W (Proc.devRef .tc main_v15) = W (Proc.devRef .tc main_v15) := by
  simp only [ops6]
  after_results_simp

theorem w7_quot (W : Valuation τ sig (Elt F)) :
    after ops7 W (Proc.devRef .tc main_v18) = Stages.floorDiv (W (Proc.devRef .tc main_v15)) (constantI S_ 32 1#32) := by
  simp only [ops7]
  after_results_simp <;> rfl

theorem w7_keep (W : Valuation τ sig (Elt F)) :
    after ops7 W (Proc.devRef .tc main_v17) = W (Proc.devRef .tc main_v17) := by
  simp only [ops7]
  after_results_simp

theorem w8_rem (W : Valuation τ sig (Elt F)) :
    after ops8 W (Proc.devRef .tc main_v19) = Stages.pyRem (W (Proc.devRef .tc main_v18)) (constantI S_ 32 1024#32) := by
  simp only [ops8]
  after_results_simp <;> rfl

theorem w8_keep (W : Valuation τ sig (Elt F)) :
    after ops8 W (Proc.devRef .tc main_v17) = W (Proc.devRef .tc main_v17) := by
  simp only [ops8]
  after_results_simp

theorem w9_out (W : Valuation τ sig (Elt F)) :
    after ops9 W (Proc.devRef .tc main_v47)
      = outFrom (W (Proc.devRef .tc main_v17)) (W (Proc.devRef .tc main_v19)) (W (Proc.devRef .tc main_arg0))
          (W (Proc.devRef .tc main_arg1)) (W (Proc.devRef .tc main_arg2)) (W (Proc.devRef .tc main_arg3))
          (W (Proc.devRef .tc main_arg4)) := by
  simp only [ops9]
  after_results_simp <;> rfl

end Windows

/-! ## The windows chained -/

theorem val1_mask (V : Valuation τ sig (Elt F)) : val1 V (Proc.devRef .tc main_v3) = Stages.mask (F := F) :=
  w1_mask V

theorem val2_count (V : Valuation τ sig (Elt F)) : val2 V (Proc.devRef .tc main_v4) = Stages.count (F := F) :=
  (w2_count (val1 V)).trans ((congrArg countFrom (val1_mask V)).trans countFrom_mask)

theorem val3_hist (V : Valuation τ sig (Elt F)) : val3 V (Proc.devRef .tc main_v14) = Stages.hist (F := F) :=
  (w3_hist (val2 V)).trans ((congrArg histFrom (val2_count V)).trans histFrom_count)

theorem val4_flat (V : Valuation τ sig (Elt F)) : val4 V (Proc.devRef .tc main_v15) = Stages.flat (F := F) :=
  (w4_flat (val3 V)).trans ((congrArg flatFrom (val3_hist V)).trans flatFrom_hist)

theorem val5_quot (V : Valuation τ sig (Elt F)) :
    val5 V (Proc.devRef .tc main_v16) = Stages.floorDiv (Stages.flat (F := F)) (constantI S_ 32 1024#32) :=
  (w5_quot (val4 V)).trans (congrArg (fun x => Stages.floorDiv x (constantI S_ 32 1024#32)) (val4_flat V))

theorem val5_flat (V : Valuation τ sig (Elt F)) : val5 V (Proc.devRef .tc main_v15) = Stages.flat (F := F) :=
  (w5_keep (val4 V)).trans (val4_flat V)

theorem val6_rem (V : Valuation τ sig (Elt F)) :
    val6 V (Proc.devRef .tc main_v17)
      = Stages.pyRem (Stages.floorDiv (Stages.flat (F := F)) (constantI S_ 32 1024#32)) (constantI S_ 32 1024#32) :=
  (w6_rem (val5 V)).trans (congrArg (fun x => Stages.pyRem x (constantI S_ 32 1024#32)) (val5_quot V))

theorem val6_flat (V : Valuation τ sig (Elt F)) : val6 V (Proc.devRef .tc main_v15) = Stages.flat (F := F) :=
  (w6_keep (val5 V)).trans (val5_flat V)

theorem val7_quot (V : Valuation τ sig (Elt F)) :
    val7 V (Proc.devRef .tc main_v18) = Stages.floorDiv (Stages.flat (F := F)) (constantI S_ 32 1#32) :=
  (w7_quot (val6 V)).trans (congrArg (fun x => Stages.floorDiv x (constantI S_ 32 1#32)) (val6_flat V))

theorem val7_rem (V : Valuation τ sig (Elt F)) :
    val7 V (Proc.devRef .tc main_v17)
      = Stages.pyRem (Stages.floorDiv (Stages.flat (F := F)) (constantI S_ 32 1024#32)) (constantI S_ 32 1024#32) :=
  (w7_keep (val6 V)).trans (val6_rem V)

theorem val8_rem2 (V : Valuation τ sig (Elt F)) :
    val8 V (Proc.devRef .tc main_v19)
      = Stages.pyRem (Stages.floorDiv (Stages.flat (F := F)) (constantI S_ 32 1#32)) (constantI S_ 32 1024#32) :=
  (w8_rem (val7 V)).trans (congrArg (fun x => Stages.pyRem x (constantI S_ 32 1024#32)) (val7_quot V))

theorem val8_rem (V : Valuation τ sig (Elt F)) :
    val8 V (Proc.devRef .tc main_v17)
      = Stages.pyRem (Stages.floorDiv (Stages.flat (F := F)) (constantI S_ 32 1024#32)) (constantI S_ 32 1024#32) :=
  (w8_keep (val7 V)).trans (val7_rem V)

theorem val9_out (V : Valuation τ sig (Elt F)) :
    val9 V (Proc.devRef .tc main_v47)
      = Stages.out (F := F) (V (Proc.devRef .tc main_arg0)) (V (Proc.devRef .tc main_arg1)) (V (Proc.devRef .tc main_arg2))
          (V (Proc.devRef .tc main_arg3)) (V (Proc.devRef .tc main_arg4)) := by
  refine (w9_out (val8 V)).trans ?_
  rw [val8_rem V, val8_rem2 V, (val8_args V).1, (val8_args V).2.1, (val8_args V).2.2.1, (val8_args V).2.2.2.1,
    (val8_args V).2.2.2.2]
  exact outFrom_rows _ _ _ _ _

/-- THE FOLD AT THE RESULT BUFFER is the staged value of the five argument arrays. -/
theorem out_eq (V : Valuation τ sig (Elt F)) :
    after ops V (Proc.devRef .tc main_v47)
      = Stages.out (F := F) (V (Proc.devRef .tc main_arg0)) (V (Proc.devRef .tc main_arg1)) (V (Proc.devRef .tc main_arg2))
          (V (Proc.devRef .tc main_arg3)) (V (Proc.devRef .tc main_arg4)) := by
  rw [after_ops]
  exact val9_out V

end Cert.ReferenceIdeal.RValue

end
-- ==== Proof.RefRun.lean ====
import proofs.«121243_j57621281243635_2_alg».proof.Proof.RefRunMain
import proofs.«121243_j57621281243635_2_alg».proof.Proof.RefRunOut
import proofs.«121243_j57621281243635_2_alg».proof.Proof.RefRunArgs

/-!
# The reference's run

Every weakly fair execution of the reference terminates; the result buffer ends at the staged value of the five
argument arrays as the launch memory holds them, and the argument buffers end unchanged: the run of the line of
operations, read at the result buffer and at the five argument buffers.
-/

noncomputable section

namespace Cert.ReferenceIdeal.RValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The reference runs, ends with its result at the staged value of its arguments, and leaves the arguments as they
    were. -/
theorem run (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_v47)
        = Stages.out (F := F) (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨(h c main_v47).trans (out_eq (launchContents m' c)),
      (h c main_arg0).trans (arg0_eq (launchContents m' c)), (h c main_arg1).trans (arg1_eq (launchContents m' c)),
      (h c main_arg2).trans (arg2_eq (launchContents m' c)), (h c main_arg3).trans (arg3_eq (launchContents m' c)),
      (h c main_arg4).trans (arg4_eq (launchContents m' c))⟩)
    (run_main m' ρ')

end Cert.ReferenceIdeal.RValue

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.LibBatchRows.lean ====
/-
  A gather of rows and a scatter-add of rows WITH LEADING BATCH AXES, read at an index, at the ideal values.

  Let `x` be a `B × N × C` array (a batch of `B` arrays of `N` rows and `C` columns) and `idx` a column of `E`
  integers (an `E × 1` array of words read as signed integers). The same column serves every batch entry.

  The BATCHED ROW GATHER of `x` at `idx` is the `B × E × C` array whose entry `(b, e, c)` is `x (b, rowOf idx e, c)`:
  in every batch entry, row `e` of the result is row `idx e` of the operand, the integer clamped into `[0, N − 1]`.

  The BATCHED ROW SCATTER-ADD of a `B × E × C` array `upd` into `x` along `idx` adds, in every batch entry, row `e` of
  `upd` to row `idx e` of `x`; a row whose integer is outside `[0, N − 1]` is dropped. The update entry `(b', e, c')`
  lands on the entry `(b, n, c)` exactly when `b' = b`, `idx e = n` as integers, and `c' = c`. At the ideal values the
  colliding updates are summed exactly, so entry `(b, n, c)` of the result is `x (b, n, c)` plus the sum of
  `upd (b, e, c)` over the `e` with `idx e = n`.

  The second half states the same for arrays with one more leading axis of extent `1`: `1 × B × N × C`.
-/
import Idealize.ShloMosaic.PureOps.Ideal.Laws
import Idealize.ShloMosaic.Lib.ValueIdx
import proofs.«121243_j57621281243635_2_alg».proof.Proof.LibRowScatter

noncomputable section

namespace Cert.LibBatchRows

open Idealize.ShloMosaic Idealize.ShloMosaic.ValueIdx
open Cert.LibRowScatter (rowOf)

variable {B N E C w : Nat}

/-! ### Sums over a rank-3 and a rank-4 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
/-- A rank-4 index's coordinates are below the extents, written as the extents themselves. -/
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-! ### The batched row scatter, one batch axis -/

section Scatter3

variable (d : ScatterDims ⟨3, ![B, N, C]⟩ ⟨2, ![E, 1]⟩ ⟨3, ![B, E, C]⟩)

/-- On the batch axis the window starts at `0`: the scatter index names the row axis only. -/
theorem start3_batch (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 0 = 0 := by
  obtain ⟨uw, iw, sd, iv, wf⟩ := d
  dsimp only at huw hiw hsd hiv
  subst huw hiw hsd hiv
  unfold ScatterDims.start
  rw [dif_neg (show (0 : Fin 3) ∉ ([1] : List (Fin 3)) by decide)]

/-- On the row axis the window starts at the update row's integer, read signed. -/
theorem start3_row (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 1 = (idx (ix2 (j 1) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`. -/
theorem start3_col (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) : d.start j idx 2 = 0 := by
  obtain ⟨uw, iw, sd, iv, wf⟩ := d
  dsimp only at huw hiw hsd hiv
  subst huw hiw hsd hiv
  unfold ScatterDims.start
  rw [dif_neg (show (2 : Fin 3) ∉ ([1] : List (Fin 3)) by decide)]

/-- On the batch axis the window coordinate is the update's batch entry. -/
theorem window3_batch (huw : d.updateWindowDims = [0, 2]) (hiw : d.insertedWindowDims = [1])
    (hsd : d.scatterDimsToOperandDims = [1]) (hiv : d.indexVectorDim = 1)
    (j : (⟨3, ![B, E, C]⟩ : Shape).Idx) : d.window j 0 = (j 0).val := by
  obtain ⟨uw, iw, sd, iv, wf⟩ := d
  dsimp only at huw hiw hsd hiv
  subst huw hiw hsd hiv
  unfold ScatterDims.window
  exact (dif_pos (show (0 : Fin 3) ∈ ([0, 2] : List (Fin 3)) by decide)).trans rfl

/-- The row axis is inserted: no window coordinate on it. -/
theorem window3_row (huw : d.updateWindowDims = [0, 2]) (hiw : d.insertedWindowDims = [1])
    (hsd : d.scatterDimsToOperandDims = [1]) (hiv : d.indexVectorDim = 1)
    (j : (⟨3, ![B, E, C]⟩ : Shape).Idx) : d.window j 1 = 0 := by
  obtain ⟨uw, iw, sd, iv, wf⟩ := d
  dsimp only at huw hiw hsd hiv
  subst huw hiw hsd hiv
  unfold ScatterDims.window
  exact dif_neg (show (1 : Fin 3) ∉ ([0, 2] : List (Fin 3)) by decide)

/-- On the column axis the window coordinate is the update's column. -/
theorem window3_col (huw : d.updateWindowDims = [0, 2]) (hiw : d.insertedWindowDims = [1])
    (hsd : d.scatterDimsToOperandDims = [1]) (hiv : d.indexVectorDim = 1)
    (j : (⟨3, ![B, E, C]⟩ : Shape).Idx) : d.window j 2 = (j 2).val := by
  obtain ⟨uw, iw, sd, iv, wf⟩ := d
  dsimp only at huw hiw hsd hiv
  subst huw hiw hsd hiv
  unfold ScatterDims.window
  exact (dif_pos (show (2 : Fin 3) ∈ ([0, 2] : List (Fin 3)) by decide)).trans rfl

/-- Update entry `j` lands on entry `i` exactly when its row's integer is `i`'s row and the batch entries and the
    columns agree. -/
theorem scatter3_resultIdx?_eq_some_iff (huw : d.updateWindowDims = [0, 2]) (hiw : d.insertedWindowDims = [1])
    (hsd : d.scatterDimsToOperandDims = [1]) (hiv : d.indexVectorDim = 1) (idx : IVec ⟨2, ![E, 1]⟩ w)
    (j : (⟨3, ![B, E, C]⟩ : Shape).Idx) (i : (⟨3, ![B, N, C]⟩ : Shape).Idx) :
    d.resultIdx? j idx = some i ↔
      (idx (ix2 (j 1) (0 : Fin 1))).toInt = ((i 1).val : Int) ∧ (j 0).val = (i 0).val ∧ (j 2).val = (i 2).val := by
  have hs0 := start3_batch d huw hiw hsd hiv idx j
  have hs1 := start3_row d huw hiw hsd hiv idx j
  have hs2 := start3_col d huw hiw hsd hiv idx j
  have hw0 := window3_batch d huw hiw hsd hiv j
  have hw1 := window3_row d huw hiw hsd hiv j
  have hw2 := window3_col d huw hiw hsd hiv j
  have hi0 := idx3_lt0 i
  have hi1 := idx3_lt1 i
  have hi2 := idx3_lt2 i
  have hj0 := idx3_lt0 j
  have hj2 := idx3_lt2 j
  unfold ScatterDims.resultIdx?
  constructor
  · intro h
    split at h
    · rename_i hr
      have hi := Option.some.inj h
      have e0 := congrArg (fun f => (f 0).val) hi
      have e1 := congrArg (fun f => (f 1).val) hi
      have e2 := congrArg (fun f => (f 2).val) hi
      have r1 := hr 1
      simp only [hs0, hs1, hs2, hw0, hw1, hw2] at e0 e1 e2 r1
      omega
    · exact absurd h (by simp)
  · rintro ⟨h1, h0, h2⟩
    have hr : ∀ a, 0 ≤ d.start j idx a + d.window j a ∧
        d.start j idx a + d.window j a < (⟨3, ![B, N, C]⟩ : Shape).size a := by
      intro a
      match a with
      | ⟨0, _⟩ =>
        show 0 ≤ d.start j idx 0 + d.window j 0 ∧ d.start j idx 0 + d.window j 0 < ((B : Nat) : Int)
        rw [hs0, hw0]; omega
      | ⟨1, _⟩ =>
        show 0 ≤ d.start j idx 1 + d.window j 1 ∧ d.start j idx 1 + d.window j 1 < ((N : Nat) : Int)
        rw [hs1, hw1]; omega
      | ⟨2, _⟩ =>
        show 0 ≤ d.start j idx 2 + d.window j 2 ∧ d.start j idx 2 + d.window j 2 < ((C : Nat) : Int)
        rw [hs2, hw2]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega
    | ⟨2, _⟩ =>
      show (d.start j idx 2 + d.window j 2).toNat = (i 2).val
      rw [hs2, hw2]; omega

/-- THE BATCHED ROW SCATTER-ADD READ AT `(b, n, c)`: the operand's entry plus the sum, over the update rows `e` whose
    integer is `n`, of the update's entry `(b, e, c)`. -/
theorem scatterAdd3_apply (huw : d.updateWindowDims = [0, 2]) (hiw : d.insertedWindowDims = [1])
    (hsd : d.scatterDimsToOperandDims = [1]) (hiv : d.indexVectorDim = 1)
    (x : (⟨3, ![B, N, C]⟩ : Shape).Idx → EReal) (idx : IVec ⟨2, ![E, 1]⟩ w)
    (upd : (⟨3, ![B, E, C]⟩ : Shape).Idx → EReal) (b : Fin B) (n : Fin N) (c : Fin C) :
    Ideal.hostScatterAdd d x idx upd (ix3 b n c) = x (ix3 b n c) +
      ∑ e ∈ Finset.univ.filter (fun e : Fin E => (idx (ix2 e (0 : Fin 1))).toInt = (n.val : Int)), upd (ix3 b e c) := by
  unfold Ideal.hostScatterAdd
  congr 1
  -- both sums as sums of indicator terms; the left one split into batch entries, rows and columns
  rw [Finset.sum_filter, Finset.sum_filter, sum_idx3]
  simp only [scatter3_resultIdx?_eq_some_iff d huw hiw hsd hiv]
  -- only the batch entry `b` can contribute
  rw [Finset.sum_eq_single b]
  · refine Finset.sum_congr rfl fun e _ => ?_
    -- in row `e` only the column `c` can contribute
    by_cases hA : (idx (ix2 e (0 : Fin 1))).toInt = (n.val : Int)
    · rw [if_pos hA, Finset.sum_eq_single c]
      · exact if_pos ⟨hA, rfl, rfl⟩
      · intro c' _ hc'
        exact if_neg fun h => hc' (Fin.ext h.2.2)
      · intro h
        exact absurd (Finset.mem_univ c) h
    · rw [if_neg hA]
      exact Finset.sum_eq_zero fun c' _ => if_neg fun h => hA h.1
  · intro b' _ hb'
    exact Finset.sum_eq_zero fun e _ => Finset.sum_eq_zero fun c' _ => if_neg fun h => hb' (Fin.ext h.2.1)
  · intro h
    exact absurd (Finset.mem_univ b) h

end Scatter3

/-! ### The batched row gather, one batch axis -/

section Gather3

variable {α : Type} (g : GatherDims ⟨3, ![B, N, C]⟩ ⟨2, ![E, 1]⟩ ⟨3, ![B, E, C]⟩)

/-- On the batch axis the slice starts at `0`: the start index names the row axis only. -/
theorem gather3_start_batch (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) : g.start j idx 0 = 0 := by
  obtain ⟨od, cd, ob, sb, sm, iv, ss, wf⟩ := g
  dsimp only at hod hcd hob hsb hsm hiv hss
  subst hod hcd hob hsb hsm hiv hss
  unfold GatherDims.start
  exact dif_neg (show (0 : Fin 3) ∉ ([1] : List (Fin 3)) by decide)

/-- On the row axis the slice starts at the result row's integer, read signed and clamped into `[0, N − 1]`. -/
theorem gather3_start_row (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) :
    g.start j idx 1 = min (idx (ix2 (j 1) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`. -/
theorem gather3_start_col (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (idx : IVec ⟨2, ![E, 1]⟩ w)
    (j : (⟨3, ![B, E, C]⟩ : Shape).Idx) : g.start j idx 2 = 0 := by
  obtain ⟨od, cd, ob, sb, sm, iv, ss, wf⟩ := g
  dsimp only at hod hcd hob hsb hsm hiv hss
  subst hod hcd hob hsb hsm hiv hss
  unfold GatherDims.start
  exact dif_neg (show (2 : Fin 3) ∉ ([1] : List (Fin 3)) by decide)

/-- On the batch axis the offset coordinate is the result's batch entry. -/
theorem gather3_off_batch (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 0 = (j 0).val := by
  obtain ⟨od, cd, ob, sb, sm, iv, ss, wf⟩ := g
  dsimp only at hod hcd hob hsb hsm hiv hss
  subst hod hcd hob hsb hsm hiv hss
  unfold GatherDims.offCoord
  exact (dif_pos (show (0 : Fin 3) ∈ ([0, 2] : List (Fin 3)) by decide)).trans rfl

/-- The row axis is collapsed: no offset coordinate on it. -/
theorem gather3_off_row (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 1 = 0 := by
  obtain ⟨od, cd, ob, sb, sm, iv, ss, wf⟩ := g
  dsimp only at hod hcd hob hsb hsm hiv hss
  subst hod hcd hob hsb hsm hiv hss
  unfold GatherDims.offCoord
  exact dif_neg (show (1 : Fin 3) ∉ ([0, 2] : List (Fin 3)) by decide)

/-- On the column axis the offset coordinate is the result's column. -/
theorem gather3_off_col (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C])
    (j : (⟨3, ![B, E, C]⟩ : Shape).Idx) : g.offCoord j 2 = (j 2).val := by
  obtain ⟨od, cd, ob, sb, sm, iv, ss, wf⟩ := g
  dsimp only at hod hcd hob hsb hsm hiv hss
  subst hod hcd hob hsb hsm hiv hss
  unfold GatherDims.offCoord
  exact (dif_pos (show (2 : Fin 3) ∈ ([0, 2] : List (Fin 3)) by decide)).trans rfl

/-- THE BATCHED ROW GATHER READ AT `(b, e, c)`: the operand at batch entry `b`, row `rowOf idx e`, column `c`. -/
theorem gather3_apply (hod : g.offsetDims = [0, 2]) (hcd : g.collapsedSliceDims = [1])
    (hob : g.operandBatchingDims = []) (hsb : g.startIndicesBatchingDims = []) (hsm : g.startIndexMap = [1])
    (hiv : g.indexVectorDim = 1) (hss : g.sliceSizes = ![B, 1, C]) (hN : 0 < N)
    (x : (⟨3, ![B, N, C]⟩ : Shape).Idx → α) (idx : IVec ⟨2, ![E, 1]⟩ w) (b : Fin B) (e : Fin E) (c : Fin C) :
    Host.gather g x idx (ix3 b e c) = x (ix3 b (rowOf hN idx e) c) := by
  have hb : ∀ a, g.batchCoord (ix3 b e c) a = 0 := fun a =>
    g.batchCoord_eq_zero _ a (by rw [hob]; exact List.not_mem_nil)
  unfold Host.gather
  congr 1
  funext a
  refine Fin.ext ?_
  match a with
  | ⟨0, _⟩ =>
    show g.start (ix3 b e c) idx 0 + g.batchCoord (ix3 b e c) 0 + g.offCoord (ix3 b e c) 0 = _
    rw [hb, gather3_start_batch g hod hcd hob hsb hsm hiv hss, gather3_off_batch g hod hcd hob hsb hsm hiv hss]
    show 0 + 0 + b.val = b.val
    omega
  | ⟨1, _⟩ =>
    show g.start (ix3 b e c) idx 1 + g.batchCoord (ix3 b e c) 1 + g.offCoord (ix3 b e c) 1 = _
    rw [hb, gather3_start_row g hod hcd hob hsb hsm hiv hss, gather3_off_row g hod hcd hob hsb hsm hiv hss]
    rfl
  | ⟨2, _⟩ =>
    show g.start (ix3 b e c) idx 2 + g.batchCoord (ix3 b e c) 2 + g.offCoord (ix3 b e c) 2 = _
    rw [hb, gather3_start_col g hod hcd hob hsb hsm hiv hss, gather3_off_col g hod hcd hob hsb hsm hiv hss]
    show 0 + 0 + c.val = c.val
    omega

end Gather3

/-! ### The batched row scatter, a unit axis and a batch axis in front -/

section Scatter4

variable (d : ScatterDims ⟨4, ![1, B, N, C]⟩ ⟨2, ![E, 1]⟩ ⟨4, ![1, B, E, C]⟩)

/-- On the unit axis the window starts at `0`: the scatter index names the row axis only. -/
theorem start4_unit (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 0 = 0 := by
  obtain ⟨uw, iw, sd, iv, wf⟩ := d
  dsimp only at huw hiw hsd hiv
  subst huw hiw hsd hiv
  unfold ScatterDims.start
  rw [dif_neg (show (0 : Fin 4) ∉ ([2] : List (Fin 4)) by decide)]

/-- On the batch axis the window starts at `0`. -/
theorem start4_batch (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 4) ∉ ([2] : List (Fin 4)) by decide)]

/-- On the row axis the window starts at the update row's integer, read signed. -/
theorem start4_row (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 2 = (idx (ix2 (j 2) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`. -/
theorem start4_col (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) : d.start j idx 3 = 0 := by
  obtain ⟨uw, iw, sd, iv, wf⟩ := d
  dsimp only at huw hiw hsd hiv
  subst huw hiw hsd hiv
  unfold ScatterDims.start
  rw [dif_neg (show (3 : Fin 4) ∉ ([2] : List (Fin 4)) by decide)]

/-- On the unit axis the window coordinate is the update's. -/
theorem window4_unit (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 0 = (j 0).val := by
  obtain ⟨uw, iw, sd, iv, wf⟩ := d
  dsimp only at huw hiw hsd hiv
  subst huw hiw hsd hiv
  unfold ScatterDims.window
  exact (dif_pos (show (0 : Fin 4) ∈ ([0, 1, 3] : List (Fin 4)) by decide)).trans rfl

/-- On the batch axis the window coordinate is the update's batch entry. -/
theorem window4_batch (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 4) ∈ ([0, 1, 3] : List (Fin 4)) by decide)).trans rfl

/-- The row axis is inserted: no window coordinate on it. -/
theorem window4_row (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 2 = 0 := by
  obtain ⟨uw, iw, sd, iv, wf⟩ := d
  dsimp only at huw hiw hsd hiv
  subst huw hiw hsd hiv
  unfold ScatterDims.window
  exact dif_neg (show (2 : Fin 4) ∉ ([0, 1, 3] : List (Fin 4)) by decide)

/-- On the column axis the window coordinate is the update's column. -/
theorem window4_col (huw : d.updateWindowDims = [0, 1, 3]) (hiw : d.insertedWindowDims = [2])
    (hsd : d.scatterDimsToOperandDims = [2]) (hiv : d.indexVectorDim = 1)
    (j : (⟨4, ![1, B, E, C]⟩ : Shape).Idx) : d.window j 3 = (j 3).val := by
  obtain ⟨uw, iw, sd, iv, wf⟩ := d
  dsimp only at huw hiw hsd hiv
  subst huw hiw hsd hiv
  unfold ScatterDims.window
  exact (dif_pos (show (3 : Fin 4) ∈ ([0, 1, 3] : List (Fin 4)) by decide)).trans rfl

/-- Update entry `j` lands on entry `i` exactly when its row's integer is `i`'s row and the other three coordinates
    agree. -/
theorem scatter4_resultIdx?_eq_some_iff (huw : d.updateWindowDims = [0, 1, 3]) (hiw : d.insertedWindowDims = [2])
    (hsd : d.scatterDimsToOperandDims = [2]) (hiv : d.indexVectorDim = 1) (idx : IVec ⟨2, ![E, 1]⟩ w)
    (j : (⟨4, ![1, B, E, C]⟩ : Shape).Idx) (i : (⟨4, ![1, B, N, C]⟩ : Shape).Idx) :
    d.resultIdx? j idx = some i ↔
      (idx (ix2 (j 2) (0 : Fin 1))).toInt = ((i 2).val : Int) ∧ (j 0).val = (i 0).val ∧ (j 1).val = (i 1).val ∧
        (j 3).val = (i 3).val := by
  have hs0 := start4_unit d huw hiw hsd hiv idx j
  have hs1 := start4_batch d huw hiw hsd hiv idx j
  have hs2 := start4_row d huw hiw hsd hiv idx j
  have hs3 := start4_col d huw hiw hsd hiv idx j
  have hw0 := window4_unit d huw hiw hsd hiv j
  have hw1 := window4_batch d huw hiw hsd hiv j
  have hw2 := window4_row d huw hiw hsd hiv j
  have hw3 := window4_col d huw hiw hsd hiv j
  have hi0 := idx4_lt0 i
  have hi1 := idx4_lt1 i
  have hi2 := idx4_lt2 i
  have hi3 := idx4_lt3 i
  have hj0 := idx4_lt0 j
  have hj1 := idx4_lt1 j
  have hj3 := idx4_lt3 j
  unfold ScatterDims.resultIdx?
  constructor
  · intro h
    split at h
    · rename_i hr
      have hi := Option.some.inj h
      have e0 := congrArg (fun f => (f 0).val) hi
      have e1 := congrArg (fun f => (f 1).val) hi
      have e2 := congrArg (fun f => (f 2).val) hi
      have e3 := congrArg (fun f => (f 3).val) hi
      have r2 := hr 2
      simp only [hs0, hs1, hs2, hs3, hw0, hw1, hw2, hw3] at e0 e1 e2 e3 r2
      omega
    · exact absurd h (by simp)
  · rintro ⟨h2, h0, h1, h3⟩
    have hr : ∀ a, 0 ≤ d.start j idx a + d.window j a ∧
        d.start j idx a + d.window j a < (⟨4, ![1, B, N, C]⟩ : Shape).size a := by
      intro a
      match a with
      | ⟨0, _⟩ =>
        show 0 ≤ d.start j idx 0 + d.window j 0 ∧ d.start j idx 0 + d.window j 0 < ((1 : Nat) : Int)
        rw [hs0, hw0]; omega
      | ⟨1, _⟩ =>
        show 0 ≤ d.start j idx 1 + d.window j 1 ∧ d.start j idx 1 + d.window j 1 < ((B : Nat) : Int)
        rw [hs1, hw1]; omega
      | ⟨2, _⟩ =>
        show 0 ≤ d.start j idx 2 + d.window j 2 ∧ d.start j idx 2 + d.window j 2 < ((N : Nat) : Int)
        rw [hs2, hw2]; omega
      | ⟨3, _⟩ =>
        show 0 ≤ d.start j idx 3 + d.window j 3 ∧ d.start j idx 3 + d.window j 3 < ((C : Nat) : Int)
        rw [hs3, hw3]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega
    | ⟨2, _⟩ =>
      show (d.start j idx 2 + d.window j 2).toNat = (i 2).val
      rw [hs2, hw2]; omega
    | ⟨3, _⟩ =>
      show (d.start j idx 3 + d.window j 3).toNat = (i 3).val
      rw [hs3, hw3]; omega

/-- THE BATCHED ROW SCATTER-ADD READ AT `(0, b, n, c)`: the operand's entry plus the sum, over the update rows `e`
    whose integer is `n`, of the update's entry `(0, b, e, c)`. -/
theorem scatterAdd4_apply (huw : d.updateWindowDims = [0, 1, 3]) (hiw : d.insertedWindowDims = [2])
    (hsd : d.scatterDimsToOperandDims = [2]) (hiv : d.indexVectorDim = 1)
    (x : (⟨4, ![1, B, N, C]⟩ : Shape).Idx → EReal) (idx : IVec ⟨2, ![E, 1]⟩ w)
    (upd : (⟨4, ![1, B, E, C]⟩ : Shape).Idx → EReal) (b : Fin B) (n : Fin N) (c : Fin C) :
    Ideal.hostScatterAdd d x idx upd (ix4 (0 : Fin 1) b n c) = x (ix4 (0 : Fin 1) b n c) +
      ∑ e ∈ Finset.univ.filter (fun e : Fin E => (idx (ix2 e (0 : Fin 1))).toInt = (n.val : Int)),
        upd (ix4 (0 : Fin 1) b e c) := by
  unfold Ideal.hostScatterAdd
  congr 1
  -- both sums as sums of indicator terms; the left one split by its four coordinates
  rw [Finset.sum_filter, Finset.sum_filter, sum_idx4]
  simp only [scatter4_resultIdx?_eq_some_iff d huw hiw hsd hiv]
  -- the unit axis has the one entry `0`, and only the batch entry `b` can contribute
  rw [Finset.sum_eq_single (0 : Fin 1), Finset.sum_eq_single b]
  · refine Finset.sum_congr rfl fun e _ => ?_
    -- in row `e` only the column `c` can contribute
    by_cases hA : (idx (ix2 e (0 : Fin 1))).toInt = (n.val : Int)
    · rw [if_pos hA, Finset.sum_eq_single c]
      · exact if_pos ⟨hA, rfl, rfl, rfl⟩
      · intro c' _ hc'
        exact if_neg fun h => hc' (Fin.ext h.2.2.2)
      · intro h
        exact absurd (Finset.mem_univ c) h
    · rw [if_neg hA]
      exact Finset.sum_eq_zero fun c' _ => if_neg fun h => hA h.1
  · intro b' _ hb'
    exact Finset.sum_eq_zero fun e _ => Finset.sum_eq_zero fun c' _ => if_neg fun h => hb' (Fin.ext h.2.2.1)
  · intro h
    exact absurd (Finset.mem_univ b) h
  · intro a' _ ha'
    exact absurd (Subsingleton.elim a' 0) ha'
  · intro h
    exact absurd (Finset.mem_univ (0 : Fin 1)) h

end Scatter4

/-! ### The batched row gather, a unit axis and a batch axis in front -/

section Gather4

variable {α : Type} (g : GatherDims ⟨4, ![1, B, N, C]⟩ ⟨2, ![E, 1]⟩ ⟨4, ![1, B, E, C]⟩)

/-- On the unit axis the slice starts at `0`: the start index names the row axis only. -/
theorem gather4_start_unit (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 0 = 0 := by
  obtain ⟨od, cd, ob, sb, sm, iv, ss, wf⟩ := g
  dsimp only at hod hcd hob hsb hsm hiv hss
  subst hod hcd hob hsb hsm hiv hss
  unfold GatherDims.start
  exact dif_neg (show (0 : Fin 4) ∉ ([2] : List (Fin 4)) by decide)

/-- On the batch axis the slice starts at `0`. -/
theorem gather4_start_batch (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 4) ∉ ([2] : List (Fin 4)) by decide)

/-- On the row axis the slice starts at the result row's integer, read signed and clamped into `[0, N − 1]`. -/
theorem gather4_start_row (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) :
    g.start j idx 2 = min (idx (ix2 (j 2) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`. -/
theorem gather4_start_col (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (idx : IVec ⟨2, ![E, 1]⟩ w)
    (j : (⟨4, ![1, B, E, C]⟩ : Shape).Idx) : g.start j idx 3 = 0 := by
  obtain ⟨od, cd, ob, sb, sm, iv, ss, wf⟩ := g
  dsimp only at hod hcd hob hsb hsm hiv hss
  subst hod hcd hob hsb hsm hiv hss
  unfold GatherDims.start
  exact dif_neg (show (3 : Fin 4) ∉ ([2] : List (Fin 4)) by decide)

/-- On the unit axis the offset coordinate is the result's. -/
theorem gather4_off_unit (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 0 = (j 0).val := by
  obtain ⟨od, cd, ob, sb, sm, iv, ss, wf⟩ := g
  dsimp only at hod hcd hob hsb hsm hiv hss
  subst hod hcd hob hsb hsm hiv hss
  unfold GatherDims.offCoord
  exact (dif_pos (show (0 : Fin 4) ∈ ([0, 1, 3] : List (Fin 4)) by decide)).trans rfl

/-- On the batch axis the offset coordinate is the result's batch entry. -/
theorem gather4_off_batch (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 4) ∈ ([0, 1, 3] : List (Fin 4)) by decide)).trans rfl

/-- The row axis is collapsed: no offset coordinate on it. -/
theorem gather4_off_row (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 2 = 0 := by
  obtain ⟨od, cd, ob, sb, sm, iv, ss, wf⟩ := g
  dsimp only at hod hcd hob hsb hsm hiv hss
  subst hod hcd hob hsb hsm hiv hss
  unfold GatherDims.offCoord
  exact dif_neg (show (2 : Fin 4) ∉ ([0, 1, 3] : List (Fin 4)) by decide)

/-- On the column axis the offset coordinate is the result's column. -/
theorem gather4_off_col (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C])
    (j : (⟨4, ![1, B, E, C]⟩ : Shape).Idx) : g.offCoord j 3 = (j 3).val := by
  obtain ⟨od, cd, ob, sb, sm, iv, ss, wf⟩ := g
  dsimp only at hod hcd hob hsb hsm hiv hss
  subst hod hcd hob hsb hsm hiv hss
  unfold GatherDims.offCoord
  exact (dif_pos (show (3 : Fin 4) ∈ ([0, 1, 3] : List (Fin 4)) by decide)).trans rfl

/-- THE BATCHED ROW GATHER READ AT `(0, b, e, c)`: the operand at `(0, b, rowOf idx e, c)`. -/
theorem gather4_apply (hod : g.offsetDims = [0, 1, 3]) (hcd : g.collapsedSliceDims = [2])
    (hob : g.operandBatchingDims = []) (hsb : g.startIndicesBatchingDims = []) (hsm : g.startIndexMap = [2])
    (hiv : g.indexVectorDim = 1) (hss : g.sliceSizes = ![1, B, 1, C]) (hN : 0 < N)
    (x : (⟨4, ![1, B, N, C]⟩ : Shape).Idx → α) (idx : IVec ⟨2, ![E, 1]⟩ w) (b : Fin B) (e : Fin E) (c : Fin C) :
    Host.gather g x idx (ix4 (0 : Fin 1) b e c) = x (ix4 (0 : Fin 1) b (rowOf hN idx e) c) := by
  have hb : ∀ a, g.batchCoord (ix4 (0 : Fin 1) b e c) a = 0 := fun a =>
    g.batchCoord_eq_zero _ a (by rw [hob]; exact List.not_mem_nil)
  unfold Host.gather
  congr 1
  funext a
  refine Fin.ext ?_
  match a with
  | ⟨0, _⟩ =>
    show g.start (ix4 (0 : Fin 1) b e c) idx 0 + g.batchCoord (ix4 (0 : Fin 1) b e c) 0
      + g.offCoord (ix4 (0 : Fin 1) b e c) 0 = _
    rw [hb, gather4_start_unit g hod hcd hob hsb hsm hiv hss, gather4_off_unit g hod hcd hob hsb hsm hiv hss]
    rfl
  | ⟨1, _⟩ =>
    show g.start (ix4 (0 : Fin 1) b e c) idx 1 + g.batchCoord (ix4 (0 : Fin 1) b e c) 1
      + g.offCoord (ix4 (0 : Fin 1) b e c) 1 = _
    rw [hb, gather4_start_batch g hod hcd hob hsb hsm hiv hss, gather4_off_batch g hod hcd hob hsb hsm hiv hss]
    show 0 + 0 + b.val = b.val
    omega
  | ⟨2, _⟩ =>
    show g.start (ix4 (0 : Fin 1) b e c) idx 2 + g.batchCoord (ix4 (0 : Fin 1) b e c) 2
      + g.offCoord (ix4 (0 : Fin 1) b e c) 2 = _
    rw [hb, gather4_start_row g hod hcd hob hsb hsm hiv hss, gather4_off_row g hod hcd hob hsb hsm hiv hss]
    rfl
  | ⟨3, _⟩ =>
    show g.start (ix4 (0 : Fin 1) b e c) idx 3 + g.batchCoord (ix4 (0 : Fin 1) b e c) 3
      + g.offCoord (ix4 (0 : Fin 1) b e c) 3 = _
    rw [hb, gather4_start_col g hod hcd hob hsb hsm hiv hss, gather4_off_col g hod hcd hob hsb hsm hiv hss]
    show 0 + 0 + c.val = c.val
    omega

end Gather4

end Cert.LibBatchRows

end
-- ==== Proof.LibStackWeight.lean ====
/-
  A stack of matrices times ONE matrix along the last axes of both, read at an index.

  `dotGeneral_stackW_apply`: for a stack A of shape [G, m, k] and a matrix B of shape [n, k], the host's dot_general
  that contracts A's last axis with B's last axis and has no batch axis (a linear layer `x @ W.T` applied to every
  member of a stack: einsum "gmk,nk->gmn") is, at (g, a, b) and at the ideal values, the sum over c of A(g, a, c) · B(b, c).
  Generic in G, m, n, k and in the operands' formats; beside the library's product of two stacks matrix by matrix.
-/
import Idealize.ShloMosaic.PureOps.Ideal.Laws
import Idealize.ShloMosaic.Lib.ValueIdx

noncomputable section

open scoped BigOperators

namespace Cert.LibStackWeight

open Idealize.ShloMosaic Idealize.ShloMosaic.ValueIdx

/-- A stack of matrices [G, m, k] times one matrix [n, k] along the last axes of both (no batch axis), read at an
    index: the sum over the contracted coordinate of the stack's entry times the matrix's entry in row b. -/
theorem dotGeneral_stackW_apply {G m n k : Nat} {φ₁ φ₂ : FTy}
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c3
  rw [l3, r3]

end Cert.LibStackWeight

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.RefRead.lean ====
import proofs.«121243_j57621281243635_2_alg».proof.Proof.RefStages
import proofs.«121243_j57621281243635_2_alg».proof.Proof.Spec
import proofs.«121243_j57621281243635_2_alg».proof.Proof.LibBatchRows
import proofs.«121243_j57621281243635_2_alg».proof.Proof.LibStackWeight
import proofs.«121243_j57621281243635_2_alg».proof.Proof.LibMatmulSum
import Idealize.ShloMosaic.Lib.IdealHost
import Idealize.ShloMosaic.Lib.Pipeline.Value
import Idealize.ShloMosaic.Lib.ValueLayout

/-!
# The reference's float chain, entry by entry

Whatever the two index vectors hold, the reference's result is the pair-by-pair sum of the specification taken over
the listing they spell.  Pair number p of a gathered operand is the object whose row is the signed index at p clamped
into the axis; the product with one half of the first weight matrix contracts the feature axis, so its entry
(b, p, e) is the sum over d of obj (b, row p, d) · wg (e, d) for the first half and obj (b, row p, d) · wg (e, 64 + d)
for the second; the bias is added to every entry; the sum over the pair axis starts from zero; and the second linear
map is the product with the transposed second weight matrix plus the second bias.
-/

noncomputable section

open scoped BigOperators

namespace Cert.ReferenceIdeal.RValue

open Idealize.ShloMosaic Idealize.ShloMosaic.ValueIdx Cert.ReferenceIdeal Cert.ReferenceIdeal.Facts₀

variable [Cert.ReferenceIdeal.Facts]

/-! ## The row an index selects -/

/-- The index column read at (p, 0) is the index vector at p. -/
theorem column_apply (rows : IVec S523776 32) (p : Fin 523776) :
    broadcastInDim S523776x1 ![0] bcast_S523776_S523776x1_0 rows (ix2 p (0 : Fin 1)) = rows (ix1 p) :=
  broadcastInDim_apply ![0] bcast_S523776_S523776x1_0 rows (ix2 p (0 : Fin 1)) (ix1 p) fun a => by
    match a with
    | ⟨0, _⟩ => rfl

/-- The row of the objects the gather reads for pair number p: the signed index clamped into [0, 1023]. -/
theorem rowOf_column (rows : IVec S523776 32) (p : Fin 523776) :
    Cert.LibRowScatter.rowOf (N := 1024) (by decide) (broadcastInDim S523776x1 ![0] bcast_S523776_S523776x1_0 rows) p
      = Cert.RelNet.rowOf rows p := by
  refine Fin.ext ?_
  show min (broadcastInDim S523776x1 ![0] bcast_S523776_S523776x1_0 rows (ix2 p (0 : Fin 1))).toInt.toNat (1024 - 1)
    = min (rows (ix1 p)).toInt.toNat 1023
  rw [column_apply]

/-- The gathered operand at (b, p, d) is that object of batch entry b at feature d. -/
theorem gathered_apply (obj : FVec Ideal S4x1024x64 .f32) (rows : IVec S523776 32) (b : Fin 4) (p : Fin 523776) (d : Fin 64) :
    Host.gather gather_S4x1024x64_S523776x1_S4x523776x64_02_1_n_n_1_1_4164 obj
        (broadcastInDim S523776x1 ![0] bcast_S523776_S523776x1_0 rows) (ix3 b p d)
      = obj (ix3 b (Cert.RelNet.rowOf rows p) d) := by
  have h1 := Cert.LibBatchRows.gather3_apply (B := 4) (N := 1024) (E := 523776) (C := 64) (w := 32)
      gather_S4x1024x64_S523776x1_S4x523776x64_02_1_n_n_1_1_4164 rfl rfl rfl rfl rfl rfl rfl
      (by decide) obj (broadcastInDim S523776x1 ![0] bcast_S523776_S523776x1_0 rows) b p d
  have h2 := rowOf_column rows p
  rw [h1, h2]

/-! ## One projection -/

/-- A gathered operand times a 64 × 64 matrix along the feature axis, at (b, p, e). -/
theorem proj_apply (obj : FVec Ideal S4x1024x64 .f32) (rows : IVec S523776 32) (w : FVec Ideal S64x64 .f32)
    (b : Fin 4) (p : Fin 523776) (e : Fin 64) :
    Stages.proj (F := Ideal) obj rows w (ix3 b p e) = ∑ d : Fin 64, obj (ix3 b (Cert.RelNet.rowOf rows p) d) * w (ix2 e d) := by
  have h1 := Cert.LibStackWeight.dotGeneral_stackW_apply (G := 4) (m := 523776) (n := 64) (k := 64)
      dot_S4x523776x64_S64x64_S4x523776x64_2_1_01_0_n_n_wf none
      (Host.gather gather_S4x1024x64_S523776x1_S4x523776x64_02_1_n_n_1_1_4164 obj
        (broadcastInDim S523776x1 ![0] bcast_S523776_S523776x1_0 rows)) w b p e
  unfold Stages.proj
  refine h1.trans ?_
  refine Finset.sum_congr rfl fun d _ => ?_
  rw [gathered_apply]

/-- The first half of the first weight matrix: columns 0 … 63. -/
theorem sliceLo_apply (wg : FVec Ideal S64x128 .f32) (e d : Fin 64) :
    extractStridedSlice S64x64 ![0, 0] wg slices_S64x128_S64x64_0_0 (ix2 e d) = wg (ix2 e (Cert.RelNet.lo d)) :=
  extractStridedSlice_apply ![0, 0] wg slices_S64x128_S64x64_0_0 (ix2 e d) (ix2 e (Cert.RelNet.lo d)) fun a => by
    match a with
    | ⟨0, _⟩ => exact (Nat.zero_add _).symm
    | ⟨1, _⟩ => exact (Nat.zero_add _).symm

/-- Its second half: columns 64 … 127. -/
theorem sliceHi_apply (wg : FVec Ideal S64x128 .f32) (e d : Fin 64) :
    extractStridedSlice S64x64 ![0, 64] wg slices_S64x128_S64x64_0_64 (ix2 e d) = wg (ix2 e (Cert.RelNet.hi d)) :=
  extractStridedSlice_apply ![0, 64] wg slices_S64x128_S64x64_0_64 (ix2 e d) (ix2 e (Cert.RelNet.hi d)) fun a => by
    match a with
    | ⟨0, _⟩ => exact (Nat.zero_add _).symm
    | ⟨1, _⟩ => rfl

/-! ## The relation of one pair -/

/-- The first bias, broadcast over batch entries and pairs. -/
theorem bias3_apply (bg : FVec Ideal S64 .f32) (b : Fin 4) (p : Fin 523776) (e : Fin 64) :
    broadcastInDim S4x523776x64 ![0, 1, 2] bcast_S1x1x64_S4x523776x64_0_1_2
        (broadcastInDim S1x1x64 ![2] bcast_S64_S1x1x64_2 bg) (ix3 b p e) = bg (ix1 e) := by
  rw [broadcastInDim_apply ![0, 1, 2] bcast_S1x1x64_S4x523776x64_0_1_2 (broadcastInDim S1x1x64 ![2] bcast_S64_S1x1x64_2 bg)
      (ix3 b p e) (ix3 (0 : Fin 1) (0 : Fin 1) e) (fun a => by
        match a with
        | ⟨0, _⟩ => rfl
        | ⟨1, _⟩ => rfl
        | ⟨2, _⟩ => rfl),
    broadcastInDim_apply ![2] bcast_S64_S1x1x64_2 bg (ix3 (0 : Fin 1) (0 : Fin 1) e) (ix1 e) (fun a => by
        match a with
        | ⟨0, _⟩ => rfl)]

/-- The relation vector of pair number p. -/
theorem rel_apply (obj : FVec Ideal S4x1024x64 .f32) (wg : FVec Ideal S64x128 .f32) (bg : FVec Ideal S64 .f32)
    (b : Fin 4) (p : Fin 523776) (e : Fin 64) :
    Stages.rel (F := Ideal) obj wg bg (ix3 b p e)
      = ((∑ d : Fin 64, obj (ix3 b (Cert.RelNet.rowOf (Stages.rowI (F := Ideal)) p) d) * wg (ix2 e (Cert.RelNet.lo d)))
          + (∑ d : Fin 64, obj (ix3 b (Cert.RelNet.rowOf (Stages.rowJ (F := Ideal)) p) d) * wg (ix2 e (Cert.RelNet.hi d))))
        + bg (ix1 e) := by
  unfold Stages.rel
  rw [addf_apply, addf_apply, proj_apply, proj_apply, bias3_apply]
  simp only [sliceLo_apply, sliceHi_apply]

/-! ## The sum over the pairs -/

/-- The pooled relations at (b, e): the sum over every pair number. -/
theorem pooled_apply (obj : FVec Ideal S4x1024x64 .f32) (wg : FVec Ideal S64x128 .f32) (bg : FVec Ideal S64 .f32)
    (b : Fin 4) (e : Fin 64) :
    Stages.pooled (F := Ideal) obj wg bg (ix2 b e) = ∑ p : Fin 523776, Stages.rel (F := Ideal) obj wg bg (ix3 b p e) := by
  have hR : S4x523776x64.Reduces [1] S4x64 := by decide
  unfold Stages.pooled
  rw [hostReduceAdd_apply, Ideal.hostReduceAdd_single reducesTo_S4x523776x64_S4x64_d1 hR, constant_apply,
    Ideal.ofBits_zero_f32, zero_add]
  show ∑ p : Fin 523776, Stages.rel (F := Ideal) obj wg bg (hR.lift (ix2 b e) p) = _
  refine Finset.sum_congr rfl fun p _ => congrArg _ ?_
  funext c
  refine Fin.ext ?_
  match c with
  | ⟨0, _⟩ => rfl
  | ⟨1, _⟩ => rfl
  | ⟨2, _⟩ => rfl

/-- The pooled relations are the specification's pair-by-pair sum over the listing the two index vectors spell. -/
theorem pooled_eq_sR (obj : FVec Ideal S4x1024x64 .f32) (wg : FVec Ideal S64x128 .f32) (bg : FVec Ideal S64 .f32)
    (b : Fin 4) (e : Fin 64) :
    Stages.pooled (F := Ideal) obj wg bg (ix2 b e)
      = Cert.RelNet.sR (Cert.RelNet.rowOf (Stages.rowI (F := Ideal))) (Cert.RelNet.rowOf (Stages.rowJ (F := Ideal))) obj wg bg b e := by
  rw [pooled_apply]
  unfold Cert.RelNet.sR
  exact Finset.sum_congr rfl fun p _ => rel_apply obj wg bg b p e

/-! ## The second linear map -/

/-- The second bias, broadcast over batch entries. -/
theorem bias2_apply (bf : FVec Ideal S64 .f32) (b : Fin 4) (e : Fin 64) :
    broadcastInDim S4x64 ![0, 1] bcast_S1x64_S4x64_0_1 (broadcastInDim S1x64 ![1] bcast_S64_S1x64_1 bf) (ix2 b e) = bf (ix1 e) := by
  rw [broadcastInDim_apply ![0, 1] bcast_S1x64_S4x64_0_1 (broadcastInDim S1x64 ![1] bcast_S64_S1x64_1 bf)
      (ix2 b e) (ix2 (0 : Fin 1) e) (fun a => by
        match a with
        | ⟨0, _⟩ => rfl
        | ⟨1, _⟩ => rfl),
    broadcastInDim_apply ![1] bcast_S64_S1x64_1 bf (ix2 (0 : Fin 1) e) (ix1 e) (fun a => by
        match a with
        | ⟨0, _⟩ => rfl)]

/-- The reference's result at (b, e'). -/
theorem out_apply (obj : FVec Ideal S4x1024x64 .f32) (wg : FVec Ideal S64x128 .f32) (bg : FVec Ideal S64 .f32)
    (wf : FVec Ideal S64x64 .f32) (bf : FVec Ideal S64 .f32) (b : Fin 4) (e' : Fin 64) :
    Stages.out (F := Ideal) obj wg bg wf bf (ix2 b e')
      = (∑ e : Fin 64, Stages.pooled (F := Ideal) obj wg bg (ix2 b e) * wf (ix2 e' e)) + bf (ix1 e') := by
  unfold Stages.out
  rw [addf_apply, bias2_apply]
  refine congrArg (· + bf (ix1 e')) ?_
  refine (Idealize.ShloMosaic.MatmulSum.dotGeneral_apply dot_S4x64_S64x64_S4x64_1_0_0_1_n_n rfl rfl rfl rfl rfl rfl none
    HostSchedule.single (Stages.pooled (F := Ideal) obj wg bg) (transpose S64x64 [1, 0] wf transposes_S64x64_S64x64_1_0)
    (ix2 b e')).trans ?_
  show ∑ e : Fin 64, Stages.pooled (F := Ideal) obj wg bg (ix2 b e)
      * transpose S64x64 [1, 0] wf transposes_S64x64_S64x64_1_0 (ix2 e e') = _
  refine Finset.sum_congr rfl fun e _ => ?_
  rw [transpose_ix2_apply]

/-- THE REFERENCE'S RESULT IS THE PAIR-BY-PAIR SUM over the listing that sends pair number p to the two clamped
    indices at p. -/
theorem out_eq_Rout (obj : FVec Ideal S4x1024x64 .f32) (wg : FVec Ideal S64x128 .f32) (bg : FVec Ideal S64 .f32)
    (wf : FVec Ideal S64x64 .f32) (bf : FVec Ideal S64 .f32) :
    Stages.out (F := Ideal) obj wg bg wf bf
      = Cert.RelNet.Rout (Cert.RelNet.rowOf (Stages.rowI (F := Ideal))) (Cert.RelNet.rowOf (Stages.rowJ (F := Ideal)))
          obj wg bg wf bf := by
  funext j
  obtain ⟨b, e', rfl⟩ : ∃ (b : Fin 4) (e' : Fin 64), j = ix2 b e' := ⟨j 0, j 1, eq_ix2 j⟩
  rw [out_apply]
  show _ = (∑ e : Fin 64, Cert.RelNet.sR (Cert.RelNet.rowOf (Stages.rowI (F := Ideal)))
      (Cert.RelNet.rowOf (Stages.rowJ (F := Ideal))) obj wg bg b e * wf (ix2 e' e)) + bf (ix1 e')
  refine congrArg (· + bf (ix1 e')) (Finset.sum_congr rfl fun e _ => ?_)
  rw [pooled_eq_sR]

end Cert.ReferenceIdeal.RValue

end
-- ==== Proof.Comb.lean ====
import Idealize.ShloMosaic.PureOps.Ideal

/-!
# Listing the pairs `i < j` by a running count

Flatten the 1024 × 1024 grid row by row: position `g` is row `g / 1024`, column `g % 1024`, and it lies above
the diagonal when `g / 1024 < g % 1024`.  `cnt f` counts the positions up to and including `f` that lie above the
diagonal; `pos p` counts the positions whose running count is at most `p`.  Because the running count rises by one
exactly at the positions above the diagonal, `pos p` is the position of the `p`-th one of them (counting from
zero), so `p ↦ (pos p / 1024, pos p % 1024)` lists every pair `i < j` exactly once.
-/

namespace Cert.RelNet.Comb

/-- Position `g` of the flattened grid lies strictly above the diagonal. -/
def above (g : ℕ) : Prop := g / 1024 < g % 1024

instance : DecidablePred above := fun g => inferInstanceAs (Decidable (g / 1024 < g % 1024))

/-- How many positions `≤ f` lie above the diagonal. -/
def cnt (f : ℕ) : ℕ := ((Finset.range (f + 1)).filter above).card

/-- How many of the `1024²` positions have running count at most `p`. -/
def pos (p : ℕ) : ℕ := ((Finset.range 1048576).filter fun f => cnt f ≤ p).card

end Cert.RelNet.Comb
-- ==== Proof.LibCumsum.lean ====
import Mathlib.Data.BitVec
import Idealize.ShloMosaic.PureOps.Ideal
import Idealize.ShloMosaic.Lib.ValueIdx

/-!
# A running sum written as a padded window sum

`stablehlo.reduce_window` with an addition body, window length `n`, stride one and `n - 1` zeros of padding in
front, applied to a vector of length `n`, is the running (inclusive) sum of the vector: entry `j` of the result adds
the `n` entries of the padded vector that start at position `j`; position `w` of that window holds
`x (j + w - (n - 1))` when `j + w ≥ n - 1` and the padding zero otherwise, so the window's sum is `x 0 + … + x j`
(`reduceWindow_cumsum`, for every length `n`).  The words are 32-bit and the addition wraps; a sum of words that
are natural numbers is the word of the natural sum (`sum_ofNat`), and when the natural sum stays below `2 ^ 32`
nothing wraps and the word's value is that natural sum (`toNat_sum_ofNat`).
-/

namespace Cert.ReferenceIdeal.Pairs

open Idealize.ShloMosaic Idealize.ShloMosaic.ValueIdx

/-- A vector of length `n` read at a natural position, zero past its end. -/
def ext {n : ℕ} (x : (⟨1, ![n]⟩ : Shape).Idx → BitVec 32) (k : ℕ) : BitVec 32 :=
  if h : k < n then x (ix1 ⟨k, h⟩) else 0#32

theorem ext_of_lt {n : ℕ} (x : (⟨1, ![n]⟩ : Shape).Idx → BitVec 32) (k : Fin n) : ext x k.val = x (ix1 k) := by
  unfold ext; rw [dif_pos k.isLt]

/-- A left fold of wrapping additions is the start value plus the sum of the terms. -/
theorem foldl_addi_eq_sum {ι : Type} (l : List ι) (g : ι → BitVec 32) (v : BitVec 32) :
    l.foldl (fun r a => IntOp.addi r (g a)) v = v + (l.map g).sum := by
  induction l generalizing v with
  | nil => simp
  | cons a l ih =>
    rw [List.foldl_cons, ih, List.map_cons, List.sum_cons]
    unfold IntOp.addi
    rw [BitVec.add_assoc]

/-- The number of elements of a rank-1 shape is its length. -/
theorem numel_one (n : ℕ) : (⟨1, ![n]⟩ : Shape).numel = n := by
  simp [Shape.numel]

/-- The coordinate of the `w`-th index of a rank-1 shape is `w`. -/
theorem rowMajor_symm_one (n : ℕ) (w : Fin (⟨1, ![n]⟩ : Shape).numel) :
    (((⟨1, ![n]⟩ : Shape).rowMajor.symm w) 0).val = w.val := by
  have h := Shape.rowMajor_val_one ((⟨1, ![n]⟩ : Shape).rowMajor.symm w)
  rw [Equiv.apply_symm_apply] at h
  exact h.symm

/-- The padded window sum at `j` is the sum of the entries up to and including `j`. -/
theorem reduceWindow_cumsum (n m : ℕ) (hm : m + 1 = n) (x : (⟨1, ![n]⟩ : Shape).Idx → BitVec 32)
    (init : (⟨0, ![]⟩ : Shape).Idx → BitVec 32) (h0 : ∀ i, init i = 0#32)
    (h : (⟨1, ![n]⟩ : Shape).ReduceWindows ![n] ![1] ![m] ![0] ⟨1, ![n]⟩) (hu : 0 < (⟨0, ![]⟩ : Shape).numel)
    (j : Fin n) :
    Host.reduceWindow IntOp.addi ![n] ![1] ![m] ![0] x init h hu (ix1 j)
      = ∑ k ∈ Finset.range (j.val + 1), ext x k := by
  have hj := j.isLt
  unfold Host.reduceWindow
  dsimp only
  rw [h0]
  -- each window position's term, as a function of the position's number
  have hterm : ∀ w : Fin (⟨1, ![n]⟩ : Shape).numel,
      (if hin : ∀ a : Fin 1, (![m] : Fin 1 → ℕ) a ≤ ((ix1 j) (a.cast h.1.symm)).val * (![1] : Fin 1 → ℕ) a
              + (((⟨1, ![n]⟩ : Shape).rowMajor.symm w) a).val ∧
            ((ix1 j) (a.cast h.1.symm)).val * (![1] : Fin 1 → ℕ) a + (((⟨1, ![n]⟩ : Shape).rowMajor.symm w) a).val
              - (![m] : Fin 1 → ℕ) a < (⟨1, ![n]⟩ : Shape).size a
        then x (fun a => ⟨((ix1 j) (a.cast h.1.symm)).val * (![1] : Fin 1 → ℕ) a
              + (((⟨1, ![n]⟩ : Shape).rowMajor.symm w) a).val - (![m] : Fin 1 → ℕ) a, (hin a).2⟩)
        else 0#32)
      = (fun w : ℕ => if m ≤ j.val + w then ext x (j.val + w - m) else 0#32) w.val := by
    intro w
    have hw : w.val < n := Nat.lt_of_lt_of_eq w.isLt (numel_one n)
    have hw0 := rowMajor_symm_one n w
    by_cases hc : m ≤ j.val + w.val
    · have hlt : j.val + w.val - m < n := by omega
      have hin : ∀ a : Fin 1, (![m] : Fin 1 → ℕ) a ≤ ((ix1 j) (a.cast h.1.symm)).val * (![1] : Fin 1 → ℕ) a
              + (((⟨1, ![n]⟩ : Shape).rowMajor.symm w) a).val ∧
            ((ix1 j) (a.cast h.1.symm)).val * (![1] : Fin 1 → ℕ) a + (((⟨1, ![n]⟩ : Shape).rowMajor.symm w) a).val
              - (![m] : Fin 1 → ℕ) a < (⟨1, ![n]⟩ : Shape).size a := by
        intro a
        match a with
        | ⟨0, _⟩ =>
          show m ≤ j.val * 1 + (((⟨1, ![n]⟩ : Shape).rowMajor.symm w) 0).val ∧
            j.val * 1 + (((⟨1, ![n]⟩ : Shape).rowMajor.symm w) 0).val - m < n
          rw [hw0]; omega
      rw [dif_pos hin]
      show _ = if m ≤ j.val + w.val then ext x (j.val + w.val - m) else 0#32
      rw [if_pos hc]
      unfold ext
      rw [dif_pos hlt]
      congr 1
      funext a
      match a with
      | ⟨0, _⟩ =>
        apply Fin.ext
        show j.val * 1 + (((⟨1, ![n]⟩ : Shape).rowMajor.symm w) 0).val - m = j.val + w.val - m
        rw [hw0]; omega
    · have hin : ¬ ∀ a : Fin 1, (![m] : Fin 1 → ℕ) a ≤ ((ix1 j) (a.cast h.1.symm)).val * (![1] : Fin 1 → ℕ) a
              + (((⟨1, ![n]⟩ : Shape).rowMajor.symm w) a).val ∧
            ((ix1 j) (a.cast h.1.symm)).val * (![1] : Fin 1 → ℕ) a + (((⟨1, ![n]⟩ : Shape).rowMajor.symm w) a).val
              - (![m] : Fin 1 → ℕ) a < (⟨1, ![n]⟩ : Shape).size a := by
        intro hall
        have h1 := (hall 0).1
        have h2 : m ≤ j.val * 1 + (((⟨1, ![n]⟩ : Shape).rowMajor.symm w) 0).val := h1
        rw [hw0] at h2; omega
      rw [dif_neg hin]
      show _ = if m ≤ j.val + w.val then ext x (j.val + w.val - m) else 0#32
      rw [if_neg hc]
  rw [show (fun (r : BitVec 32) (w : Fin (⟨1, ![n]⟩ : Shape).numel) => IntOp.addi r _) = fun r w => IntOp.addi r
      ((fun w : Fin (⟨1, ![n]⟩ : Shape).numel =>
        (fun w : ℕ => if m ≤ j.val + w then ext x (j.val + w - m) else 0#32) w.val) w) from
    funext fun r => funext fun w => congrArg (IntOp.addi r) (hterm w)]
  rw [foldl_addi_eq_sum, BitVec.zero_add, ← Fin.sum_univ_def,
    Fin.sum_univ_eq_sum_range (fun w : ℕ => if m ≤ j.val + w then ext x (j.val + w - m) else 0#32), numel_one]
  have e : (∑ i ∈ Finset.range n, if m ≤ j.val + i then ext x (j.val + i - m) else 0#32)
      = ∑ i ∈ (Finset.range n).filter (fun i => m ≤ j.val + i), ext x (j.val + i - m) :=
    (Finset.sum_filter _ _).symm
  rw [e]
  refine Finset.sum_nbij' (fun w => j.val + w - m) (fun k => k + m - j.val) ?_ ?_ ?_ ?_ ?_
  · intro w hw; simp only [Finset.mem_filter, Finset.mem_range] at hw ⊢; omega
  · intro k hk; simp only [Finset.mem_filter, Finset.mem_range] at hk ⊢; omega
  · intro w hw; simp only [Finset.mem_filter, Finset.mem_range] at hw; omega
  · intro k hk; simp only [Finset.mem_range] at hk; omega
  · intro w _; rfl

/-- A sum of 32-bit words that are natural numbers is the word of the natural sum. -/
theorem sum_ofNat {ι : Type} (s : Finset ι) (f : ι → ℕ) :
    ∑ k ∈ s, BitVec.ofNat 32 (f k) = BitVec.ofNat 32 (∑ k ∈ s, f k) := by
  classical
  induction s using Finset.induction_on with
  | empty => simp
  | insert a s ha ih => rw [Finset.sum_insert ha, Finset.sum_insert ha, ih, BitVec.ofNat_add]

/-- When the natural sum is below `2 ^ 32`, the word sum's value is the natural sum. -/
theorem toNat_sum_ofNat {ι : Type} (s : Finset ι) (f : ι → ℕ) (hlt : ∑ k ∈ s, f k < 2 ^ 32) :
    (∑ k ∈ s, BitVec.ofNat 32 (f k)).toNat = ∑ k ∈ s, f k := by
  rw [sum_ofNat, BitVec.toNat_ofNat, Nat.mod_eq_of_lt hlt]

end Cert.ReferenceIdeal.Pairs
-- ==== Proof.PairsMask.lean ====
import Mathlib.Data.BitVec
import proofs.«121243_j57621281243635_2_alg».proof.Proof.RefStages
import proofs.«121243_j57621281243635_2_alg».proof.Proof.Comb
import proofs.«121243_j57621281243635_2_alg».proof.Proof.LibCumsum
import Idealize.ShloMosaic.Lib.ValueIdx
import Idealize.ShloMosaic.Lib.IdealHost

/-!
# The mask of the strict upper triangle and its running count

The triangle array holds `0` where the row number is at least the column number and `1` elsewhere, so the mask
"not equal to zero" is set exactly at the entries with row < column.  Flattened row by row, entry `g` of the mask is
the entry at row `g / 1024`, column `g % 1024`; widened to a 32-bit word it is `1` when `g` lies above the
diagonal and `0` otherwise.  The running sum of these words at `f` therefore counts the positions up to and
including `f` that lie above the diagonal; that count is at most `1024²`, so the 32-bit sum does not wrap.
-/

namespace Cert.ReferenceIdeal.Pairs

open Idealize.ShloMosaic Idealize.ShloMosaic.ValueIdx Cert.ReferenceIdeal Cert.ReferenceIdeal.Stages Cert.RelNet.Comb

variable [Cert.ReferenceIdeal.Facts]

/-- A signed comparison "row ≥ column" of two small naturals. -/
theorem cmpi_sge_small (r c : ℕ) (hr : r < 1024) (hc : c < 1024) :
    IntOp.cmpi .sge (IntOp.addi (BitVec.ofNat 32 r) 0#32) (BitVec.ofNat 32 c) = BitVec.ofBool (decide (c ≤ r)) := by
  show BitVec.ofBool ((BitVec.ofNat 32 c).sle (BitVec.ofNat 32 r + 0#32)) = _
  rw [BitVec.add_zero, BitVec.sle_eq_decide]
  have e1 : (BitVec.ofNat 32 c).toInt = (c : ℤ) := by
    rw [BitVec.toInt_eq_toNat_of_lt (by rw [BitVec.toNat_ofNat, Nat.mod_eq_of_lt (by omega)]; omega),
      BitVec.toNat_ofNat, Nat.mod_eq_of_lt (by omega)]
  have e2 : (BitVec.ofNat 32 r).toInt = (r : ℤ) := by
    rw [BitVec.toInt_eq_toNat_of_lt (by rw [BitVec.toNat_ofNat, Nat.mod_eq_of_lt (by omega)]; omega),
      BitVec.toNat_ofNat, Nat.mod_eq_of_lt (by omega)]
  rw [e1, e2]
  congr 1
  exact decide_eq_decide.2 Int.ofNat_le

/-- The mask at row `r`, column `c`: set exactly when `r < c`. -/
theorem mask_apply (r c : Fin 1024) :
    mask (F := Ideal) (ix2 r c) = if r.val < c.val then 1#1 else 0#1 := by
  show Ideal.cmp .une
      (Scalar.select (IntOp.cmpi .sge (IntOp.addi (BitVec.ofNat 32 r.val) 0#32) (BitVec.ofNat 32 c.val))
        (Ideal.ofBits .f32 0x00000000#32) (Ideal.ofBits .f32 0x3F800000#32))
      (Ideal.ofBits .f32 0x00000000#32) = _
  rw [cmpi_sge_small r.val c.val r.isLt c.isLt, Ideal.ofBits_zero_f32, Ideal.ofBits_one_f32]
  by_cases h : r.val < c.val
  · rw [if_pos h, show decide (c.val ≤ r.val) = false from decide_eq_false (by omega)]
    show BitVec.ofBool (decide ((1 : EReal) ≠ 0)) = 1#1
    rw [show decide ((1 : EReal) ≠ 0) = true from decide_eq_true one_ne_zero]; rfl
  · rw [if_neg h, show decide (c.val ≤ r.val) = true from decide_eq_true (by omega)]
    show BitVec.ofBool (decide ((0 : EReal) ≠ 0)) = 0#1
    rw [show decide ((0 : EReal) ≠ 0) = false from decide_eq_false (by simp)]; rfl

/-- The flattened mask at position `g`, as a 32-bit word. -/
theorem maskFlat_apply (g : Fin 1048576) :
    maskFlat (F := Ideal) (ix1 g) = BitVec.ofNat 32 (if above g.val then 1 else 0) := by
  have hr : g.val / 1024 < 1024 := by have := g.isLt; omega
  have hc : g.val % 1024 < 1024 := Nat.mod_lt _ (by norm_num)
  have hk : Shape.reshapeEquiv (Facts₀.shapeCasts_S1024x1024_S1048576) (ix1 g)
      = (ix2 (⟨g.val / 1024, hr⟩ : Fin 1024) (⟨g.val % 1024, hc⟩ : Fin 1024)) := by
    apply Shape.reshapeEquiv_eq_of_rowMajor
    rw [Shape.rowMajor_val_two, Shape.rowMajor_val_one]
    show g.val / 1024 * 1024 + g.val % 1024 = g.val
    omega
  show (mask (F := Ideal) (Shape.reshapeEquiv (Facts₀.shapeCasts_S1024x1024_S1048576) (ix1 g))).setWidth 32 = _
  rw [hk, mask_apply]
  show (if g.val / 1024 < g.val % 1024 then 1#1 else 0#1).setWidth 32 = BitVec.ofNat 32 (if above g.val then 1 else 0)
  by_cases h : above g.val
  · have h' : g.val / 1024 < g.val % 1024 := h
    rw [if_pos h', if_pos h]; rfl
  · have h' : ¬ g.val / 1024 < g.val % 1024 := h
    rw [if_neg h', if_neg h]; rfl

/-- The running count is at most the number of positions counted. -/
theorem cnt_le (f : ℕ) : cnt f ≤ f + 1 := by
  unfold cnt
  exact (Finset.card_filter_le _ _).trans (by rw [Finset.card_range])

/-- The running count at `f`, as a natural number. -/
theorem count_toNat (f : Fin 1048576) : (count (F := Ideal) (ix1 f)).toNat = cnt f.val := by
  have hf := f.isLt
  unfold count
  rw [reduceWindow_cumsum 1048576 1048575 (by norm_num) (maskFlat (F := Ideal))
    (broadcastInDim S_ ![] Facts₀.bcast_S_S_ (constantI S_ 32 0#32)) (fun _ => rfl) _ _ f]
  have hterm : ∀ k ∈ Finset.range (f.val + 1),
      ext (maskFlat (F := Ideal)) k = BitVec.ofNat 32 (if above k then 1 else 0) := by
    intro k hk
    have hk' : k < 1048576 := by rw [Finset.mem_range] at hk; omega
    rw [← maskFlat_apply ⟨k, hk'⟩]
    exact ext_of_lt (maskFlat (F := Ideal)) ⟨k, hk'⟩
  rw [Finset.sum_congr rfl hterm]
  have hcard : ∑ k ∈ Finset.range (f.val + 1), (if above k then 1 else 0) = cnt f.val := by
    unfold cnt; rw [Finset.card_filter]
  rw [toNat_sum_ofNat _ _ (by rw [hcard]; have := cnt_le f.val; omega), hcard]

/-- The running count is at most `1024²`. -/
theorem count_toNat_le (f : Fin 1048576) : (count (F := Ideal) (ix1 f)).toNat ≤ 1048576 := by
  rw [count_toNat]; have := cnt_le f.val; have := f.isLt; omega

end Cert.ReferenceIdeal.Pairs
-- ==== Proof.LibScatterAdd.lean ====
import Mathlib
import Idealize.ShloMosaic.PureOps.ShapeOps
import Idealize.ShloMosaic.Lib.ValueIdx

/-!
# A scatter whose body is addition is a sum

`Host.scatter d f x idx upd` is a left fold over the update indices in row-major order, each
update index `j` replacing the element at its result index `d.resultIdx? j idx` (when there
is one) by `f` of that element and the update's. When `f` is the addition of an additive
commutative monoid, the element of the result at `i` is the operand's element at `i` plus the
sum of the updates whose result index is `i`:

  `Host.scatter d f x idx upd i = x i + ∑ j, if d.resultIdx? j idx = some i then upd j else 0`.

The proof is an induction on the list of update numbers with the accumulator generalised, then
the bridge from the sum of a list over `List.finRange` to the sum over `Fin`, and last the
re-indexing of that sum along the row-major numbering `u.rowMajor : u.Idx ≃ Fin u.numel`.

## The flat `x.at[idx].add(v)`

For an operand `[B]`, scatter indices `[N, 1]` and updates `[N]`, with no update window axes, the
operand's one axis inserted, the one start component going to that axis and the index vector on
axis `1`, the result index of update `[n]` is the index word `idx [n, 0]` read as a signed
integer, when that lies in `[0, B)`, and the update is dropped otherwise
(`ScatterDims.resultIdx?_addAt`). Hence element `i` of the result is `x i` plus the sum of the
updates `upd [n]` over the `n` with `(idx [n, 0]).toInt = i 0` (`Host.scatter_addAt_eq_sum`,
`Host.scatter_addAt_eq_sum_fin`).
-/

namespace Idealize.ShloMosaic

open scoped BigOperators

section ScatterAdd
variable {s si u : Shape} {α : Type} [AddCommMonoid α] {w : Nat}

/-- The fold of the scatter's step over ANY list `l` of update numbers, from ANY accumulator
    `r`, when the body `f` is addition: at `i` it is `r i` plus the sum, over the list, of the
    updates whose result index is `i`. -/
theorem Host.scatter_foldl_add (d : ScatterDims s si u) (f : α → α → α) (hf : ∀ a b, f a b = a + b)
    (idx : IVec si w) (upd : u.Idx → α) (l : List (Fin u.numel)) (r : s.Idx → α) (i : s.Idx) :
    l.foldl (fun r n =>
        match d.resultIdx? (u.rowMajor.symm n) idx with
        | some i => fun i' => if i' = i then f (r i) (upd (u.rowMajor.symm n)) else r i'
        | none => r) r i
      = r i + (l.map fun n =>
          if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp [hf]
      · have hi' : ¬ i0 = i := fun h => hi h.symm
        simp [hi, hi']

/-- The scatter with an additive body, as a sum over the update NUMBERS `n : Fin u.numel`
    (update index `u.rowMajor.symm n`). -/
theorem Host.scatter_add_eq_sum_fin (d : ScatterDims s si u) (f : α → α → α) (hf : ∀ a b, f a b = a + b)
    (x : s.Idx → α) (idx : IVec si w) (upd : u.Idx → α) (i : s.Idx) :
    Host.scatter d f x idx upd i
      = x i + ∑ n : Fin u.numel,
          (if d.resultIdx? (u.rowMajor.symm n) idx = some i then upd (u.rowMajor.symm n) else 0) := by
  rw [Fin.sum_univ_def]
  exact Host.scatter_foldl_add d f hf idx upd (List.finRange u.numel) x i

/-- **A scatter whose body is addition is a sum.** The element at `i` of
    `Host.scatter d f x idx upd`, when `f a b = a + b` in an additive commutative monoid, is the
    operand's element `x i` plus the sum of the updates `upd j` over the update indices `j` whose
    result index `d.resultIdx? j idx` is `i` (an update whose result index leaves the operand is
    dropped). -/
theorem Host.scatter_add_eq_sum (d : ScatterDims s si u) (f : α → α → α) (hf : ∀ a b, f a b = a + b)
    (x : s.Idx → α) (idx : IVec si w) (upd : u.Idx → α) (i : s.Idx) :
    Host.scatter d f x idx upd i
      = x i + ∑ j : u.Idx, (if d.resultIdx? j idx = some i then upd j else 0) := by
  rw [Host.scatter_add_eq_sum_fin d f hf]
  congr 1
  exact Equiv.sum_comp u.rowMajor.symm
    (fun j : u.Idx => if d.resultIdx? j idx = some i then upd j else 0)

/-- The instance at 32-bit words: the integer addition `IntOp.addi` is `+` on `BitVec`, so the
    scatter with that body is the sum above, in the commutative ring of `w'`-bit words. -/
theorem Host.scatter_addi_eq_sum {w' : Nat} (d : ScatterDims s si u)
    (x : s.Idx → BitVec w') (idx : IVec si w) (upd : u.Idx → BitVec w') (i : s.Idx) :
    Host.scatter d IntOp.addi x idx upd i
      = x i + ∑ j : u.Idx, (if d.resultIdx? j idx = some i then upd j else 0) :=
  Host.scatter_add_eq_sum d IntOp.addi (fun _ _ => rfl) x idx upd i

end ScatterAdd

section AddAt
variable {B N w : Nat}

/-- The scatter-indices index `[n, 0]` that update index `[n]` reads its one start component at:
    row `n`, column `0` of the `N × 1` array of scatter indices. -/
abbrev addAtIdx (j : (⟨1, ![N]⟩ : Shape).Idx) : (⟨2, ![N, 1]⟩ : Shape).Idx :=
  fun a => match a with | ⟨0, _⟩ => ⟨(j 0).val, (j 0).isLt⟩ | ⟨1, _⟩ => ⟨0, Nat.one_pos⟩

/-- **The result index of `x.at[idx].add(v)` on a flat array.** For an operand `[B]`, scatter
    indices `[N, 1]` and updates `[N]` with no update window axes, the operand's one axis inserted,
    the start component going to that axis and the index vector on axis `1`: update index `j`
    lands at `i` exactly when the index word at row `j 0`, column `0`, read SIGNED, is the
    number `i 0` (a word that is negative or at least `B` drops the update). -/
theorem ScatterDims.resultIdx?_addAt (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (idx : IVec ⟨2, ![N, 1]⟩ w) (j : (⟨1, ![N]⟩ : Shape).Idx) (i : (⟨1, ![B]⟩ : Shape).Idx) :
    d.resultIdx? j idx = some i ↔ (idx (addAtIdx j)).toInt = ((i 0).val : Int) := by
  obtain ⟨uw, iw, sd, iv, wf⟩ := d
  simp only at h1 h2 h3 h4
  subst h1 h2 h3 h4
  generalize hd : (⟨[], [0], [0], 1, wf⟩ : ScatterDims ⟨1, ![B]⟩ ⟨2, ![N, 1]⟩ ⟨1, ![N]⟩) = d
  have hstart : ∀ a, d.start j idx a = (idx (addAtIdx j)).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  have hwin : ∀ a, d.window j a = 0 := by
    intro a
    obtain rfl : a = 0 := Subsingleton.elim _ _
    subst hd
    unfold ScatterDims.window
    rw [dif_neg]
    simp [ScatterDims.sKept, Shape.kept]
  have hB : ((i 0).val : Int) < ((⟨1, ![B]⟩ : Shape).size 0 : Nat) := by
    have := (i 0).isLt; omega
  unfold ScatterDims.resultIdx?
  split_ifs with h
  · rw [Option.some.injEq]
    constructor
    · intro e
      have e0 : (d.start j idx 0 + (d.window j 0 : Int)).toNat = (i 0).val :=
        congrArg (fun k : (⟨1, ![B]⟩ : Shape).Idx => (k 0).val) e
      have h0 := h 0
      rw [hstart, hwin] at e0 h0
      omega
    · intro e
      funext a
      obtain rfl : a = 0 := Subsingleton.elim _ _
      refine Fin.ext ?_
      show (d.start j idx 0 + (d.window j 0 : Int)).toNat = (i 0).val
      rw [hstart, hwin]; omega
  · constructor
    · intro e; cases e
    · intro e
      exfalso; apply h
      intro a
      obtain rfl : a = 0 := Subsingleton.elim _ _
      rw [hstart, hwin]
      omega

end AddAt

section AddAtSum
variable {B N w : Nat} {α : Type} [AddCommMonoid α]

open ValueIdx in
/-- A rank-1 index is its one coordinate: the bijection a sum over the update indices `[N]` is
    re-indexed through. -/
def idxEquiv1 : (⟨1, ![N]⟩ : Shape).Idx ≃ Fin N where
  toFun j := j 0
  invFun n := ix1 n
  left_inv j := (eq_ix1 j).symm
  right_inv _ := rfl

open ValueIdx in
/-- The scatter-indices index of update index `[n]` is `[n, 0]`. -/
theorem addAtIdx_ix1 (n : Fin N) : addAtIdx (ix1 n) = ix2 n (0 : Fin 1) := by
  funext a
  match a with
  | ⟨0, _⟩ => rfl
  | ⟨1, _⟩ => rfl

/-- **`x.at[idx].add(v)` on a flat array is a sum over the updates that name the element.** With
    the dimension numbers of `ScatterDims.resultIdx?_addAt` and an additive body, element `i` of
    the result is `x i` plus the sum of the updates `upd j` over the update indices `j` whose index
    word, read signed, is the number `i 0`. -/
theorem Host.scatter_addAt_eq_sum (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ j : (⟨1, ![N]⟩ : Shape).Idx,
          (if (idx (addAtIdx j)).toInt = ((i 0).val : Int) then upd j else 0) := by
  rw [Host.scatter_add_eq_sum d f hf]
  congr 1
  refine Finset.sum_congr rfl fun j _ => ?_
  simp only [ScatterDims.resultIdx?_addAt d h1 h2 h3 h4]

open ValueIdx in
/-- The same sum over the update NUMBERS `n : Fin N`: element `i` of the result is `x i` plus the
    sum of `upd [n]` over the `n` whose index word `idx [n, 0]`, read signed, is `i 0`. -/
theorem Host.scatter_addAt_eq_sum_fin (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ n : Fin N,
          (if (idx (ix2 n (0 : Fin 1))).toInt = ((i 0).val : Int) then upd (ix1 n) else 0) := by
  rw [Host.scatter_addAt_eq_sum d h1 h2 h3 h4 f hf, ← Equiv.sum_comp (idxEquiv1 (N := N)).symm]
  congr 1
  refine Finset.sum_congr rfl fun n _ => ?_
  show (if (idx (addAtIdx (ix1 n))).toInt = ((i 0).val : Int) then upd (ix1 n) else 0) = _
  rw [addAtIdx_ix1]

end AddAtSum

end Idealize.ShloMosaic
-- ==== Proof.PairsHist.lean ====
import Mathlib.Data.BitVec
import proofs.«121243_j57621281243635_2_alg».proof.Proof.PairsMask
import proofs.«121243_j57621281243635_2_alg».proof.Proof.LibScatterAdd

/-!
# The histogram of the running count

The running count is never negative, so clipping it below at zero and wrapping a negative value by the
histogram's length both leave it unchanged: the index column of the scatter holds the running count itself.
The scatter adds a one at the bin named by each position's running count and drops the positions whose count
is not a bin (the count `523776`, reached from the last position above the diagonal on).  Bin `v` therefore
holds the number of positions whose running count is `v`.
-/

namespace Cert.ReferenceIdeal.Pairs

open Idealize.ShloMosaic Idealize.ShloMosaic.ValueIdx Cert.ReferenceIdeal Cert.ReferenceIdeal.Stages Cert.RelNet.Comb

variable [Cert.ReferenceIdeal.Facts]

/-- The running count's top bit is clear. -/
theorem count_msb (f : Fin 1048576) : (count (F := Ideal) (ix1 f)).msb = false :=
  BitVec.msb_eq_false_iff_two_mul_lt.2 (by have := count_toNat_le f; omega)

/-- The running count read signed is the count. -/
theorem count_toInt (f : Fin 1048576) : (count (F := Ideal) (ix1 f)).toInt = (cnt f.val : ℤ) := by
  rw [BitVec.toInt_eq_toNat_of_msb (count_msb f), count_toNat]

/-- Clipping below at zero leaves the running count unchanged. -/
theorem countClip_apply (f : Fin 1048576) : countClip (F := Ideal) (ix1 f) = count (F := Ideal) (ix1 f) := by
  show IntOp.maxsi 0#32 (count (F := Ideal) (ix1 f)) = _
  unfold IntOp.maxsi
  rw [if_neg (by rw [BitVec.slt_zero_eq_msb, count_msb f]; decide)]

/-- The index column of the scatter holds the running count. -/
theorem binIdx_apply (f : Fin 1048576) :
    binIdx (F := Ideal) (ix2 f (0 : Fin 1)) = count (F := Ideal) (ix1 f) := by
  unfold binIdx
  have hk : broadcastInDim S1048576x1 ![0] Facts₀.bcast_S1048576_S1048576x1_0
      (select
        (cmpi .slt (countClip (F := Ideal)) (broadcastInDim S1048576 ![] Facts₀.bcast_S_S1048576 (constantI S_ 32 0#32)))
        (addi (countClip (F := Ideal)) (broadcastInDim S1048576 ![] Facts₀.bcast_S_S1048576 (constantI S_ 32 523776#32)))
        (countClip (F := Ideal))) (ix2 f (0 : Fin 1))
      = (select
        (cmpi .slt (countClip (F := Ideal)) (broadcastInDim S1048576 ![] Facts₀.bcast_S_S1048576 (constantI S_ 32 0#32)))
        (addi (countClip (F := Ideal)) (broadcastInDim S1048576 ![] Facts₀.bcast_S_S1048576 (constantI S_ 32 523776#32)))
        (countClip (F := Ideal))) (ix1 f) := by
    unfold broadcastInDim
    refine congrArg _ (funext fun a => ?_)
    match a with
    | ⟨0, _⟩ =>
      rw [dif_neg (by intro h1; have h2 : (1048576 : ℕ) = 1 := h1; omega)]
      rfl
  rw [hk]
  show Scalar.select (IntOp.cmpi .slt (countClip (F := Ideal) (ix1 f)) 0#32)
      (IntOp.addi (countClip (F := Ideal) (ix1 f)) 523776#32) (countClip (F := Ideal) (ix1 f)) = _
  rw [countClip_apply]
  have hs : IntOp.cmpi .slt (count (F := Ideal) (ix1 f)) 0#32 = 0#1 := by
    show BitVec.ofBool ((count (F := Ideal) (ix1 f)).slt 0#32) = 0#1
    rw [BitVec.slt_zero_eq_msb, count_msb f]; rfl
  rw [hs]
  unfold Scalar.select
  rw [if_neg (by decide)]

/-- Bin `v` of the histogram holds the number of positions whose running count is `v`. -/
theorem hist_apply (v : Fin 523776) :
    hist (F := Ideal) (ix1 v)
      = BitVec.ofNat 32 ((Finset.range 1048576).filter fun f => cnt f = v.val).card := by
  unfold hist
  rw [Host.scatter_addAt_eq_sum_fin scatter_S523776_S1048576x1_S1048576_n_0_0_1 rfl rfl rfl rfl IntOp.addi
    (fun _ _ => rfl)]
  rw [show broadcastInDim S523776 ![] Facts₀.bcast_S_S523776 (constantI S_ 32 0#32) (ix1 v) = (0 : BitVec 32) from rfl,
    zero_add]
  -- each update is a one, added where the position's running count is the bin's number
  have hterm : ∀ n : Fin 1048576,
      (if (binIdx (F := Ideal) (ix2 n (0 : Fin 1))).toInt = (((ix1 v : S523776.Idx) 0).val : ℤ)
        then broadcastInDim S1048576 ![] Facts₀.bcast_S_S1048576 (constantI S_ 32 1#32) (ix1 n) else 0)
      = (fun k : ℕ => BitVec.ofNat 32 (if cnt k = v.val then 1 else 0)) n.val := by
    intro n
    rw [binIdx_apply, count_toInt]
    show (if (cnt n.val : ℤ) = (v.val : ℤ) then (1#32 : BitVec 32) else 0) = BitVec.ofNat 32 (if cnt n.val = v.val then 1 else 0)
    by_cases h : cnt n.val = v.val
    · rw [if_pos h, if_pos (by rw [h])]
    · rw [if_neg h, if_neg (by intro e; exact h (Int.ofNat_inj.1 e))]; rfl
  rw [Finset.sum_congr rfl (fun n _ => hterm n),
    Fin.sum_univ_eq_sum_range (fun k : ℕ => BitVec.ofNat 32 (if cnt k = v.val then 1 else 0)), sum_ofNat,
    Finset.card_filter]

end Cert.ReferenceIdeal.Pairs
-- ==== Proof.LibFloorDivWords.lean ====
import Mathlib.Data.BitVec
import Idealize.ShloMosaic.PureOps.Ideal

/-!
# Floor division, remainder and index wrap on nonnegative 32-bit words

jnp's `floor_divide` of `x` by `d` on signed 32-bit words is computed from the truncated quotient: one is
subtracted when the signs of `x` and `d` differ and the truncated remainder is not zero (`floorDivW`).  jnp's
`remainder`, which takes the divisor's sign, is the truncated remainder by the divisor (one in place of a zero
divisor), to which the divisor is added when the remainder is not zero and its sign differs from the divisor's
(`pyRemW`).  A negative index into an axis of length `1024` is wrapped by adding `1024` (`wrapW`).  For a word
`x` whose top bit is clear and the divisor `1024` none of the corrections applies: the floor quotient is the
unsigned quotient `x / 1024` (`floorDivW_1024`), the remainder is the unsigned remainder `x % 1024`
(`pyRemW_1024`), and the wrap is the identity (`wrapW_of_nonneg`).  With the divisor `1` the floor quotient is
`x` itself, for every word (`floorDivW_one`).  A word below `2 ^ 31` has its top bit clear and reads signed as its
natural value (`msb_false_of_lt`, `toInt_of_lt`).
-/

namespace Cert.ReferenceIdeal.Pairs

open Idealize.ShloMosaic

/-- The sign of a word: `0`, `-1` or `1`. -/
def sgnW (x : BitVec 32) : BitVec 32 := if x = 0 then 0 else if x.msb then -1 else 1

/-- Floor division from the truncated quotient and remainder. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32) (IntOp.divsi .host x d)

/-- The divisor with one in place of zero. -/
def safeDivW (d : BitVec 32) : BitVec 32 := Scalar.select (IntOp.cmpi .eq d 0#32) 1#32 d

/-- The remainder with the divisor's sign, from the truncated remainder. -/
def pyRemW (x d : BitVec 32) : BitVec 32 :=
  Scalar.select
    (IntOp.andi
      (IntOp.cmpi .ne (IntOp.cmpi .slt (IntOp.remsi .host x (safeDivW d)) 0#32) (IntOp.cmpi .slt (safeDivW d) 0#32))
      (IntOp.cmpi .ne (IntOp.remsi .host x (safeDivW d)) 0#32))
    (IntOp.addi (IntOp.remsi .host x (safeDivW d)) (safeDivW d)) (IntOp.remsi .host x (safeDivW d))

/-- A negative index wrapped by the axis length `1024`. -/
def wrapW (x : BitVec 32) : BitVec 32 := Scalar.select (IntOp.cmpi .slt x 0#32) (IntOp.addi x 1024#32) x

theorem msb_false_of_lt (x : BitVec 32) (h : x.toNat < 2 ^ 31) : x.msb = false :=
  BitVec.msb_eq_false_iff_two_mul_lt.2 (by omega)

theorem select_zero {α : Type} (a b : α) : Scalar.select 0#1 a b = b := by
  unfold Scalar.select; rw [if_neg (by decide)]

theorem andi_zero_left (c : BitVec 1) : IntOp.andi 0#1 c = 0#1 := by
  unfold IntOp.andi; exact BitVec.zero_and

theorem andi_zero_right (c : BitVec 1) : IntOp.andi c 0#1 = 0#1 := by
  unfold IntOp.andi; exact BitVec.and_zero

theorem not_corner_1024 (x : BitVec 32) : ¬ IntOp.SDivCorner x 1024#32 := by
  rintro (h | ⟨_, h⟩) <;> exact absurd h (by decide)

/-- The truncated quotient of a nonnegative word by `1024` is the unsigned quotient. -/
theorem divsi_1024 (x : BitVec 32) (hx : x.msb = false) : IntOp.divsi .host x 1024#32 = x / 1024#32 := by
  unfold IntOp.divsi
  rw [if_neg (not_corner_1024 x), BitVec.sdiv_eq, hx, show (1024#32 : BitVec 32).msb = false from by decide]
  rfl

/-- The truncated remainder of a nonnegative word by `1024` is the unsigned remainder. -/
theorem remsi_1024 (x : BitVec 32) (hx : x.msb = false) : IntOp.remsi .host x 1024#32 = x % 1024#32 := by
  unfold IntOp.remsi
  rw [if_neg (not_corner_1024 x), BitVec.srem_eq, hx, show (1024#32 : BitVec 32).msb = false from by decide]

theorem toNat_udiv_1024 (x : BitVec 32) : (x / 1024#32).toNat = x.toNat / 1024 := by
  rw [BitVec.toNat_udiv]; rfl

theorem toNat_umod_1024 (x : BitVec 32) : (x % 1024#32).toNat = x.toNat % 1024 := by
  rw [BitVec.toNat_umod]; rfl

/-- The sign of a nonzero word with a clear top bit is one. -/
theorem sgnW_pos (x : BitVec 32) (hx : x.msb = false) (h0 : x ≠ 0) : sgnW x = 1 := by
  unfold sgnW; rw [if_neg h0, hx]; rfl

/-- Floor division of a nonnegative word by `1024`. -/
theorem floorDivW_1024 (x : BitVec 32) (hx : x.msb = false) : floorDivW x 1024#32 = x / 1024#32 := by
  unfold floorDivW
  rw [divsi_1024 x hx, remsi_1024 x hx]
  by_cases h0 : x = 0
  · subst h0
    rw [show IntOp.cmpi .ne ((0 : BitVec 32) % 1024#32) 0#32 = 0#1 from by decide, andi_zero_right, select_zero]
  · rw [sgnW_pos x hx h0, show IntOp.cmpi .ne (1 : BitVec 32) (sgnW 1024#32) = 0#1 from by decide, andi_zero_left,
      select_zero]

theorem toNat_floorDivW_1024 (x : BitVec 32) (hx : x.toNat < 2 ^ 31) : (floorDivW x 1024#32).toNat = x.toNat / 1024 := by
  rw [floorDivW_1024 x (msb_false_of_lt x hx), toNat_udiv_1024]

/-- Floor division by one is the identity. -/
theorem floorDivW_one (x : BitVec 32) : floorDivW x 1#32 = x := by
  unfold floorDivW
  have hd : IntOp.divsi .host x 1#32 = x := by
    unfold IntOp.divsi
    rw [if_neg (by rintro (h | ⟨_, h⟩) <;> exact absurd h (by decide))]; exact BitVec.sdiv_one
  have hr : IntOp.remsi .host x 1#32 = 0#32 := by
    unfold IntOp.remsi
    rw [if_neg (by rintro (h | ⟨_, h⟩) <;> exact absurd h (by decide))]; exact BitVec.srem_one
  rw [hd, hr, show IntOp.cmpi .ne (0#32 : BitVec 32) 0#32 = 0#1 from by decide, andi_zero_right, select_zero]

theorem safeDivW_1024 : safeDivW 1024#32 = 1024#32 := by decide

/-- The remainder of a nonnegative word by `1024`. -/
theorem pyRemW_1024 (x : BitVec 32) (hx : x.msb = false) : pyRemW x 1024#32 = x % 1024#32 := by
  unfold pyRemW
  rw [safeDivW_1024, remsi_1024 x hx]
  have hr : (x % 1024#32).msb = false := by
    apply msb_false_of_lt
    rw [toNat_umod_1024]
    have := Nat.mod_lt x.toNat (show 0 < 1024 by norm_num)
    omega
  have hs : IntOp.cmpi .slt (x % 1024#32) 0#32 = 0#1 := by
    show BitVec.ofBool ((x % 1024#32).slt 0#32) = 0#1
    rw [BitVec.slt_zero_eq_msb, hr]; rfl
  rw [hs, show IntOp.cmpi .ne (0#1 : BitVec 1) (IntOp.cmpi .slt (1024#32 : BitVec 32) 0#32) = 0#1 from by decide,
    andi_zero_left, select_zero]

theorem toNat_pyRemW_1024 (x : BitVec 32) (hx : x.toNat < 2 ^ 31) : (pyRemW x 1024#32).toNat = x.toNat % 1024 := by
  rw [pyRemW_1024 x (msb_false_of_lt x hx), toNat_umod_1024]

/-- The wrap of a nonnegative word is the word itself. -/
theorem wrapW_of_nonneg (x : BitVec 32) (hx : x.msb = false) : wrapW x = x := by
  unfold wrapW
  have hs : IntOp.cmpi .slt x 0#32 = 0#1 := by
    show BitVec.ofBool (x.slt 0#32) = 0#1
    rw [BitVec.slt_zero_eq_msb, hx]; rfl
  rw [hs, select_zero]

/-- A word below `2 ^ 31` reads signed as its natural value. -/
theorem toInt_of_lt (x : BitVec 32) (hx : x.toNat < 2 ^ 31) : x.toInt = (x.toNat : ℤ) :=
  BitVec.toInt_eq_toNat_of_lt (by omega)

end Cert.ReferenceIdeal.Pairs
-- ==== Proof.Pairs.lean ====
import Mathlib.Data.BitVec
import proofs.«121243_j57621281243635_2_alg».proof.Proof.PairsHist
import proofs.«121243_j57621281243635_2_alg».proof.Proof.LibFloorDivWords

/-!
# The two index vectors list the positions above the diagonal

The running sum of the histogram at `p` adds, over the bins `v ≤ p`, the number of positions whose running count is
`v`: the number of positions whose running count is at most `p`, which is `pos p`.  That number is at most `1024²`,
so the 32-bit running sum does not wrap.  The two coordinates are then the floor quotient and the remainder of this
nonnegative word by `1024` (for the second coordinate after a floor division by `1`), and the wrap of a negative
index does nothing: the first vector holds `pos p / 1024` and the second `pos p % 1024`.
-/

namespace Cert.ReferenceIdeal.Pairs

open Idealize.ShloMosaic Idealize.ShloMosaic.ValueIdx Cert.ReferenceIdeal Cert.ReferenceIdeal.Stages Cert.RelNet.Comb

variable [Cert.ReferenceIdeal.Facts]

/-- A finite set's members with `c ≤ p`, split by the value of `c`. -/
theorem sum_card_fibers_gen (s : Finset ℕ) (c : ℕ → ℕ) (p : ℕ) :
    ∑ v ∈ Finset.range (p + 1), (s.filter fun f => c f = v).card = (s.filter fun f => c f ≤ p).card := by
  have H : Set.MapsTo c ↑(s.filter fun f => c f ≤ p) ↑(Finset.range (p + 1)) := by
    intro f hf
    have hf' := Finset.mem_coe.1 hf
    rw [Finset.mem_filter] at hf'
    exact Finset.mem_coe.2 (Finset.mem_range.2 (by omega))
  refine Eq.trans ?_ (Finset.card_eq_sum_card_fiberwise H).symm
  refine Finset.sum_congr rfl fun v hv => ?_
  rw [Finset.mem_range] at hv
  rw [Finset.filter_filter]
  congr 1
  apply Finset.filter_congr
  intro f _
  constructor
  · intro h; exact ⟨by omega, h⟩
  · intro h; exact h.2

/-- The positions with running count at most `p`, split by the value of the running count. -/
theorem sum_card_fibers (p : ℕ) :
    ∑ v ∈ Finset.range (p + 1), ((Finset.range 1048576).filter fun f => cnt f = v).card = pos p :=
  sum_card_fibers_gen (Finset.range 1048576) cnt p

/-- There are at most `1024²` positions. -/
theorem pos_le (p : ℕ) : pos p ≤ 1048576 := by
  unfold pos
  exact (Finset.card_filter_le _ _).trans (by rw [Finset.card_range])

/-- The running sum of the histogram at `p` is the number of positions with running count at most `p`. -/
theorem flat_toNat (p : Fin 523776) : (flat (F := Ideal) (ix1 p)).toNat = pos p.val := by
  unfold flat
  rw [reduceWindow_cumsum 523776 523775 (by norm_num) (hist (F := Ideal))
    (broadcastInDim S_ ![] Facts₀.bcast_S_S_ (constantI S_ 32 0#32)) (fun _ => rfl) _ _ p]
  have hterm : ∀ v ∈ Finset.range (p.val + 1),
      ext (hist (F := Ideal)) v = BitVec.ofNat 32 ((Finset.range 1048576).filter fun f => cnt f = v).card := by
    intro v hv
    have hv' : v < 523776 := by rw [Finset.mem_range] at hv; omega
    exact (ext_of_lt (hist (F := Ideal)) ⟨v, hv'⟩).trans (hist_apply ⟨v, hv'⟩)
  rw [Finset.sum_congr rfl hterm]
  have hle := pos_le p.val
  rw [toNat_sum_ofNat _ _ (by rw [sum_card_fibers]; omega), sum_card_fibers]

/-- Floor division by a constant, entry by entry. -/
theorem floorDiv_apply (x : IVec S523776 32) (c : BitVec 32) (i : S523776.Idx) :
    floorDiv x (constantI S_ 32 c) i = floorDivW (x i) c := rfl

/-- The remainder by a constant, entry by entry. -/
theorem pyRem_apply (x : IVec S523776 32) (c : BitVec 32) (i : S523776.Idx) :
    pyRem x (constantI S_ 32 c) i = pyRemW (x i) c := rfl

/-- The wrap, entry by entry. -/
theorem wrap_apply (x : IVec S523776 32) (i : S523776.Idx) : wrap x i = wrapW (x i) := rfl

/-- The first index vector holds the row of the `p`-th position above the diagonal. -/
theorem rowI_toInt (p : Fin 523776) (h : pos p.val < 1048576) :
    (rowI (F := Ideal) (ix1 p)).toInt = ((pos p.val / 1024 : ℕ) : ℤ) := by
  have hx : (flat (F := Ideal) (ix1 p)).toNat = pos p.val := flat_toNat p
  unfold rowI
  rw [wrap_apply, pyRem_apply, floorDiv_apply]
  generalize flat (F := Ideal) (ix1 p) = x at hx ⊢
  have h1 : (floorDivW x 1024#32).toNat = pos p.val / 1024 := by
    rw [toNat_floorDivW_1024 x (by omega), hx]
  have h2 : (pyRemW (floorDivW x 1024#32) 1024#32).toNat = pos p.val / 1024 := by
    rw [toNat_pyRemW_1024 _ (by rw [h1]; omega), h1]
    exact Nat.mod_eq_of_lt (by omega)
  rw [wrapW_of_nonneg _ (msb_false_of_lt _ (by rw [h2]; omega)), toInt_of_lt _ (by rw [h2]; omega), h2]

/-- The second index vector holds the column of the `p`-th position above the diagonal. -/
theorem rowJ_toInt (p : Fin 523776) (h : pos p.val < 1048576) :
    (rowJ (F := Ideal) (ix1 p)).toInt = ((pos p.val % 1024 : ℕ) : ℤ) := by
  have hx : (flat (F := Ideal) (ix1 p)).toNat = pos p.val := flat_toNat p
  unfold rowJ
  rw [wrap_apply, pyRem_apply, floorDiv_apply, floorDivW_one]
  generalize flat (F := Ideal) (ix1 p) = x at hx ⊢
  have h2 : (pyRemW x 1024#32).toNat = pos p.val % 1024 := by
    rw [toNat_pyRemW_1024 x (by omega), hx]
  have h3 : pos p.val % 1024 < 1024 := Nat.mod_lt _ (by norm_num)
  rw [wrapW_of_nonneg _ (msb_false_of_lt _ (by rw [h2]; omega)), toInt_of_lt _ (by rw [h2]; omega), h2]

end Cert.ReferenceIdeal.Pairs
-- ==== Proof.CombPairs.lean ====
import proofs.«121243_j57621281243635_2_alg».proof.Proof.Comb
import Mathlib.Data.Nat.Nth

/-!
# The running count lists the pairs

`pos p` is the `p`-th position above the diagonal (`Nat.nth above p`): the running count is at most `p` exactly
strictly before that position.  The positions above the diagonal correspond to the pairs `i < j` by quotient and
remainder, there are `1023 + 1022 + … + 0 = 523776` of them, and so a sum over `p < 523776` of a function of
`(pos p / 1024, pos p % 1024)` is the sum of that function over the pairs `i < j`.
-/

open Finset

namespace Cert.RelNet.Comb

theorem above_lt {g : ℕ} (h : above g) : g < 1048576 := by
  unfold above at h; omega

theorem finite_above : (Set.ofPred above).Finite :=
  Set.Finite.subset (Set.finite_Iio 1048576) fun _ hg => above_lt hg

theorem toFinset_above : finite_above.toFinset = (range 1048576).filter above := by
  ext g
  simp only [Set.Finite.mem_toFinset, mem_filter, mem_range]
  exact ⟨fun h => ⟨above_lt h, h⟩, fun h => h.2⟩

theorem cnt_eq_count (f : ℕ) : cnt f = Nat.count above (f + 1) := by
  unfold cnt; rw [Nat.count_eq_card_filter_range]

/-- The running count is at most `p` exactly before the `p`-th position above the diagonal. -/
theorem pos_eq_nth {p : ℕ} (hp : p < finite_above.toFinset.card) : pos p = Nat.nth above p := by
  have hmem : above (Nat.nth above p) := Nat.nth_mem_of_lt_card finite_above hp
  have hlt : Nat.nth above p < 1048576 := above_lt hmem
  have hset : ((range 1048576).filter fun f => cnt f ≤ p) = range (Nat.nth above p) := by
    ext f
    simp only [mem_filter, mem_range]
    constructor
    · rintro ⟨_, hc⟩
      by_contra hge
      have hge' : Nat.nth above p + 1 ≤ f + 1 := by omega
      have h1 := Nat.count_monotone above hge'
      rw [Nat.count_succ, Nat.count_nth_of_lt_card_finite finite_above hp, if_pos hmem] at h1
      rw [cnt_eq_count] at hc
      omega
    · intro hf
      refine ⟨by omega, ?_⟩
      rw [cnt_eq_count]
      exact Nat.le_nth_of_count_le (by omega)
  unfold pos
  rw [hset, card_range]

/-- A sum over the positions above the diagonal is the sum over the pairs `i < j`. -/
theorem sum_above {A : Type*} [AddCommMonoid A] (G : ℕ → ℕ → A) :
    ∑ g ∈ (range 1048576).filter above, G (g / 1024) (g % 1024)
      = ∑ i ∈ range 1024, ∑ j ∈ range 1024, if i < j then G i j else 0 := by
  rw [← Finset.sum_product', ← Finset.sum_filter]
  refine Finset.sum_nbij' (fun g => (g / 1024, g % 1024)) (fun q => 1024 * q.1 + q.2) ?_ ?_ ?_ ?_ ?_
  · intro g hg
    simp only [mem_filter, mem_range] at hg
    simp only [mem_filter, mem_product, mem_range]
    have := hg.2; unfold above at this
    omega
  · intro q hq
    simp only [mem_filter, mem_product, mem_range] at hq
    simp only [mem_filter, mem_range]
    refine ⟨by omega, ?_⟩
    unfold above; omega
  · intro g _
    show 1024 * (g / 1024) + g % 1024 = g
    omega
  · intro q hq
    simp only [mem_filter, mem_product, mem_range] at hq
    ext
    · show (1024 * q.1 + q.2) / 1024 = q.1; omega
    · show (1024 * q.1 + q.2) % 1024 = q.2; omega
  · intro g _; rfl

/-- There are `523776` positions above the diagonal. -/
theorem card_above : finite_above.toFinset.card = 523776 := by
  rw [toFinset_above, card_eq_sum_ones, sum_above fun _ _ => 1]
  have h : ∀ i ∈ range 1024, (∑ j ∈ range 1024, if i < j then 1 else 0) = 1023 - i := by
    intro i hi
    rw [mem_range] at hi
    rw [Finset.sum_boole]
    have : (range 1024).filter (fun j => i < j) = Ico (i + 1) 1024 := by
      ext j; simp only [mem_filter, mem_range, mem_Ico]; omega
    rw [this, Nat.card_Ico, Nat.cast_id]; omega
  rw [Finset.sum_congr rfl h]
  decide +kernel

/-- A sum over `p < 523776` of a function of the `p`-th position is its sum over the positions above the
    diagonal. -/
theorem sum_nth {A : Type*} [AddCommMonoid A] (H : ℕ → A) :
    ∑ p ∈ range 523776, H (Nat.nth above p) = ∑ g ∈ (range 1048576).filter above, H g := by
  have himg : (range 523776).image (Nat.nth above) = (range 1048576).filter above := by
    rw [← toFinset_above]
    ext g
    simp only [mem_image, mem_range, Set.Finite.mem_toFinset]
    constructor
    · rintro ⟨p, hp, rfl⟩
      exact Nat.nth_mem_of_lt_card finite_above (by rw [card_above]; exact hp)
    · intro hg
      obtain ⟨n, hn, rfl⟩ := Nat.exists_lt_card_finite_nth_eq finite_above hg
      exact ⟨n, by rw [card_above] at hn; exact hn, rfl⟩
  rw [← himg, Finset.sum_image]
  intro a ha b hb hab
  rw [mem_coe, mem_range] at ha hb
  exact Nat.nth_injOn finite_above (by rw [card_above]; exact ha) (by rw [card_above]; exact hb) hab

theorem pos_lt {p : ℕ} (hp : p < 523776) : pos p < 1048576 := by
  rw [pos_eq_nth (by rw [card_above]; exact hp)]
  exact above_lt (Nat.nth_mem_of_lt_card finite_above (by rw [card_above]; exact hp))

theorem pos_above {p : ℕ} (hp : p < 523776) : pos p / 1024 < pos p % 1024 := by
  rw [pos_eq_nth (by rw [card_above]; exact hp)]
  exact Nat.nth_mem_of_lt_card finite_above (by rw [card_above]; exact hp)

/-- The listing `p ↦ (pos p / 1024, pos p % 1024)` runs through the pairs `i < j` once each: a sum over it is
    the sum over the pairs. -/
theorem sum_pos {A : Type*} [AddCommMonoid A] (G : ℕ → ℕ → A) :
    ∑ p : Fin 523776, G (pos p.val / 1024) (pos p.val % 1024)
      = ∑ i ∈ range 1024, ∑ j ∈ range 1024, if i < j then G i j else 0 := by
  rw [Fin.sum_univ_eq_sum_range (fun p => G (pos p / 1024) (pos p % 1024)) 523776]
  rw [← sum_above G, ← sum_nth fun g => G (g / 1024) (g % 1024)]
  refine Finset.sum_congr rfl fun p hp => ?_
  rw [mem_range] at hp
  rw [pos_eq_nth (by rw [card_above]; exact hp)]

end Cert.RelNet.Comb
-- ==== Proof.Finite.lean ====
import proofs.«121243_j57621281243635_2_alg».proof.Pre_finite_inputs
import Idealize.ShloMosaic.Lib.ReduceAll
import Idealize.ShloMosaic.Lib.ValueIdx
import Idealize.ShloMosaic.PureOps.Ideal.Laws

/-!
# Finite inputs are real numbers

The precondition says of every input array that the absolute value of each entry is below `+∞`; on the extended
reals that leaves exactly the real numbers.
-/

noncomputable section

namespace Cert.RelNet.Finite

open Idealize.ShloMosaic Cert.Pre_finite_inputs

theorem inf_bits : Ideal.ofBits .f32 0x7F800000#32 = ⊤ := by
  simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

instance : Subsingleton S_.Idx := ⟨fun a b => funext fun d => d.elim0⟩

variable [Facts]

/-- Under the precondition every entry of every input is a real number. -/
theorem all_real (a0 : FVec Ideal S4x1024x64 .f32) (a1 : FVec Ideal S64x128 .f32) (a2 : FVec Ideal S64 .f32)
    (a3 : FVec Ideal S64x64 .f32) (a4 : FVec Ideal S64 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  simp only [andi, IntOp.andi_eq_one] at h0
  obtain ⟨⟨⟨⟨h0, h1⟩, h2⟩, h3⟩, h4⟩ := h0
  refine ⟨fun i => ?_, fun i => ?_, fun i => ?_, fun i => ?_, fun i => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)
  · exact real_of_abs_lt _ (Host.reduce_andi_all _ _ _ _ _ h4 i)

end Cert.RelNet.Finite

end
-- ==== Proof.Alg.lean ====
import proofs.«121243_j57621281243635_2_alg».proof.Proof.Spec
import proofs.«121243_j57621281243635_2_alg».proof.Proof.CombPairs

/-!
# The pair sum is the weighted sum

Over the real numbers: if `p ↦ (ii p, jj p)` lists the pairs `i < j` of `{0, …, 1023}` once each, then for any
`X`, `Y` and constant `c` the sum over the listing of `X (ii p) + Y (jj p) + c` is
`∑ k, ((1023 - k) X k + k Y k) + 523776 c`: object `k` is the smaller member of `1023 - k` pairs and the larger member
of `k` pairs.  With `X`, `Y` linear in the objects this turns the reference's arrangement into the kernel's, once
the sum over the 1024 objects is split into its two halves of 512.
-/

open Finset

noncomputable section

namespace Cert.RelNet.Alg

open Cert.RelNet Cert.RelNet.Comb

attribute [local irreducible] Cert.RelNet.Comb.pos

/-- The pairs `i < j` over `Fin 1024`: the listing by positions, with `Fin`-valued coordinates. -/
theorem sum_listing {A : Type*} [AddCommMonoid A] (ii jj : Fin 523776 → Fin 1024)
    (hii : ∀ p, (ii p).val = pos p.val / 1024) (hjj : ∀ p, (jj p).val = pos p.val % 1024)
    (G : Fin 1024 → Fin 1024 → A) :
    ∑ p : Fin 523776, G (ii p) (jj p) = ∑ i : Fin 1024, ∑ j : Fin 1024, if i < j then G i j else 0 := by
  let G' : ℕ → ℕ → A := fun i j => if h : i < 1024 ∧ j < 1024 then G ⟨i, h.1⟩ ⟨j, h.2⟩ else 0
  have h1 : ∀ p : Fin 523776, G (ii p) (jj p) = G' (pos p.val / 1024) (pos p.val % 1024) := by
    intro p
    have hi : pos p.val / 1024 < 1024 := by have h1 := (ii p).isLt; have h2 := hii p; omega
    have hj : pos p.val % 1024 < 1024 := by omega
    simp only [G']
    rw [dif_pos ⟨hi, hj⟩]
    congr 1
    · exact Fin.ext (hii p)
    · exact Fin.ext (hjj p)
  rw [Finset.sum_congr rfl fun p _ => h1 p, sum_pos G', Finset.sum_range]
  refine Finset.sum_congr rfl fun i _ => ?_
  rw [Finset.sum_range]
  refine Finset.sum_congr rfl fun j _ => ?_
  simp only [G']
  rw [dif_pos ⟨i.isLt, j.isLt⟩]
  rfl

theorem card_gt (i : Fin 1024) : (univ.filter fun j : Fin 1024 => i < j).card = 1023 - i.val := by
  rw [Finset.filter_lt_eq_Ioi, Fin.card_Ioi]

theorem card_lt (j : Fin 1024) : (univ.filter fun i : Fin 1024 => i < j).card = j.val := by
  rw [Finset.filter_gt_eq_Iio, Fin.card_Iio]

theorem sum_weights : ∑ k : Fin 1024, ((1023 : ℝ) - (k.val : ℝ)) = 523776 := by
  have h : ∀ k : Fin 1024, ((1023 : ℝ) - (k.val : ℝ)) = ((1023 - k.val : ℕ) : ℝ) := by
    intro k
    have := k.isLt
    rw [Nat.cast_sub (by omega)]; norm_num
  rw [Finset.sum_congr rfl fun k _ => h k, ← Nat.cast_sum]
  have : (∑ k : Fin 1024, (1023 - k.val)) = 523776 := by
    rw [Fin.sum_univ_eq_sum_range (fun k => 1023 - k) 1024]; decide +kernel
  rw [this]; norm_num

/-- Object `k` is the smaller member of `1023 - k` pairs and the larger member of `k` pairs. -/
theorem pair_sum (ii jj : Fin 523776 → Fin 1024)
    (hii : ∀ p, (ii p).val = pos p.val / 1024) (hjj : ∀ p, (jj p).val = pos p.val % 1024)
    (X Y : Fin 1024 → ℝ) (c : ℝ) :
    ∑ p : Fin 523776, (X (ii p) + Y (jj p) + c)
      = ∑ k : Fin 1024, (((1023 : ℝ) - (k.val : ℝ)) * X k + (k.val : ℝ) * Y k) + 523776 * c := by
  rw [sum_listing ii jj hii hjj fun i j => X i + Y j + c]
  have hsplit : ∀ i j : Fin 1024, (if i < j then X i + Y j + c else 0)
      = (if i < j then X i else 0) + (if i < j then Y j else 0) + (if i < j then c else 0) := by
    intro i j; split_ifs <;> simp
  simp only [hsplit, Finset.sum_add_distrib]
  have hX : ∑ i : Fin 1024, ∑ j : Fin 1024, (if i < j then X i else 0)
      = ∑ k : Fin 1024, ((1023 : ℝ) - (k.val : ℝ)) * X k := by
    refine Finset.sum_congr rfl fun i _ => ?_
    rw [← Finset.sum_filter, Finset.sum_const, card_gt, nsmul_eq_mul, Nat.cast_sub (by have := i.isLt; omega)]
    norm_num
  have hY : ∑ i : Fin 1024, ∑ j : Fin 1024, (if i < j then Y j else 0)
      = ∑ k : Fin 1024, (k.val : ℝ) * Y k := by
    rw [Finset.sum_comm]
    refine Finset.sum_congr rfl fun j _ => ?_
    rw [← Finset.sum_filter, Finset.sum_const, card_lt, nsmul_eq_mul]
  have hc : ∑ i : Fin 1024, ∑ j : Fin 1024, (if i < j then c else 0) = 523776 * c := by
    have : ∀ i : Fin 1024, ∑ j : Fin 1024, (if i < j then c else 0) = ((1023 : ℝ) - (i.val : ℝ)) * c := by
      intro i
      rw [← Finset.sum_filter, Finset.sum_const, card_gt, nsmul_eq_mul, Nat.cast_sub (by have := i.isLt; omega)]
      norm_num
    rw [Finset.sum_congr rfl fun i _ => this i, ← Finset.sum_mul, sum_weights]
  rw [hX, hY, hc]

/-- The 1024 objects are the two halves of 512. -/
theorem sum_halves (f : Fin 1024 → ℝ) : ∑ k : Fin 1024, f k = ∑ r : Fin 512, f (gpos 0 r) + ∑ r : Fin 512, f (gpos 1 r) := by
  have h := Fin.sum_univ_add (a := 512) (b := 512) f
  rw [h]
  have e0 : ∀ r : Fin 512, (Fin.castAdd 512 r : Fin (512 + 512)) = gpos 0 r := fun r => Fin.ext (by simp [gpos])
  have e1 : ∀ r : Fin 512, (Fin.natAdd 512 r : Fin (512 + 512)) = gpos 1 r := fun r => Fin.ext (by simp [gpos]; omega)
  simp only [e0, e1]

end Cert.RelNet.Alg

end
-- ==== Proof.Bridge.lean ====
import proofs.«121243_j57621281243635_2_alg».proof.Proof.Spec
import proofs.«121243_j57621281243635_2_alg».proof.Proof.Alg

/-!
# The two arrangements agree on real inputs

With every input entry a real number, the reference's arrangement (relations summed pair by pair over a listing
of the pairs) and the kernel's arrangement (weighted sums over the two halves of the objects) are the same real
number: the pair sum is the weighted sum (`Alg.pair_sum`), sums over objects and over features are exchanged,
and the sum over the 1024 objects is the sum of its two halves.
-/

open Finset

noncomputable section

namespace Cert.RelNet.Bridge

open Idealize.ShloMosaic Idealize.ShloMosaic.ValueIdx Cert.RelNet Cert.RelNet.Comb Cert.RelNet.Alg

attribute [local irreducible] Cert.RelNet.Comb.pos

section Real

variable (o : Fin 4 → Fin 1024 → Fin 64 → ℝ) (A B W : Fin 64 → Fin 64 → ℝ) (g h : Fin 64 → ℝ)

def vsumR (c : Fin 2) (b : Fin 4) (d : Fin 64) : ℝ := ∑ r : Fin 512, o b (gpos c r) d
def wsumR (c : Fin 2) (b : Fin 4) (d : Fin 64) : ℝ := ∑ r : Fin 512, o b (gpos c r) d * ((gpos c r).val : ℝ)
def leadR (c : Fin 2) (b : Fin 4) (d : Fin 64) : ℝ := 1023 * vsumR o c b d - wsumR o c b d

/-- Half `c`'s share of the pooled relations, without the bias. -/
def shareR (c : Fin 2) (b : Fin 4) (e : Fin 64) : ℝ :=
  (∑ d : Fin 64, leadR o c b d * A e d) + (∑ d : Fin 64, wsumR o c b d * B e d)

/-- The kernel's arrangement over the reals. -/
def KR (b : Fin 4) (e' : Fin 64) : ℝ :=
  ((∑ e : Fin 64, (shareR o A B 0 b e + 523776 * g e) * W e' e) + h e')
    + (∑ e : Fin 64, shareR o A B 1 b e * W e' e)

/-- The reference's arrangement over the reals. -/
def RR (ii jj : Fin 523776 → Fin 1024) (b : Fin 4) (e' : Fin 64) : ℝ :=
  (∑ e : Fin 64, (∑ p : Fin 523776,
      (((∑ d : Fin 64, o b (ii p) d * A e d) + (∑ d : Fin 64, o b (jj p) d * B e d)) + g e)) * W e' e) + h e'

/-- A weighted sum over rows of a product with a fixed vector: the sums exchanged. -/
theorem swap_sums (u : Fin 512 → ℝ) (v : Fin 512 → Fin 64 → ℝ) (a : Fin 64 → ℝ) :
    ∑ r : Fin 512, u r * ∑ d : Fin 64, v r d * a d = ∑ d : Fin 64, (∑ r : Fin 512, u r * v r d) * a d := by
  simp only [Finset.mul_sum, Finset.sum_mul]
  rw [Finset.sum_comm]
  refine Finset.sum_congr rfl fun d _ => Finset.sum_congr rfl fun r _ => ?_
  ring

/-- One half's part of the weighted object sum is that half's share. -/
theorem half_share (c : Fin 2) (b : Fin 4) (e : Fin 64) :
    ∑ r : Fin 512, (((1023 : ℝ) - ((gpos c r).val : ℝ)) * (∑ d : Fin 64, o b (gpos c r) d * A e d)
        + ((gpos c r).val : ℝ) * (∑ d : Fin 64, o b (gpos c r) d * B e d))
      = shareR o A B c b e := by
  rw [Finset.sum_add_distrib, swap_sums, swap_sums]
  unfold shareR leadR vsumR wsumR
  congr 1
  · refine Finset.sum_congr rfl fun d _ => ?_
    congr 1
    rw [Finset.mul_sum, ← Finset.sum_sub_distrib]
    refine Finset.sum_congr rfl fun r _ => ?_
    ring
  · refine Finset.sum_congr rfl fun d _ => ?_
    congr 1
    refine Finset.sum_congr rfl fun r _ => ?_
    ring

theorem RR_eq_KR (ii jj : Fin 523776 → Fin 1024)
    (hii : ∀ p, (ii p).val = pos p.val / 1024) (hjj : ∀ p, (jj p).val = pos p.val % 1024) (b : Fin 4) (e' : Fin 64) :
    RR o A B W g h ii jj b e' = KR o A B W g h b e' := by
  unfold RR KR
  have hp : ∀ e : Fin 64, (∑ p : Fin 523776,
      (((∑ d : Fin 64, o b (ii p) d * A e d) + (∑ d : Fin 64, o b (jj p) d * B e d)) + g e))
      = (shareR o A B 0 b e + shareR o A B 1 b e) + 523776 * g e := by
    intro e
    rw [pair_sum ii jj hii hjj (fun k => ∑ d : Fin 64, o b k d * A e d) (fun k => ∑ d : Fin 64, o b k d * B e d) (g e),
      sum_halves, half_share, half_share]
  rw [Finset.sum_congr rfl fun e _ => congrArg (· * W e' e) (hp e)]
  have hs : ∀ e : Fin 64, ((shareR o A B 0 b e + shareR o A B 1 b e) + 523776 * g e) * W e' e
      = (shareR o A B 0 b e + 523776 * g e) * W e' e + shareR o A B 1 b e * W e' e := fun e => by ring
  rw [Finset.sum_congr rfl fun e _ => hs e, Finset.sum_add_distrib]
  ring

end Real

/-! ## The extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (ro : (⟨3, ![4, 1024, 64]⟩ : Shape).Idx → ℝ) (rwg : (⟨2, ![64, 128]⟩ : Shape).Idx → ℝ)
  (rbg : (⟨1, ![64]⟩ : Shape).Idx → ℝ) (rwf : (⟨2, ![64, 64]⟩ : Shape).Idx → ℝ) (rbf : (⟨1, ![64]⟩ : Shape).Idx → ℝ)

theorem Rout_coe (ii jj : Fin 523776 → Fin 1024) (j : (⟨2, ![4, 64]⟩ : Shape).Idx) :
    Rout ii jj (fun i => (ro i : EReal)) (fun i => (rwg i : EReal)) (fun i => (rbg i : EReal))
        (fun i => (rwf i : EReal)) (fun i => (rbf i : EReal)) j
      = ((RR (fun b k d => ro (ix3 b k d)) (fun e d => rwg (ix2 e (lo d))) (fun e d => rwg (ix2 e (hi d)))
          (fun e' e => rwf (ix2 e' e)) (fun e => rbg (ix1 e)) (fun e' => rbf (ix1 e')) ii jj (j 0) (j 1) : ℝ) : EReal) := by
  unfold Rout sR RR
  simp only [EReal.coe_add, EReal.coe_mul, coe_sum]

theorem Kout_coe (j : (⟨2, ![4, 64]⟩ : Shape).Idx) :
    Kout (fun i => (ro i : EReal)) (fun i => (rwg i : EReal)) (fun i => (rbg i : EReal))
        (fun i => (rwf i : EReal)) (fun i => (rbf i : EReal)) j
      = ((KR (fun b k d => ro (ix3 b k d)) (fun e d => rwg (ix2 e (lo d))) (fun e d => rwg (ix2 e (hi d)))
          (fun e' e => rwf (ix2 e' e)) (fun e => rbg (ix1 e)) (fun e' => rbf (ix1 e')) (j 0) (j 1) : ℝ) : EReal) := by
  unfold Kout partK sK lead vsum wsum KR shareR leadR vsumR wsumR
  rw [Fin.sum_univ_two]
  simp only [if_pos, if_neg (show (1 : Fin 2) ≠ 0 by decide), add_zero, EReal.coe_add, EReal.coe_mul, EReal.coe_sub,
    coe_sum]

/-- On real inputs, over a listing of the pairs, the reference's arrangement is the kernel's. -/
theorem Rout_eq_Kout (ii jj : Fin 523776 → Fin 1024)
    (hii : ∀ p, (ii p).val = pos p.val / 1024) (hjj : ∀ p, (jj p).val = pos p.val % 1024)
    (obj : Obj) (wg : Wg) (bg : Vec64) (wf : Wf) (bf : Vec64)
    (hobj : ∀ i, ∃ r : ℝ, obj i = (r : EReal)) (hwg : ∀ i, ∃ r : ℝ, wg i = (r : EReal))
    (hbg : ∀ i, ∃ r : ℝ, bg i = (r : EReal)) (hwf : ∀ i, ∃ r : ℝ, wf i = (r : EReal))
    (hbf : ∀ i, ∃ r : ℝ, bf i = (r : EReal)) :
    Rout ii jj obj wg bg wf bf = Kout obj wg bg wf bf := by
  choose ro hro using hobj
  choose rwg hrwg using hwg
  choose rbg hrbg using hbg
  choose rwf hrwf using hwf
  choose rbf hrbf using hbf
  obtain rfl : obj = fun i => (ro i : EReal) := funext hro
  obtain rfl : wg = fun i => (rwg i : EReal) := funext hrwg
  obtain rfl : bg = fun i => (rbg i : EReal) := funext hrbg
  obtain rfl : wf = fun i => (rwf i : EReal) := funext hrwf
  obtain rfl : bf = fun i => (rbf i : EReal) := funext hrbf
  funext j
  rw [Rout_coe, Kout_coe]
  exact congrArg _ (RR_eq_KR _ _ _ _ _ _ ii jj hii hjj _ _)

end Cert.RelNet.Bridge

end
-- ==== Proof.lean ====
import proofs.«121243_j57621281243635_2_alg».proof.Defs
import proofs.«121243_j57621281243635_2_alg».proof.Proof.Gen.Kernel
import proofs.«121243_j57621281243635_2_alg».proof.Proof.Gen.KernelIdeal
import proofs.«121243_j57621281243635_2_alg».proof.Proof.Gen.ReferenceIdeal
import proofs.«121243_j57621281243635_2_alg».proof.Proof.Gen.Pre_finite_inputs
import proofs.«121243_j57621281243635_2_alg».proof.Proof.KernelFrameP
import proofs.«121243_j57621281243635_2_alg».proof.Proof.KernelIdealFrameP
import proofs.«121243_j57621281243635_2_alg».proof.Proof.KernelValue
import proofs.«121243_j57621281243635_2_alg».proof.Proof.RefRunArgs
import proofs.«121243_j57621281243635_2_alg».proof.Proof.RefRun
import proofs.«121243_j57621281243635_2_alg».proof.Proof.RefRead
import proofs.«121243_j57621281243635_2_alg».proof.Proof.Pairs
import proofs.«121243_j57621281243635_2_alg».proof.Proof.CombPairs
import proofs.«121243_j57621281243635_2_alg».proof.Proof.Finite
import proofs.«121243_j57621281243635_2_alg».proof.Proof.Bridge

/-!
# A relation network: the sum over all pairs against two weighted sums

The reference forms the relation `A t_i + B t_j + bg` of every pair `i < j` of the 1024 objects of a batch entry,
sums the 523776 relations and applies a second linear map.  The kernel never forms a pair: object `k` is the first
member of `1023 - k` pairs and the second member of `k` pairs, so the pair sum is
`A (∑ (1023 - k) t_k) + B (∑ k t_k) + 523776 bg`; it computes the two weighted sums over each half of the objects
(`1023 · ∑ t_k - ∑ k t_k` and `∑ k t_k`), applies both linear maps to each half, counts the biases in the first
half only, and adds the two partial results.

Over the extended reals the two agree when every input entry is a real number, which is what the precondition
says: the reference's index vectors list the pairs once each (the running count of the upper-triangular mask,
its histogram, the histogram's running sum, quotient and remainder by 1024), the sum over the listing of
`X i + Y j + c` is `∑ ((1023 - k) X k + k Y k) + 523776 c`, and the rest is exchanging finite sums of reals.
-/

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ => Cert.ReferenceIdeal.RValue.frame (F := Ideal) m ρ

/-- The reference's first index vector selects row `pos p / 1024`. -/
theorem rowI_val (p : Fin 523776) :
    (Cert.RelNet.rowOf (Cert.ReferenceIdeal.Stages.rowI (F := Ideal)) p).val = Cert.RelNet.Comb.pos p.val / 1024 := by
  have hlt := Cert.RelNet.Comb.pos_lt p.isLt
  have h := Cert.ReferenceIdeal.Pairs.rowI_toInt p hlt
  show min (Cert.ReferenceIdeal.Stages.rowI (F := Ideal) (ValueIdx.ix1 p)).toInt.toNat 1023 = _
  rw [h, Int.toNat_natCast]
  omega

/-- The second selects row `pos p % 1024`. -/
theorem rowJ_val (p : Fin 523776) :
    (Cert.RelNet.rowOf (Cert.ReferenceIdeal.Stages.rowJ (F := Ideal)) p).val = Cert.RelNet.Comb.pos p.val % 1024 := by
  have hlt := Cert.RelNet.Comb.pos_lt p.isLt
  have h := Cert.ReferenceIdeal.Pairs.rowJ_toInt p hlt
  show min (Cert.ReferenceIdeal.Stages.rowJ (F := Ideal) (ValueIdx.ix1 p)).toInt.toNat 1023 = _
  rw [h, Int.toNat_natCast]
  omega

theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun r h c => ⟨(h c).1.trans ?_, (h c).2⟩)
    (Cert.ReferenceIdeal.RValue.run (F := Ideal) m' ρ')
  rw [(hagree c).1, (hagree c).2.1, (hagree c).2.2.1, (hagree c).2.2.2.1, (hagree c).2.2.2.2]
  rw [Cert.ReferenceIdeal.RValue.out_eq_Rout]
  obtain ⟨h0, h1, h2, h3, h4⟩ := Cert.RelNet.Finite.all_real _ _ _ _ _ (hpre c)
  exact Cert.RelNet.Bridge.Rout_eq_Kout _ _ rowI_val rowJ_val _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
